-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x1 : Shape := ⟨2, ![1, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S1x1 : S_.BroadcastsInDim S1x1 (![] : Fin 0 → Fin S1x1.rank)
  reducesTo_S1x1_S_d0_1 : S1x1.ReducesTo [0, 1] S_

variable [Facts]

def fn_part3 {F : FTy → Type} [FloatOps F] (main_v48 : IVec S_ 1) (main_v49 : FVec F S1x1 .f32) (main_v50 : FVec F S1x1 .f32) : IVec S_ 1 :=
  let main_v51 : IVec S1x1 1 := cmpf .olt main_v49 main_v50
  let main_c_19 : IVec S_ 1 := constantI S_ 1 1#1
  let main_v52 : IVec S_ 1 := (fun x v => Host.reduce IntOp.andi x v reducesTo_S1x1_S_d0_1 h_S_) main_v51 main_c_19
  let main_v53 : IVec S_ 1 := andi main_v48 main_v52
  main_v53

def fn_part2 {F : FTy → Type} [FloatOps F] (main_arg9 : FVec F S128 .f32) (main_arg10 : FVec F S128 .f32) (main_arg11 : FVec F S128 .f32) (main_arg12 : FVec F S1x1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S1x1 .f32 := Host.absf main_arg12
  let main_cst_18 : FVec F S_ .f32 := constant S_ .f32 0x7F800000#32
  let main_v50 : FVec F S1x1 .f32 := broadcastInDim S1x1 ![] bcast_S_S1x1 main_cst_18
  fn_part3 (F := F) main_v48 main_v49 main_v50

def fn_part1 {F : FTy → Type} [FloatOps F] (main_arg6 : FVec F S256 .f32) (main_arg7 : FVec F S256 .f32) (main_arg8 : FVec F S256x128 .f32) (main_arg9 : FVec F S128 .f32) (main_arg10 : FVec F S128 .f32) (main_arg11 : FVec F S128 .f32) (main_arg12 : FVec F S1x1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S800000 32) (main_arg2 : IVec S800000 32) (main_arg3 : FVec F S800000 .f32) (main_arg4 : FVec F S128x256 .f32) (main_arg5 : FVec F S256 .f32) (main_arg6 : FVec F S256 .f32) (main_arg7 : FVec F S256 .f32) (main_arg8 : FVec F S256x128 .f32) (main_arg9 : FVec F S128 .f32) (main_arg10 : FVec F S128 .f32) (main_arg11 : FVec F S128 .f32) (main_arg12 : FVec F S1x1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x1 : Shape := ⟨2, ![1, 1]⟩
abbrev S800000x1 : Shape := ⟨2, ![800000, 1]⟩
abbrev S_ : Shape := ⟨0, ![]⟩
abbrev S800000x128 : Shape := ⟨2, ![800000, 128]⟩
abbrev S1x256 : Shape := ⟨2, ![1, 256]⟩
abbrev S1x128 : Shape := ⟨2, ![1, 128]⟩
abbrev S50000x256 : Shape := ⟨2, ![50000, 256]⟩
abbrev S16x256 : Shape := ⟨2, ![16, 256]⟩
abbrev S1000x128 : Shape := ⟨2, ![1000, 128]⟩
abbrev S1000x256 : Shape := ⟨2, ![1000, 256]⟩
abbrev S8x256 : Shape := ⟨2, ![8, 256]⟩
abbrev S2x8x256 : Shape := ⟨3, ![2, 8, 256]⟩
abbrev S2x1x256 : Shape := ⟨3, ![2, 1, 256]⟩
abbrev S2x256 : Shape := ⟨2, ![2, 256]⟩
abbrev S16x128 : Shape := ⟨2, ![16, 128]⟩
abbrev S8x128 : Shape := ⟨2, ![8, 128]⟩
abbrev S2x8x128 : Shape := ⟨3, ![2, 8, 128]⟩
abbrev S2x1x128 : Shape := ⟨3, ![2, 1, 128]⟩
abbrev S2x128 : Shape := ⟨2, ![2, 128]⟩
abbrev S2000x128 : Shape := ⟨2, ![2000, 128]⟩

abbrev nBuf : Space → Nat
  | .hbm => 98
  | .vmem => 31
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1x1, .f32⟩
  | .hbm, ⟨13, _⟩ => ⟨S800000x1, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S1x256, .f32⟩
  | .hbm, ⟨30, _⟩ => ⟨S1x128, .f32⟩
  | .hbm, ⟨31, _⟩ => ⟨S128x256, .bf16⟩
  | .hbm, ⟨32, _⟩ => ⟨S256x128, .bf16⟩
  | .hbm, ⟨33, _⟩ => ⟨S50000x256, .f32⟩
  | .hbm, ⟨34, _⟩ => ⟨S16x256, .f32⟩
  | .hbm, ⟨35, _⟩ => ⟨S16x256, .f32⟩
  | .hbm, ⟨36, _⟩ => ⟨S2x8x256, .f32⟩
  | .hbm, ⟨37, _⟩ => ⟨S2x1x256, .f32⟩
  | .hbm, ⟨38, _⟩ => ⟨S2x256, .f32⟩
  | .hbm, ⟨39, _⟩ => ⟨S_, .f32⟩
  | .hbm, ⟨40, _⟩ => ⟨S256, .f32⟩
  | .hbm, ⟨41, _⟩ => ⟨S1x256, .f32⟩
  | .hbm, ⟨42, _⟩ => ⟨S2x8x256, .f32⟩
  | .hbm, ⟨43, _⟩ => ⟨S2x1x256, .f32⟩
  | .hbm, ⟨44, _⟩ => ⟨S2x256, .f32⟩
  | .hbm, ⟨45, _⟩ => ⟨S_, .f32⟩
  | .hbm, ⟨46, _⟩ => ⟨S256, .f32⟩
  | .hbm, ⟨47, _⟩ => ⟨S1x256, .f32⟩
  | .hbm, ⟨48, _⟩ => ⟨S_, .f32⟩
  | .hbm, ⟨49, _⟩ => ⟨S1x256, .f32⟩
  | .hbm, ⟨50, _⟩ => ⟨S1x256, .f32⟩
  | .hbm, ⟨51, _⟩ => ⟨S_, .f32⟩
  | .hbm, ⟨52, _⟩ => ⟨S1x256, .f32⟩
  | .hbm, ⟨53, _⟩ => ⟨S1x256, .f32⟩
  | .hbm, ⟨54, _⟩ => ⟨S1x256, .f32⟩
  | .hbm, ⟨55, _⟩ => ⟨S1x256, .f32⟩
  | .hbm, ⟨56, _⟩ => ⟨S_, .f32⟩
  | .hbm, ⟨57, _⟩ => ⟨S1x256, .f32⟩
  | .hbm, ⟨58, _⟩ => ⟨S1x256, .f32⟩
  | .hbm, ⟨59, _⟩ => ⟨S1x256, .f32⟩
  | .hbm, ⟨60, _⟩ => ⟨S1x256, .f32⟩
  | .hbm, ⟨61, _⟩ => ⟨S1x256, .f32⟩
  | .hbm, ⟨62, _⟩ => ⟨S1x256, .f32⟩
  | .hbm, ⟨63, _⟩ => ⟨S1x256, .f32⟩
  | .hbm, ⟨64, _⟩ => ⟨S1x256, .f32⟩
  | .hbm, ⟨65, _⟩ => ⟨S50000x128, .f32⟩
  | .hbm, ⟨66, _⟩ => ⟨S16x128, .f32⟩
  | .hbm, ⟨67, _⟩ => ⟨S16x128, .f32⟩
  | .hbm, ⟨68, _⟩ => ⟨S2x8x128, .f32⟩
  | .hbm, ⟨69, _⟩ => ⟨S2x1x128, .f32⟩
  | .hbm, ⟨70, _⟩ => ⟨S2x128, .f32⟩
  | .hbm, ⟨71, _⟩ => ⟨S_, .f32⟩
  | .hbm, ⟨72, _⟩ => ⟨S128, .f32⟩
  | .hbm, ⟨73, _⟩ => ⟨S1x128, .f32⟩
  | .hbm, ⟨74, _⟩ => ⟨S2x8x128, .f32⟩
  | .hbm, ⟨75, _⟩ => ⟨S2x1x128, .f32⟩
  | .hbm, ⟨76, _⟩ => ⟨S2x128, .f32⟩
  | .hbm, ⟨77, _⟩ => ⟨S_, .f32⟩
  | .hbm, ⟨78, _⟩ => ⟨S128, .f32⟩
  | .hbm, ⟨79, _⟩ => ⟨S1x128, .f32⟩
  | .hbm, ⟨80, _⟩ => ⟨S_, .f32⟩
  | .hbm, ⟨81, _⟩ => ⟨S1x128, .f32⟩
  | .hbm, ⟨82, _⟩ => ⟨S1x128, .f32⟩
  | .hbm, ⟨83, _⟩ => ⟨S_, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S_, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1x1, .f32⟩
  | .local _ .vmem, ⟨5, _⟩ => ⟨S128x256, .bf16⟩
  | .local _ .vmem, ⟨6, _⟩ => ⟨S1x256, .f32⟩
  | .local _ .vmem, ⟨7, _⟩ => ⟨S1000x256, .f32⟩
  | .local _ .vmem, ⟨8, _⟩ => ⟨S1000x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S8x256, .f32⟩
  | .local _ .vmem, ⟨13, _⟩ => ⟨S1000x256, .f32⟩
  | .local _ .vmem, ⟨14, _⟩ => ⟨S1000x256, .f32⟩
  | .local _ .vmem, ⟨15, _⟩ => ⟨S1x256, .f32⟩
  | .local _ .vmem, ⟨16, _⟩ => ⟨S1x256, .f32⟩
  | .local _ .vmem, ⟨17, _⟩ => ⟨S256x128, .bf16⟩
  | .local _ .vmem, ⟨18, _⟩ => ⟨S1x128, .f32⟩
  | .local _ .vmem, ⟨19, _⟩ => ⟨S1000x128, .f32⟩
  | .local _ .vmem, ⟨20, _⟩ => ⟨S1000x128, .f32⟩
  | .local _ .vmem, ⟨21, _⟩ => ⟨S8x128, .f32⟩
  | .local _ .vmem, ⟨22, _⟩ => ⟨S8x128, .f32⟩
  | .local _ .vmem, ⟨23, _⟩ => ⟨S8x128, .f32⟩
  | .local _ .vmem, ⟨24, _⟩ => ⟨S8x128, .f32⟩
  | .local _ .vmem, ⟨25, _⟩ => ⟨S2000x128, .f32⟩
  | .local _ .vmem, ⟨26, _⟩ => ⟨S2000x128, .f32⟩
  | .local _ .vmem, ⟨27, _⟩ => ⟨S1x128, .f32⟩
  | .local _ .vmem, ⟨28, _⟩ => ⟨S1x128, .f32⟩
  | .local _ .vmem, ⟨29, _⟩ => ⟨S2000x128, .f32⟩
  | .local _ .vmem, ⟨30, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17_0 : Ref sig .tc := ⟨.hbm, 33, rfl⟩
abbrev main_v17_1 : Ref sig .tc := ⟨.hbm, 34, rfl⟩
abbrev main_v17_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_2 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42_0 : Ref sig .tc := ⟨.hbm, 65, rfl⟩
abbrev main_v42_1 : Ref sig .tc := ⟨.hbm, 66, rfl⟩
abbrev main_v42_2 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_6 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_7 : Ref sig .tc := ⟨.hbm, 77, rfl⟩
abbrev main_v51 : Ref sig .tc := ⟨.hbm, 78, rfl⟩
abbrev main_v52 : Ref sig .tc := ⟨.hbm, 79, rfl⟩
abbrev main_cst_8 : Ref sig .tc := ⟨.hbm, 80, rfl⟩
abbrev main_v53 : Ref sig .tc := ⟨.hbm, 81, rfl⟩
abbrev main_v54 : Ref sig .tc := ⟨.hbm, 82, rfl⟩
abbrev main_cst_9 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_10 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg3_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc1_sem6_0 : DmaSem sig := 21
abbrev cc1_sem6_1 : DmaSem sig := 22
abbrev cc1_sem7_0 : DmaSem sig := 23
abbrev cc1_sem7_1 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem3_0 : DmaSem sig := 29
abbrev cc2_sem3_1 : DmaSem sig := 30

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![2, 25], ![false, false]⟩

def cc1_transform_0 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S8x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S8x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S256_S1x256 : S256.ShapeCasts S1x256
  shapeCasts_S128_S1x128 : S128.ShapeCasts S1x128
  bitsLt_bf16_f32 : FTy.bits .bf16 < FTy.bits .f32
  inb_S8x256_S8x256_0_0 : ∀ a, (![0, 0] : Fin 2 → Nat) a + S8x256.size a ≤ S8x256.size a
  h_S8x256 : 0 < S8x256.numel
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1x1_S1x1_0_0 : ∀ a, (![0, 0] : Fin 2 → Nat) a + S1x1.size a ≤ S1x1.size a
  h_S1x1 : 0 < S1x1.numel
  broadcasts_S1x1_S1000x128 : S1x1.Broadcasts S1000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  reduces_S1000x256_S256 : S1000x256.Reduces [0] S256
  shapeCasts_S8x256_S8x256 : S8x256.ShapeCasts S8x256
  broadcasts_S1x256_S8x256 : S1x256.Broadcasts S8x256
  shapeCasts_S16x256_S2x8x256 : S16x256.ShapeCasts S2x8x256
  slices_S2x8x256_S2x1x256_0_0_0 : S2x8x256.Slices ![0, 0, 0] S2x1x256
  shapeCasts_S2x1x256_S2x256 : S2x1x256.ShapeCasts S2x256
  reducesTo_S2x256_S256_d0 : S2x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  inb_S8x128_S8x128_0_0 : ∀ a, (![0, 0] : Fin 2 → Nat) a + S8x128.size a ≤ S8x128.size a
  h_S8x128 : 0 < S8x128.numel
  shapeCasts_S1000x256_S1000x256 : S1000x256.ShapeCasts S1000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  reduces_S1000x128_S128 : S1000x128.Reduces [0] S128
  shapeCasts_S8x128_S8x128 : S8x128.ShapeCasts S8x128
  broadcasts_S1x128_S8x128 : S1x128.Broadcasts S8x128
  shapeCasts_S16x128_S2x8x128 : S16x128.ShapeCasts S2x8x128
  slices_S2x8x128_S2x1x128_0_0_0 : S2x8x128.Slices ![0, 0, 0] S2x1x128
  shapeCasts_S2x1x128_S2x128 : S2x1x128.ShapeCasts S2x128
  reducesTo_S2x128_S128_d0 : S2x128.ReducesTo [0] S128
  bcast_S128_S1x128_1 : S128.BroadcastsInDim S1x128 (![1] : Fin 1 → Fin S1x128.rank)
  bcast_S_S1x128 : S_.BroadcastsInDim S1x128 (![] : Fin 0 → Fin S1x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S1000x128_S128x256_S1000x256_1_0_0_1_n_n_wf : DotDims.WF S1000x128 S128x256 S1000x256 [1] [0] [0] [1] [] []
  dot_S1000x256_S256x128_S1000x128_1_0_0_1_n_n_wf : DotDims.WF S1000x256 S256x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S50000x128.size a
  hwx0_1 : ∀ i : grid0.Coords, EltTy.bits .f32 = 32 ∨ (Rect.block (s := S50000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x256.size a ≤ S50000x256.size a
  hwx0_5 : ∀ i : grid0.Coords, EltTy.bits .f32 = 32 ∨ (Rect.block (s := S50000x256) S1000x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x256.size a ≤ S16x256.size a
  hwx0_6 : ∀ i : grid0.Coords, EltTy.bits .f32 = 32 ∨ (Rect.block (s := S16x256) S8x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x256.size a ≤ S16x256.size a
  hwx0_7 : ∀ i : grid0.Coords, EltTy.bits .f32 = 32 ∨ (Rect.block (s := S16x256) S8x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .bf16 = 32 ∨ (Rect.block (s := S256x128) S256x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x128.size a ≤ S50000x128.size a
  hwx1_5 : ∀ i : grid1.Coords, EltTy.bits .f32 = 32 ∨ (Rect.block (s := S50000x128) S1000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x128.size a ≤ S16x128.size a
  hwx1_6 : ∀ i : grid1.Coords, EltTy.bits .f32 = 32 ∨ (Rect.block (s := S16x128) S8x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8x128.size a ≤ S16x128.size a
  hwx1_7 : ∀ i : grid1.Coords, EltTy.bits .f32 = 32 ∨ (Rect.block (s := S16x128) S8x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf

abbrev win0_0 : Pipeline.Window sig grid0 :=
  Pipeline.Window.ofSpec (Memref.whole main_v12) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg12) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17_0) S1000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17_1) S8x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v17_2) S8x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v17_0) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42_0) S1000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v42_1) S8x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v42_2) S8x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v42_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x1 : Shape := ⟨2, ![1, 1]⟩
abbrev S800000x1 : Shape := ⟨2, ![800000, 1]⟩
abbrev S_ : Shape := ⟨0, ![]⟩
abbrev S800000x128 : Shape := ⟨2, ![800000, 128]⟩
abbrev S50000x256 : Shape := ⟨2, ![50000, 256]⟩
abbrev S1x256 : Shape := ⟨2, ![1, 256]⟩
abbrev S1x128 : Shape := ⟨2, ![1, 128]⟩

abbrev nBuf : Space → Nat
  | .hbm => 134
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S800000, .f32⟩
  | 4 => ⟨S128x256, .f32⟩
  | 5 => ⟨S256, .f32⟩
  | 6 => ⟨S256, .f32⟩
  | 7 => ⟨S256, .f32⟩
  | 8 => ⟨S256x128, .f32⟩
  | 9 => ⟨S128, .f32⟩
  | 10 => ⟨S128, .f32⟩
  | 11 => ⟨S128, .f32⟩
  | 12 => ⟨S1x1, .f32⟩
  | 13 => ⟨S800000x1, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S800000x128, .f32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S50000x128, .f32⟩
  | 30 => ⟨S50000x128, .f32⟩
  | 31 => ⟨S50000x128, .f32⟩
  | 32 => ⟨S50000x256, .f32⟩
  | 33 => ⟨S1x256, .f32⟩
  | 34 => ⟨S50000x256, .f32⟩
  | 35 => ⟨S50000x256, .f32⟩
  | 36 => ⟨S_, .f32⟩
  | 37 => ⟨S256, .f32⟩
  | 38 => ⟨S_, .f32⟩
  | 39 => ⟨S256, .f32⟩
  | 40 => ⟨S256, .f32⟩
  | 41 => ⟨S_, .i32⟩
  | 42 => ⟨S_, .f32⟩
  | 43 => ⟨S256, .f32⟩
  | 44 => ⟨S1x256, .f32⟩
  | 45 => ⟨S_, .f32⟩
  | 46 => ⟨S1x256, .f32⟩
  | 47 => ⟨S1x256, .f32⟩
  | 48 => ⟨S50000x256, .f32⟩
  | 49 => ⟨S50000x256, .f32⟩
  | 50 => ⟨S50000x256, .f32⟩
  | 51 => ⟨S_, .f32⟩
  | 52 => ⟨S_, .f32⟩
  | 53 => ⟨S_, .f32⟩
  | 54 => ⟨S_, .f32⟩
  | 55 => ⟨S256, .f32⟩
  | 56 => ⟨S256, .f32⟩
  | 57 => ⟨S256, .f32⟩
  | 58 => ⟨S_, .f32⟩
  | 59 => ⟨S_, .i1⟩
  | 60 => ⟨S_, .f32⟩
  | 61 => ⟨S_, .f32⟩
  | 62 => ⟨S256, .f32⟩
  | 63 => ⟨S256, .f32⟩
  | 64 => ⟨S1x256, .f32⟩
  | 65 => ⟨S50000x256, .f32⟩
  | 66 => ⟨S50000x256, .f32⟩
  | 67 => ⟨S_, .f32⟩
  | 68 => ⟨S256, .f32⟩
  | 69 => ⟨S256, .f32⟩
  | 70 => ⟨S256, .f32⟩
  | 71 => ⟨S1x256, .f32⟩
  | 72 => ⟨S50000x256, .f32⟩
  | 73 => ⟨S50000x256, .f32⟩
  | 74 => ⟨S1x256, .f32⟩
  | 75 => ⟨S50000x256, .f32⟩
  | 76 => ⟨S50000x256, .f32⟩
  | 77 => ⟨S1x256, .f32⟩
  | 78 => ⟨S50000x256, .f32⟩
  | 79 => ⟨S50000x256, .f32⟩
  | 80 => ⟨S_, .f32⟩
  | 81 => ⟨S50000x256, .f32⟩
  | 82 => ⟨S50000x256, .f32⟩
  | 83 => ⟨S50000x128, .f32⟩
  | 84 => ⟨S1x128, .f32⟩
  | 85 => ⟨S50000x128, .f32⟩
  | 86 => ⟨S50000x128, .f32⟩
  | 87 => ⟨S_, .f32⟩
  | 88 => ⟨S128, .f32⟩
  | 89 => ⟨S_, .f32⟩
  | 90 => ⟨S128, .f32⟩
  | 91 => ⟨S128, .f32⟩
  | 92 => ⟨S_, .i32⟩
  | 93 => ⟨S_, .f32⟩
  | 94 => ⟨S128, .f32⟩
  | 95 => ⟨S1x128, .f32⟩
  | 96 => ⟨S_, .f32⟩
  | 97 => ⟨S1x128, .f32⟩
  | 98 => ⟨S1x128, .f32⟩
  | 99 => ⟨S50000x128, .f32⟩
  | 100 => ⟨S50000x128, .f32⟩
  | 101 => ⟨S50000x128, .f32⟩
  | 102 => ⟨S_, .f32⟩
  | 103 => ⟨S_, .f32⟩
  | 104 => ⟨S_, .f32⟩
  | 105 => ⟨S_, .f32⟩
  | 106 => ⟨S128, .f32⟩
  | 107 => ⟨S128, .f32⟩
  | 108 => ⟨S128, .f32⟩
  | 109 => ⟨S_, .f32⟩
  | 110 => ⟨S_, .i1⟩
  | 111 => ⟨S_, .f32⟩
  | 112 => ⟨S_, .f32⟩
  | 113 => ⟨S128, .f32⟩
  | 114 => ⟨S128, .f32⟩
  | 115 => ⟨S1x128, .f32⟩
  | 116 => ⟨S50000x128, .f32⟩
  | 117 => ⟨S50000x128, .f32⟩
  | 118 => ⟨S_, .f32⟩
  | 119 => ⟨S128, .f32⟩
  | 120 => ⟨S128, .f32⟩
  | 121 => ⟨S128, .f32⟩
  | 122 => ⟨S1x128, .f32⟩
  | 123 => ⟨S50000x128, .f32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S50000x128, .f32⟩
  | 5 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_cst_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_cst_1 : Ref sig .tc := ⟨.hbm, 52, rfl⟩
abbrev main_call0_v8 : Ref sig .tc := ⟨.hbm, 53, rfl⟩
abbrev main_call0_cst_2 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_cst_3 : Ref sig .tc := ⟨.hbm, 58, rfl⟩
abbrev main_call0_v12 : Ref sig .tc := ⟨.hbm, 59, rfl⟩
abbrev main_call0_cst_4 : Ref sig .tc := ⟨.hbm, 60, rfl⟩
abbrev main_call0_call0_v0 : Ref sig .tc := ⟨.hbm, 61, rfl⟩
abbrev main_call0_call0_v1 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_cst_4 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_call1_cst : Ref sig .tc := ⟨.hbm, 80, rfl⟩
abbrev main_call1_v0 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_5 : Ref sig .tc := ⟨.hbm, 87, rfl⟩
abbrev main_v44 : Ref sig .tc := ⟨.hbm, 88, rfl⟩
abbrev main_cst_6 : Ref sig .tc := ⟨.hbm, 89, rfl⟩
abbrev main_v45 : Ref sig .tc := ⟨.hbm, 90, rfl⟩
abbrev main_v46 : Ref sig .tc := ⟨.hbm, 91, rfl⟩
abbrev main_c_7 : Ref sig .tc := ⟨.hbm, 92, rfl⟩
abbrev main_call2_cst : Ref sig .tc := ⟨.hbm, 93, rfl⟩
abbrev main_call2_v0 : Ref sig .tc := ⟨.hbm, 94, rfl⟩
abbrev main_call2_v1 : Ref sig .tc := ⟨.hbm, 95, rfl⟩
abbrev main_call2_cst_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_v6 : Ref sig .tc := ⟨.hbm, 101, rfl⟩
abbrev main_call2_v7 : Ref sig .tc := ⟨.hbm, 102, rfl⟩
abbrev main_call2_cst_1 : Ref sig .tc := ⟨.hbm, 103, rfl⟩
abbrev main_call2_v8 : Ref sig .tc := ⟨.hbm, 104, rfl⟩
abbrev main_call2_cst_2 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_cst_3 : Ref sig .tc := ⟨.hbm, 109, rfl⟩
abbrev main_call2_v12 : Ref sig .tc := ⟨.hbm, 110, rfl⟩
abbrev main_call2_cst_4 : Ref sig .tc := ⟨.hbm, 111, rfl⟩
abbrev main_call2_call0_v0 : Ref sig .tc := ⟨.hbm, 112, rfl⟩
abbrev main_call2_call0_v1 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_cst_8 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_call3_cst : Ref sig .tc := ⟨.hbm, 131, rfl⟩
abbrev main_call3_v0 : Ref sig .tc := ⟨.hbm, 132, rfl⟩
abbrev main_v63 : Ref sig .tc := ⟨.hbm, 133, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S1x1_S50000x128_0_1 : S1x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  bcast_S_S1x128 : S_.BroadcastsInDim S1x128 (![] : Fin 0 → Fin S1x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KRun.lean ====
/-
  The idealized kernel's run, with its result named.

  The program is three kernel regions among stretches of host operations. Its run from any launch memory terminates
  without a fault, and every final state holds, in each unscoped buffer, the contents the last segment boundary
  gives it: the fold of the host stretches and of the regions' write-backs from the launch memory. Read at the
  result buffer this names the result; read at an argument's buffer it is the launch contents, since no host
  operation and no region writes an argument.
-/
import proofs.«181591_j57105885168079_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the arguments as launched. -/
theorem run : θ_run defs (onTc (τ := τ) (main (F := F))) ⟨m, fun _ => 0, ρ⟩ (fun r => ∀ c : Dev nD,
      r.2.mem ((c.tc : Thread nD τ).loc main_v67) = W6 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v67 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.RunValue

end
-- ==== Proof.Pieces0.lean ====
/-
  What one run of the first kernel's body leaves in its three output blocks, as values.

  The body's run is found once per case of its one conditional (the first point of a core's run clears the two
  accumulators; every other point does not). Read back, the stores it leaves are: in the dense layer's block, the
  layer's arithmetic of the point's input blocks; in the sum accumulator, what it held (the zero word after a
  clearing) plus the block's column sums; in the squares' accumulator, what it held plus the column sums of the
  block's squares.
-/
import proofs.«181591_j57105885168079_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces0

open Cert.KernelIdeal Cert.KernelIdeal.Gen

variable {F : FTy → Type} [FloatOps F]

theorem hz : (![0, 0] : Fin 2 → Nat) = fun _ => 0 := funext fun a => by fin_cases a <;> rfl

/-- A point that does not clear: the dense layer's block. -/
theorem outB5 (c : Dev nD) (i : grid0.Coords) (arg2 : Memref sig .tc .vmem S1000x128 .f32) (harg2 : arg2.IsWhole) (arg3 : Memref sig .tc .vmem S1000x128 .f32) (harg3 : arg3.IsWhole) (arg4 : Memref sig .tc .vmem S1x1 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S1000x256 .f32) (harg7 : arg7.IsWhole) (arg8 : Memref sig .tc .vmem S8x256 .f32) (harg8 : arg8.IsWhole) (arg9 : Memref sig .tc .vmem S8x256 .f32) (harg9 : arg9.IsWhole) (hc0 : ¬cond0_0 i) (x0 : Vec F S1000x128 .f32) (x1 : Vec F S1000x128 .f32) (x2 : Vec F S1x1 .f32) (x3 : Vec F S128x256 .bf16) (x4 : Vec F S1x256 .f32) (xo6 xo7 : Vec F S8x256 .f32) :
    out0_B_5 c i arg2 harg2 arg3 harg3 arg4 harg4 arg5 harg5 arg6 harg6 arg7 harg7 arg8 harg8 arg9 harg9 hc0 x0 x1 x2 x3 x4 xo6 xo7 = k0_pay4 x0 x2 x1 x3 x4 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xo6 xo7)]
  unfold kernelRun0_B
  dsimp only
  rw [View.canon_unit_zero hz]
  simp only [View.readAt_eq_ld, harg2.read_unread, harg3.read_unread, harg4.read_unread, harg5.read_unread, harg6.read_unread, harg8.read_unread, harg9.read_unread, View.ld_unit_zero (S := S1000x128) hz, View.ld_unit_zero (S := S1x1) hz, View.ld_unit_zero (S := S128x256) hz, View.ld_unit_zero (S := S1x256) hz, View.ld_unit_zero (S := S8x256) hz]

/-- A point that does not clear: the sum accumulator takes the block's column sums. -/
theorem outB6 (c : Dev nD) (i : grid0.Coords) (arg2 : Memref sig .tc .vmem S1000x128 .f32) (harg2 : arg2.IsWhole) (arg3 : Memref sig .tc .vmem S1000x128 .f32) (harg3 : arg3.IsWhole) (arg4 : Memref sig .tc .vmem S1x1 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S1000x256 .f32) (harg7 : arg7.IsWhole) (arg8 : Memref sig .tc .vmem S8x256 .f32) (harg8 : arg8.IsWhole) (arg9 : Memref sig .tc .vmem S8x256 .f32) (harg9 : arg9.IsWhole) (hc0 : ¬cond0_0 i) (x0 : Vec F S1000x128 .f32) (x1 : Vec F S1000x128 .f32) (x2 : Vec F S1x1 .f32) (x3 : Vec F S128x256 .bf16) (x4 : Vec F S1x256 .f32) (xo6 xo7 : Vec F S8x256 .f32) :
    out0_B_6 c i arg2 harg2 arg3 harg3 arg4 harg4 arg5 harg5 arg6 harg6 arg7 harg7 arg8 harg8 arg9 harg9 hc0 x0 x1 x2 x3 x4 xo6 xo7 = k0_pay6 x0 x2 x1 x3 x4 xo6 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 xo6 xo7)]
  unfold kernelRun0_B
  dsimp only
  rw [View.canon_unit_zero hz]
  simp only [View.readAt_eq_ld, harg2.read_unread, harg3.read_unread, harg4.read_unread, harg5.read_unread, harg6.read_unread, harg8.read_unread, harg9.read_unread, View.ld_unit_zero (S := S1000x128) hz, View.ld_unit_zero (S := S1x1) hz, View.ld_unit_zero (S := S128x256) hz, View.ld_unit_zero (S := S1x256) hz, View.ld_unit_zero (S := S8x256) hz]

/-- A point that does not clear: the squares' accumulator takes the column sums of the block's squares. -/
theorem outB7 (c : Dev nD) (i : grid0.Coords) (arg2 : Memref sig .tc .vmem S1000x128 .f32) (harg2 : arg2.IsWhole) (arg3 : Memref sig .tc .vmem S1000x128 .f32) (harg3 : arg3.IsWhole) (arg4 : Memref sig .tc .vmem S1x1 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S1000x256 .f32) (harg7 : arg7.IsWhole) (arg8 : Memref sig .tc .vmem S8x256 .f32) (harg8 : arg8.IsWhole) (arg9 : Memref sig .tc .vmem S8x256 .f32) (harg9 : arg9.IsWhole) (hc0 : ¬cond0_0 i) (x0 : Vec F S1000x128 .f32) (x1 : Vec F S1000x128 .f32) (x2 : Vec F S1x1 .f32) (x3 : Vec F S128x256 .bf16) (x4 : Vec F S1x256 .f32) (xo6 xo7 : Vec F S8x256 .f32) :
    out0_B_7 c i arg2 harg2 arg3 harg3 arg4 harg4 arg5 harg5 arg6 harg6 arg7 harg7 arg8 harg8 arg9 harg9 hc0 x0 x1 x2 x3 x4 xo6 xo7 = k0_pay1 (k0_pay5 x0 x2 x1 x3 x4) (k0_pay7 xo7) := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 x4 xo6 xo7)]
  unfold kernelRun0_B
  dsimp only
  sl_unfold_words
  rw [View.canon_unit_zero hz]
  simp only [View.readAt_eq_ld, harg2.read_unread, harg3.read_unread, harg4.read_unread, harg5.read_unread, harg6.read_unread, harg8.read_unread, harg9.read_unread, View.ld_unit_zero (S := S1000x128) hz, View.ld_unit_zero (S := S1x1) hz, View.ld_unit_zero (S := S128x256) hz, View.ld_unit_zero (S := S1x256) hz, View.ld_unit_zero (S := S8x256) hz]

/-- A clearing point: the dense layer's block. -/
theorem outA5 (c : Dev nD) (i : grid0.Coords) (arg2 : Memref sig .tc .vmem S1000x128 .f32) (harg2 : arg2.IsWhole) (arg3 : Memref sig .tc .vmem S1000x128 .f32) (harg3 : arg3.IsWhole) (arg4 : Memref sig .tc .vmem S1x1 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S1000x256 .f32) (harg7 : arg7.IsWhole) (arg8 : Memref sig .tc .vmem S8x256 .f32) (harg8 : arg8.IsWhole) (arg9 : Memref sig .tc .vmem S8x256 .f32) (harg9 : arg9.IsWhole) (hc0 : cond0_0 i) (x0 : Vec F S1000x128 .f32) (x1 : Vec F S1000x128 .f32) (x2 : Vec F S1x1 .f32) (x3 : Vec F S128x256 .bf16) (x4 : Vec F S1x256 .f32) :
    out0_A_5 c i arg2 harg2 arg3 harg3 arg4 harg4 arg5 harg5 arg6 harg6 arg7 harg7 arg8 harg8 arg9 harg9 hc0 x0 x1 x2 x3 x4 = k0_pay4 x0 x2 x1 x3 x4 := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  rw [View.canon_unit_zero hz]
  simp only [View.readAt_eq_ld, harg2.read_unread, harg3.read_unread, harg4.read_unread, harg5.read_unread, harg6.read_unread, harg8.read_unread, harg9.read_unread, View.ld_unit_zero (S := S1000x128) hz, View.ld_unit_zero (S := S1x1) hz, View.ld_unit_zero (S := S128x256) hz, View.ld_unit_zero (S := S1x256) hz, View.ld_unit_zero (S := S8x256) hz]

/-- A clearing point: the sum accumulator is the zero block plus the block's column sums. -/
theorem outA6 (c : Dev nD) (i : grid0.Coords) (arg2 : Memref sig .tc .vmem S1000x128 .f32) (harg2 : arg2.IsWhole) (arg3 : Memref sig .tc .vmem S1000x128 .f32) (harg3 : arg3.IsWhole) (arg4 : Memref sig .tc .vmem S1x1 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S1000x256 .f32) (harg7 : arg7.IsWhole) (arg8 : Memref sig .tc .vmem S8x256 .f32) (harg8 : arg8.IsWhole) (arg9 : Memref sig .tc .vmem S8x256 .f32) (harg9 : arg9.IsWhole) (hc0 : cond0_0 i) (x0 : Vec F S1000x128 .f32) (x1 : Vec F S1000x128 .f32) (x2 : Vec F S1x1 .f32) (x3 : Vec F S128x256 .bf16) (x4 : Vec F S1x256 .f32) :
    out0_A_6 c i arg2 harg2 arg3 harg3 arg4 harg4 arg5 harg5 arg6 harg6 arg7 harg7 arg8 harg8 arg9 harg9 hc0 x0 x1 x2 x3 x4 = k0_pay6 x0 x2 x1 x3 x4 (k0_pay2 (F := F)) := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S8x256) hz, View.readCov_unit_zero (S := S8x256) _ hz]
  simp only [View.readAt_eq_ld, harg2.read_unread, harg3.read_unread, harg4.read_unread, harg5.read_unread, harg6.read_unread, harg8.read_unread, harg9.read_unread, View.ld_unit_zero (S := S1000x128) hz, View.ld_unit_zero (S := S1x1) hz, View.ld_unit_zero (S := S128x256) hz, View.ld_unit_zero (S := S1x256) hz, View.ld_unit_zero (S := S8x256) hz]

/-- A clearing point: the squares' accumulator is the zero block plus the column sums of the block's squares. -/
theorem outA7 (c : Dev nD) (i : grid0.Coords) (arg2 : Memref sig .tc .vmem S1000x128 .f32) (harg2 : arg2.IsWhole) (arg3 : Memref sig .tc .vmem S1000x128 .f32) (harg3 : arg3.IsWhole) (arg4 : Memref sig .tc .vmem S1x1 .f32) (harg4 : arg4.IsWhole) (arg5 : Memref sig .tc .vmem S128x256 .bf16) (harg5 : arg5.IsWhole) (arg6 : Memref sig .tc .vmem S1x256 .f32) (harg6 : arg6.IsWhole) (arg7 : Memref sig .tc .vmem S1000x256 .f32) (harg7 : arg7.IsWhole) (arg8 : Memref sig .tc .vmem S8x256 .f32) (harg8 : arg8.IsWhole) (arg9 : Memref sig .tc .vmem S8x256 .f32) (harg9 : arg9.IsWhole) (hc0 : cond0_0 i) (x0 : Vec F S1000x128 .f32) (x1 : Vec F S1000x128 .f32) (x2 : Vec F S1x1 .f32) (x3 : Vec F S128x256 .bf16) (x4 : Vec F S1x256 .f32) :
    out0_A_7 c i arg2 harg2 arg3 harg3 arg4 harg4 arg5 harg5 arg6 harg6 arg7 harg7 arg8 harg8 arg9 harg9 hc0 x0 x1 x2 x3 x4 = k0_pay1 (k0_pay5 x0 x2 x1 x3 x4) (k0_pay7 (k0_pay3 (F := F))) := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_cons_unit_zero (S := S8x256) hz, View.readCov_unit_zero (S := S8x256) _ hz]
  simp only [View.readAt_eq_ld, harg2.read_unread, harg3.read_unread, harg4.read_unread, harg5.read_unread, harg6.read_unread, harg8.read_unread, harg9.read_unread, View.ld_unit_zero (S := S1000x128) hz, View.ld_unit_zero (S := S1x1) hz, View.ld_unit_zero (S := S128x256) hz, View.ld_unit_zero (S := S1x256) hz, View.ld_unit_zero (S := S8x256) hz]

end Cert.KernelIdeal.Pieces0

end
-- ==== Proof.Acc0.lean ====
/-
  The first kernel's three outputs after each grid point, as values.

  The grid is two runs of 25 consecutive points (one run per core). At every point the dense layer's output block is
  the layer's arithmetic of that point's input blocks. The two accumulators are cleared at the first point of a run
  and, at every point, take that point's column sums (of the block, and of its squares): after a point they hold the
  fold of those additions over the run so far, started from the zero block.
-/
import proofs.«181591_j57105885168079_2_alg».proof.Proof.Pieces0

noncomputable section

open Idealize.ShloMosaic Idealize.ShloMosaic.TcCoe Idealize.SL.Sem

namespace Cert.KernelIdeal.Acc0

open Cert.KernelIdeal Cert.KernelIdeal.Gen Cert.KernelIdeal.Pieces0

variable {F : FTy → Type} [FloatOps F]
variable (V : (c : Dev nD) → (b : Ref sig .tc) → Buf (Elt F) ((c : Thread nD τ).loc b))

/-- The dense layer's block at point `t`: the layer's arithmetic of the point's five input blocks. -/
def blk (c : Dev nD) (t : Fin cfg0.N) : Vec F S1000x256 .f32 :=
  k0_pay4 (iblk0 V c 0 t) (iblk0 V c 2 t) (iblk0 V c 1 t) (iblk0 V c 3 t) (iblk0 V c 4 t)

/-- The column sums of the squares of the block at point `n`, as a one-row matrix. -/
def sqs (c : Dev nD) (n : ℕ) (hn : n < cfg0.N) : Vec F S1x256 .f32 :=
  k0_pay5 (iblk0 V c 0 ⟨n, hn⟩) (iblk0 V c 2 ⟨n, hn⟩) (iblk0 V c 1 ⟨n, hn⟩) (iblk0 V c 3 ⟨n, hn⟩) (iblk0 V c 4 ⟨n, hn⟩)

/-- The sum accumulator's step at point `n`: add the block's column sums to what it held. -/
def step6 (c : Dev nD) (n : ℕ) (hn : n < cfg0.N) (acc : Vec F S8x256 .f32) : Vec F S8x256 .f32 :=
  k0_pay6 (iblk0 V c 0 ⟨n, hn⟩) (iblk0 V c 2 ⟨n, hn⟩) (iblk0 V c 1 ⟨n, hn⟩) (iblk0 V c 3 ⟨n, hn⟩) (iblk0 V c 4 ⟨n, hn⟩) acc

/-- The squares' accumulator's step at point `n`. -/
def step7 (c : Dev nD) (n : ℕ) (hn : n < cfg0.N) (acc : Vec F S8x256 .f32) : Vec F S8x256 .f32 :=
  k0_pay1 (sqs V c n hn) (k0_pay7 acc)

/-- After every point the first output's staging buffer holds that point's block. -/
theorem out5_eq (c : Dev nD) (t : Fin cfg0.N) : (outsAt0 V c t.val t.isLt).1 = blk V c t := by
  unfold blk
  by_cases h0 : t.val % 25 = 0
  · have e := congrArg Prod.fst (outsAt0_A V c t h0)
    dsimp only at e
    exact e.trans (outA5 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t))
  · have e := congrArg Prod.fst (outsAt0_B V c t h0)
    dsimp only at e
    exact e.trans (outB5 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun hc => h0 ((hcond0_0 t).mp hc)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2)

theorem out6_reset (c : Dev nD) (n : ℕ) (h : n < cfg0.N) (h0 : n % 25 = 0) :
    (outsAt0 V c n h).2.1 = step6 V c n h (k0_pay2 (F := F)) := by
  unfold step6
  exact (congrArg (fun x => x.2.1) (outsAt0_A V c (⟨n, h⟩ : Fin cfg0.N) h0)).trans (outA6 (F := F) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) ((hcond0_0 (⟨n, h⟩ : Fin cfg0.N)).mpr h0) (iblk0 V c 0 (⟨n, h⟩ : Fin cfg0.N)) (iblk0 V c 1 (⟨n, h⟩ : Fin cfg0.N)) (iblk0 V c 2 (⟨n, h⟩ : Fin cfg0.N)) (iblk0 V c 3 (⟨n, h⟩ : Fin cfg0.N)) (iblk0 V c 4 (⟨n, h⟩ : Fin cfg0.N)))

theorem out6_step (c : Dev nD) (n : ℕ) (h : n + 1 < cfg0.N) (h0 : ¬(n + 1) % 25 = 0) :
    (outsAt0 V c (n + 1) h).2.1 = step6 V c (n + 1) h (outsAt0 V c n (Nat.lt_of_succ_lt h)).2.1 := by
  unfold step6
  exact (congrArg (fun x => x.2.1) (outsAt0_B V c (⟨n + 1, h⟩ : Fin cfg0.N) h0)).trans (outB6 (F := F) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (fun hc => h0 ((hcond0_0 (⟨n + 1, h⟩ : Fin cfg0.N)).mp hc)) (iblk0 V c 0 (⟨n + 1, h⟩ : Fin cfg0.N)) (iblk0 V c 1 (⟨n + 1, h⟩ : Fin cfg0.N)) (iblk0 V c 2 (⟨n + 1, h⟩ : Fin cfg0.N)) (iblk0 V c 3 (⟨n + 1, h⟩ : Fin cfg0.N)) (iblk0 V c 4 (⟨n + 1, h⟩ : Fin cfg0.N)) (outsAt0 V c ((⟨n + 1, h⟩ : Fin cfg0.N).val - 1) (Nat.lt_of_le_of_lt (Nat.sub_le _ _) (⟨n + 1, h⟩ : Fin cfg0.N).isLt)).2.1 (outsAt0 V c ((⟨n + 1, h⟩ : Fin cfg0.N).val - 1) (Nat.lt_of_le_of_lt (Nat.sub_le _ _) (⟨n + 1, h⟩ : Fin cfg0.N).isLt)).2.2)

theorem out7_reset (c : Dev nD) (n : ℕ) (h : n < cfg0.N) (h0 : n % 25 = 0) :
    (outsAt0 V c n h).2.2 = step7 V c n h (k0_pay3 (F := F)) := by
  unfold step7 sqs
  exact (congrArg (fun x => x.2.2) (outsAt0_A V c (⟨n, h⟩ : Fin cfg0.N) h0)).trans (outA7 (F := F) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) ((hcond0_0 (⟨n, h⟩ : Fin cfg0.N)).mpr h0) (iblk0 V c 0 (⟨n, h⟩ : Fin cfg0.N)) (iblk0 V c 1 (⟨n, h⟩ : Fin cfg0.N)) (iblk0 V c 2 (⟨n, h⟩ : Fin cfg0.N)) (iblk0 V c 3 (⟨n, h⟩ : Fin cfg0.N)) (iblk0 V c 4 (⟨n, h⟩ : Fin cfg0.N)))

theorem out7_step (c : Dev nD) (n : ℕ) (h : n + 1 < cfg0.N) (h0 : ¬(n + 1) % 25 = 0) :
    (outsAt0 V c (n + 1) h).2.2 = step7 V c (n + 1) h (outsAt0 V c n (Nat.lt_of_succ_lt h)).2.2 := by
  unfold step7 sqs
  exact (congrArg (fun x => x.2.2) (outsAt0_B V c (⟨n + 1, h⟩ : Fin cfg0.N) h0)).trans (outB7 (F := F) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (fun hc => h0 ((hcond0_0 (⟨n + 1, h⟩ : Fin cfg0.N)).mp hc)) (iblk0 V c 0 (⟨n + 1, h⟩ : Fin cfg0.N)) (iblk0 V c 1 (⟨n + 1, h⟩ : Fin cfg0.N)) (iblk0 V c 2 (⟨n + 1, h⟩ : Fin cfg0.N)) (iblk0 V c 3 (⟨n + 1, h⟩ : Fin cfg0.N)) (iblk0 V c 4 (⟨n + 1, h⟩ : Fin cfg0.N)) (outsAt0 V c ((⟨n + 1, h⟩ : Fin cfg0.N).val - 1) (Nat.lt_of_le_of_lt (Nat.sub_le _ _) (⟨n + 1, h⟩ : Fin cfg0.N).isLt)).2.1 (outsAt0 V c ((⟨n + 1, h⟩ : Fin cfg0.N).val - 1) (Nat.lt_of_le_of_lt (Nat.sub_le _ _) (⟨n + 1, h⟩ : Fin cfg0.N).isLt)).2.2)

/-- The sum accumulator after point `t` is the fold of the steps over its run so far, from the cleared block. -/
theorem acc6 (c : Dev nD) (t : ℕ) (ht : t < cfg0.N) (h' : 25 * (t / 25) + t % 25 < cfg0.N) :
    (outsAt0 V c t ht).2.1
      = Pipeline.accAt (fun n h => step6 V c n h (k0_pay2 (F := F))) (fun n h acc => step6 V c n h acc) (25 * (t / 25)) (t % 25) h' :=
  Pipeline.eq_accAt_of_mod (fun n h => (outsAt0 V c n h).2.1) 25 _ _
    (fun n h h0 => out6_reset V c n h h0) (fun n h h0 => out6_step V c n h h0) (by decide) t ht h'

/-- The squares' accumulator after point `t`, likewise. -/
theorem acc7 (c : Dev nD) (t : ℕ) (ht : t < cfg0.N) (h' : 25 * (t / 25) + t % 25 < cfg0.N) :
    (outsAt0 V c t ht).2.2
      = Pipeline.accAt (fun n h => step7 V c n h (k0_pay3 (F := F))) (fun n h acc => step7 V c n h acc) (25 * (t / 25)) (t % 25) h' :=
  Pipeline.eq_accAt_of_mod (fun n h => (outsAt0 V c n h).2.2) 25 _ _
    (fun n h h0 => out7_reset V c n h h0) (fun n h h0 => out7_step V c n h h0) (by decide) t ht h'

end Cert.KernelIdeal.Acc0

end
-- ==== Proof.Spec.lean ====
/-
  The specification: what both programs compute, as functions of coordinates on the extended reals.

  A graph-isomorphism layer. From node features v (N rows of 128), an aggregated copy A of them (one row per node,
  the weighted sum of its in-neighbours' rows) and a scalar e, the input of the perceptron is X = A + e·v. The
  perceptron is two dense layers, each followed by a batch normalisation over the N rows and a rectifier:
      H  = X·W1 + b1            (N x 256)
      Y  = relu (bn H g1 be1)
      H' = Y·W2 + b2            (N x 128)
      out = relu (bn H' g2 be2).
  The two programs differ only in how a batch normalisation is spelt:
  * the reference centres first: mean = (Σ H)/n, var = (Σ (H - mean)²)/n, then ((H - mean)·r)·g + be with
    r = 1/√(var + ε);
  * the kernel works from raw moments: mean = (Σ H)/n, var = (Σ H²)/n - mean², scale = g·r, shift = be - mean·scale,
    then H·scale + shift.
  On the reals these are the same number (the variance identity and distributivity); on the extended reals that needs
  every entry finite. Sums here are plain finite sums: how a program groups or orders them is its own business.
-/
import Idealize.ShloMosaic.PureOps.Ideal
import Mathlib.Algebra.BigOperators.Group.Finset.Basic

noncomputable section

open scoped BigOperators

namespace Cert.Gin

open Idealize.ShloMosaic

/-- The number of rows, 50000.0, as the programs write it. -/
def cnt : EReal := Ideal.ofBits .f32 0x47435000#32
/-- The regulariser ε (the float nearest 1e-5), as the programs write it. -/
def reg : EReal := Ideal.ofBits .f32 0x3727C5AC#32
/-- The zero word. -/
def zer : EReal := Ideal.ofBits .f32 0x00000000#32

/-- An extended real that is a real number (neither infinity). -/
def IsReal (x : EReal) : Prop := ∃ r : ℝ, x = (r : EReal)

variable {P K J : ℕ}

/-- The perceptron's input: the aggregate plus e times the features. -/
def resid (A v : Fin P → Fin K → EReal) (e : EReal) : Fin P → Fin K → EReal := fun p k => A p k + e * v p k

/-- A dense layer: row p of X against column j of W, plus the bias. -/
def lin (X : Fin P → Fin K → EReal) (W : Fin K → Fin J → EReal) (b : Fin J → EReal) : Fin P → Fin J → EReal :=
  fun p j => (∑ k, X p k * W k j) + b j

/-! ### Batch normalisation and rectifier from raw moments (the kernel's spelling) -/

/-- Column mean: the column's sum over the count. -/
def meanK (H : Fin P → Fin J → EReal) (j : Fin J) : EReal := Ideal.div (∑ p, H p j) cnt
/-- Column variance as the mean of squares minus the squared mean. -/
def varK (H : Fin P → Fin J → EReal) (j : Fin J) : EReal :=
  Ideal.div (∑ p, H p j * H p j) cnt - meanK H j * meanK H j
/-- The multiplier g / √(var + ε). -/
def scaleK (H : Fin P → Fin J → EReal) (g : Fin J → EReal) (j : Fin J) : EReal := g j * Ideal.rsqrt (varK H j + reg)
/-- The offset be - mean·scale. -/
def shiftK (H : Fin P → Fin J → EReal) (g be : Fin J → EReal) (j : Fin J) : EReal := be j - meanK H j * scaleK H g j
/-- Normalise and rectify: max (H·scale + shift) 0. -/
def bnK (H : Fin P → Fin J → EReal) (g be : Fin J → EReal) : Fin P → Fin J → EReal :=
  fun p j => max (H p j * scaleK H g j + shiftK H g be j) zer

/-! ### Batch normalisation and rectifier by centring (the reference's spelling) -/

/-- Column mean: the column's sum, started from the zero word, over the count. -/
def meanR (H : Fin P → Fin J → EReal) (j : Fin J) : EReal := Ideal.div (zer + ∑ p, H p j) cnt
/-- Column variance as the mean of the squared centred entries. -/
def varR (H : Fin P → Fin J → EReal) (j : Fin J) : EReal :=
  Ideal.div (zer + ∑ p, (H p j - meanR H j) * (H p j - meanR H j)) cnt
/-- Normalise and rectify: max (((H - mean)·r)·g + be) 0. -/
def bnR (H : Fin P → Fin J → EReal) (g be : Fin J → EReal) : Fin P → Fin J → EReal :=
  fun p j => max ((H p j - meanR H j) * Ideal.rsqrt (varR H j + reg) * g j + be j) zer

/-! ### The two programs' results -/

variable {K' J' : ℕ}

/-- The kernel's result: both normalisations from raw moments. -/
def outK (A v : Fin P → Fin K → EReal) (e : EReal) (w1 : Fin K → Fin J → EReal) (b1 g1 be1 : Fin J → EReal)
    (w2 : Fin J → Fin J' → EReal) (b2 g2 be2 : Fin J' → EReal) : Fin P → Fin J' → EReal :=
  bnK (lin (bnK (lin (resid A v e) w1 b1) g1 be1) w2 b2) g2 be2

/-- The reference's result: both normalisations by centring. -/
def outR (A v : Fin P → Fin K → EReal) (e : EReal) (w1 : Fin K → Fin J → EReal) (b1 g1 be1 : Fin J → EReal)
    (w2 : Fin J → Fin J' → EReal) (b2 g2 be2 : Fin J' → EReal) : Fin P → Fin J' → EReal :=
  bnR (lin (bnR (lin (resid A v e) w1 b1) g1 be1) w2 b2) g2 be2

end Cert.Gin

end
-- ==== Proof.LibColumnSum.lean ====
/-
  GENERAL LEMMAS (no program, any extents): three readings of small layout and reduction steps at coordinates.

  * a one-entry matrix spread over an a x b matrix reads its one entry everywhere;
  * the sum of an a x b matrix down its rows, read at column j, is the sum over the rows r of the entry (r, j);
  * the host's sum of an a x b array across its first axis, read at column j, is the initial value plus that sum.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumnSum

open Idealize.ShloMosaic Idealize.ShloMosaic.ValueIdx

variable {α : Type}

/-- A `[1, 1]` matrix spread to `[a, b]` reads, at `(p, c)`, its one entry. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The index a column sum inserts its row coordinate into. -/
theorem lift_col {a b : ℕ} (h : Shape.Reduces ⟨2, ![a, b]⟩ [0] ⟨1, ![b]⟩) (j : Fin b) (r : Fin a) :
    h.lift (ix1 j) r = ix2 r j := by
  funext d
  apply Fin.ext
  match d with
  | ⟨0, _⟩ => rfl
  | ⟨1, _⟩ => rfl

/-- A float sum of an `[a, b]` vector down its rows, read at column `j`: the sum over the rows of the entries `(r, j)`. -/
theorem colSum_apply {a b : ℕ} (src : FVec Ideal ⟨2, ![a, b]⟩ .f32) (h : Shape.Reduces ⟨2, ![a, b]⟩ [0] ⟨1, ![b]⟩)
    (hacc : (0x00000000#32 : BitVec 32) = 0x00000000#32) (j : Fin b) :
    multiReduction .add [0] ⟨1, ![b]⟩ src 0x00000000#32 h (.inl rfl) hacc (ix1 j) = ∑ r : Fin a, src (ix2 r j) := by
  refine (Ideal.multiReduction_add_single src 0x00000000#32 h (.inl rfl) hacc (ix1 j)).trans ?_
  exact Finset.sum_congr rfl fun r _ => congrArg src (lift_col h j r)

/-- The host's sum of an `[a, b]` array across its first axis, read at column `j`: the initial value plus the sum over
    the rows of the entries `(r, j)`. -/
theorem hostColSum_apply {a b : ℕ} (h' : Shape.ReducesTo ⟨2, ![a, b]⟩ [0] ⟨1, ![b]⟩) (h : Shape.Reduces ⟨2, ![a, b]⟩ [0] ⟨1, ![b]⟩)
    (x : (⟨2, ![a, b]⟩ : Shape).Idx → EReal) (init : EReal) (j : Fin b) :
    Ideal.hostReduceAdd h' x init (ix1 j) = init + ∑ r : Fin a, x (ix2 r j) := by
  refine (Ideal.hostReduceAdd_single h' h x init (ix1 j)).trans ?_
  exact congrArg (init + ·) (Finset.sum_congr rfl fun r _ => congrArg x (lift_col h j r))

end Cert.LibColumnSum

end
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.Pay0.lean ====
/-
  The first kernel's arithmetic at an entry.

  On a block of 1000 rows the body forms the perceptron's input (the aggregate block plus the scalar times the feature
  block), multiplies it by the 128 x 256 weights and adds the bias row: the dense layer's block. It then adds the
  block's column sums, and the column sums of its squares, into two 8-row accumulators (every row of an accumulator
  holds the same running sum), which the first point of a core's run clears.
-/
import proofs.«181591_j57105885168079_2_alg».proof.Proof.Gen.KernelIdeal.Skeleton
import proofs.«181591_j57105885168079_2_alg».proof.Proof.Spec
import proofs.«181591_j57105885168079_2_alg».proof.Proof.LibColumnSum
import proofs.«181591_j57105885168079_2_alg».proof.Proof.LibBlock

noncomputable section

open scoped BigOperators

namespace Cert.KernelIdeal.Pay0

open Cert.KernelIdeal Cert.KernelIdeal.Gen Idealize.ShloMosaic Idealize.ShloMosaic.ValueIdx Cert.LibColumnSum

/-- The dense layer's block at `(p, j)`: row `p` of the input block against column `j` of the weights, plus the bias. -/
theorem pay4_apply (v3 : Vec Ideal S1000x128 .f32) (v5 : Vec Ideal S1x1 .f32) (v6 : Vec Ideal S1000x128 .f32)
    (v11 : Vec Ideal S128x256 .bf16) (v14 : Vec Ideal S1x256 .f32) (p : Fin 1000) (j : Fin 256) :
    k0_pay4 v3 v5 v6 v11 v14 (ix2 p j)
      = Cert.Gin.lin (Cert.Gin.resid (fun p k => v3 (ix2 p k)) (fun p k => v6 (ix2 p k)) (v5 (ix2 (0 : Fin 1) (0 : Fin 1))))
          (fun k j => v11 (ix2 k j)) (fun j => v14 (ix2 (0 : Fin 1) j)) p j := by
  unfold k0_pay4
  rw [addf_apply, shapeCast_self, shapeCast_self, shapeCast_self, broadcastTo_1b_ab_apply]
  refine congrArg (· + v14 (ix2 (0 : Fin 1) j)) ?_
  refine (Cert.LibBlock.matmul_zero_ix2 (φ₁ := .bf16) (φ₂ := .bf16) dot_S1000x128_S128x256_S1000x256_1_0_0_1_n_n rfl rfl rfl rfl rfl rfl none _ v11 p j).trans ?_
  refine Finset.sum_congr rfl fun k _ => ?_
  rw [truncf_apply, addf_apply, mulf_apply, broadcastTo_11_ab_apply]
  rfl

/-- The column sums of the block's squares, as a one-row matrix. -/
theorem pay5_apply (v3 : Vec Ideal S1000x128 .f32) (v5 : Vec Ideal S1x1 .f32) (v6 : Vec Ideal S1000x128 .f32)
    (v11 : Vec Ideal S128x256 .bf16) (v14 : Vec Ideal S1x256 .f32) (u : Fin 1) (j : Fin 256) :
    k0_pay5 v3 v5 v6 v11 v14 (ix2 u j)
      = ∑ r : Fin 1000, k0_pay4 v3 v5 v6 v11 v14 (ix2 r j) * k0_pay4 v3 v5 v6 v11 v14 (ix2 r j) := by
  unfold k0_pay5
  rw [shapeCast_a_1a_apply]
  exact colSum_apply _ _ _ j

/-- The sum accumulator after the point: what it held plus the block's column sum. -/
theorem pay6_apply (v3 : Vec Ideal S1000x128 .f32) (v5 : Vec Ideal S1x1 .f32) (v6 : Vec Ideal S1000x128 .f32)
    (v11 : Vec Ideal S128x256 .bf16) (v14 : Vec Ideal S1x256 .f32) (v24 : Vec Ideal S8x256 .f32) (r : Fin 8) (j : Fin 256) :
    k0_pay6 v3 v5 v6 v11 v14 v24 (ix2 r j) = v24 (ix2 r j) + ∑ r' : Fin 1000, k0_pay4 v3 v5 v6 v11 v14 (ix2 r' j) := by
  unfold k0_pay6
  rw [addf_apply, shapeCast_self, shapeCast_self, broadcastTo_1b_ab_apply, shapeCast_a_1a_apply]
  exact congrArg (v24 (ix2 r j) + ·) (colSum_apply _ _ _ j)

/-- The squares' accumulator after the point: what it held plus the one-row matrix of the block's squared column sums. -/
theorem pay1_apply (v23 : FVec Ideal S1x256 .f32) (v31 : FVec Ideal S8x256 .f32) (r : Fin 8) (j : Fin 256) :
    k0_pay1 v23 v31 (ix2 r j) = v31 (ix2 r j) + v23 (ix2 (0 : Fin 1) j) := by
  unfold k0_pay1
  rw [addf_apply, shapeCast_self, broadcastTo_1b_ab_apply]

/-- A same-shape cast of what the accumulator held. -/
theorem pay7_eq (v30 : Vec Ideal S8x256 .f32) : k0_pay7 v30 = v30 := shapeCast_self _ _

/-- The cleared accumulators hold the zero word. -/
theorem pay2_apply (i : S8x256.Idx) : k0_pay2 (F := Ideal) i = Cert.Gin.zer := rfl
theorem pay3_apply (i : S8x256.Idx) : k0_pay3 (F := Ideal) i = Cert.Gin.zer := rfl

end Cert.KernelIdeal.Pay0

end
-- ==== Proof.Reg0a.lean ====
/-
  The first region's arrays at coordinates: the blocks it reads, and the dense layer's array it writes.

  Grid point t (of 50) reads rows 1000 t … 1000 t + 999 of the aggregate and of the features, and the whole of the
  scalar, the weights and the bias row; it writes rows 1000 t … 1000 t + 999 of the dense layer's array. So after the
  region that array holds, at (P, j), row P of the perceptron's input against column j of the weights, plus the bias.
-/
import proofs.«181591_j57105885168079_2_alg».proof.Proof.Acc0
import proofs.«181591_j57105885168079_2_alg».proof.Proof.Pay0
import proofs.«181591_j57105885168079_2_alg».proof.Proof.Spec
import Idealize.ShloMosaic.Lib.ValueIdx
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen

variable (V : (c : Dev nD) → (b : Ref sig .tc) → Buf (Elt Ideal) ((c : Thread nD τ).loc b))

/-- The five arrays the region reads, as it finds them: the aggregate, the features, the scalar, the weights, the bias row. -/
abbrev VA (c : Dev nD) : S50000x128.Idx → EReal := V c main_v12
abbrev VV (c : Dev nD) : S50000x128.Idx → EReal := V c main_arg0
abbrev VE (c : Dev nD) : S1x1.Idx → EReal := V c main_arg12
abbrev VW (c : Dev nD) : S128x256.Idx → EReal := V c main_v15
abbrev VB (c : Dev nD) : S1x256.Idx → EReal := V c main_v13

/-- The dense layer over the whole arrays, by coordinates. -/
def H (c : Dev nD) : Fin 50000 → Fin 256 → EReal :=
  Cert.Gin.lin (Cert.Gin.resid (fun p k => VA V c (ix2 p k)) (fun p k => VV V c (ix2 p k)) (VE V c (ix2 (0 : Fin 1) (0 : Fin 1))))
    (fun k j => VW V c (ix2 k j)) (fun j => VB V c (ix2 (0 : Fin 1) j))

/-- The printed index maps over the grid: the row windows move one block per point, the whole-array windows stay,
    the accumulators' block is the core's. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val / 25 ∧ win0_6.index t (1 : Fin 2) = 0
    ∧ win0_7.index t (0 : Fin 2) = t.val / 25 ∧ win0_7.index t (1 : Fin 2) = 0 :=
  (by decide +kernel : ∀ t : Fin grid0.N, _)

/-- The aggregate's block at point `t` is rows 1000 t … of the aggregate. -/
theorem rd0 (c : Dev nD) (t : Fin cfg0.N) (p : Fin 1000) (k : Fin 128) (P : Fin 50000) (hP : P.val = t.val * 1000 + p.val) :
    (iblk0 V c 0 t : Vec Ideal S1000x128 .f32) (ix2 p k) = VA V c (ix2 P k) := by
  unfold iblk0
  rw [View.read_apply]
  show VA V c _ = VA V c _
  refine congrArg (VA V c) ?_
  obtain ⟨e0, e1, -⟩ := idx_facts t
  funext a; apply Fin.ext
  match a with
  | ⟨0, _⟩ => show win0_0.index t (0 : Fin 2) * 1000 + 1 * p.val = P.val; omega
  | ⟨1, _⟩ => show win0_0.index t (1 : Fin 2) * 128 + 1 * k.val = k.val; omega

/-- The features' block at point `t` is rows 1000 t … of the features. -/
theorem rd1 (c : Dev nD) (t : Fin cfg0.N) (p : Fin 1000) (k : Fin 128) (P : Fin 50000) (hP : P.val = t.val * 1000 + p.val) :
    (iblk0 V c 1 t : Vec Ideal S1000x128 .f32) (ix2 p k) = VV V c (ix2 P k) := by
  unfold iblk0
  rw [View.read_apply]
  show VV V c _ = VV V c _
  refine congrArg (VV V c) ?_
  obtain ⟨-, -, e2, e3, -⟩ := idx_facts t
  funext a; apply Fin.ext
  match a with
  | ⟨0, _⟩ => show win0_1.index t (0 : Fin 2) * 1000 + 1 * p.val = P.val; omega
  | ⟨1, _⟩ => show win0_1.index t (1 : Fin 2) * 128 + 1 * k.val = k.val; omega

/-- The scalar's block is the scalar. -/
theorem rd2 (c : Dev nD) (t : Fin cfg0.N) :
    (iblk0 V c 2 t : Vec Ideal S1x1 .f32) (ix2 (0 : Fin 1) (0 : Fin 1)) = VE V c (ix2 (0 : Fin 1) (0 : Fin 1)) := by
  unfold iblk0
  rw [View.read_apply]
  show VE V c _ = VE V c _
  refine congrArg (VE V c) ?_
  obtain ⟨-, -, -, -, e4, e5, -⟩ := idx_facts t
  funext a; apply Fin.ext
  match a with
  | ⟨0, _⟩ => show win0_2.index t (0 : Fin 2) * 1 + 1 * 0 = 0; omega
  | ⟨1, _⟩ => show win0_2.index t (1 : Fin 2) * 1 + 1 * 0 = 0; omega

/-- The weights' block is the weights. -/
theorem rd3 (c : Dev nD) (t : Fin cfg0.N) (k : Fin 128) (j : Fin 256) :
    (iblk0 V c 3 t : Vec Ideal S128x256 .bf16) (ix2 k j) = VW V c (ix2 k j) := by
  unfold iblk0
  rw [View.read_apply]
  show VW V c _ = VW V c _
  refine congrArg (VW V c) ?_
  obtain ⟨-, -, -, -, -, -, e6, e7, -⟩ := idx_facts t
  funext a; apply Fin.ext
  match a with
  | ⟨0, _⟩ => show win0_3.index t (0 : Fin 2) * 128 + 1 * k.val = k.val; omega
  | ⟨1, _⟩ => show win0_3.index t (1 : Fin 2) * 256 + 1 * j.val = j.val; omega

/-- The bias row's block is the bias row. -/
theorem rd4 (c : Dev nD) (t : Fin cfg0.N) (j : Fin 256) :
    (iblk0 V c 4 t : Vec Ideal S1x256 .f32) (ix2 (0 : Fin 1) j) = VB V c (ix2 (0 : Fin 1) j) := by
  unfold iblk0
  rw [View.read_apply]
  show VB V c _ = VB V c _
  refine congrArg (VB V c) ?_
  obtain ⟨-, -, -, -, -, -, -, -, e8, e9, -⟩ := idx_facts t
  funext a; apply Fin.ext
  match a with
  | ⟨0, _⟩ => show win0_4.index t (0 : Fin 2) * 1 + 1 * 0 = 0; omega
  | ⟨1, _⟩ => show win0_4.index t (1 : Fin 2) * 256 + 1 * j.val = j.val; omega

/-- The dense layer's block at point `t`, entry `(p, j)`, is the dense layer at row `1000 t + p`. -/
theorem blk_apply (c : Dev nD) (t : Fin cfg0.N) (p : Fin 1000) (j : Fin 256) (P : Fin 50000) (hP : P.val = t.val * 1000 + p.val) :
    Acc0.blk V c t (ix2 p j) = H V c P j := by
  unfold Acc0.blk
  refine (Pay0.pay4_apply (iblk0 V c 0 t) (iblk0 V c 2 t) (iblk0 V c 1 t) (iblk0 V c 3 t) (iblk0 V c 4 t) p j).trans ?_
  unfold H Cert.Gin.lin Cert.Gin.resid
  refine congrArg₂ (· + ·) (Finset.sum_congr rfl fun k _ => ?_) (rd4 V c t j)
  dsimp only
  rw [rd0 V c t p k P hP, rd1 V c t p k P hP, rd2 V c t, rd3 V c t k j]

/-- The dense layer's array, as one function of the index. -/
def G5 (c : Dev nD) : S50000x256.Idx → EReal :=
  fun i => H V c ⟨(i 0).val, idx2_lt0 i⟩ ⟨(i 1).val, idx2_lt1 i⟩

theorem G5_apply (c : Dev nD) (P : Fin 50000) (j : Fin 256) : G5 V c (ix2 P j) = H V c P j := rfl

/-- What point `t` writes back to the dense layer's array is block `t` of `G5`. -/
theorem flushed5_eq (c : Dev nD) (t : Fin cfg0.N) :
    (dat0 V c).flushed 5 t = ((cfg0.win 5).blk t).view.read (Elt Ideal) (G5 V c) := by
  show (cfg0.win 5).cut (grid0.coords t) ((dat0 V c).after 5 t) = _
  rw [after0_5, Acc0.out5_eq]
  obtain ⟨-, -, -, -, -, -, -, -, -, -, e10, e11, -⟩ := idx_facts t
  funext y
  obtain ⟨p, j, rfl⟩ : ∃ (p : Fin 1000) (j : Fin 256), y = ix2 p j := ⟨y 0, y 1, eq_ix2 y⟩
  rw [View.read_apply]
  show Acc0.blk V c t (ix2 p j) = G5 V c (((cfg0.win 5).blk t).view.emb (ix2 p j))
  unfold G5
  have hN : cfg0.N = 50 := N_0
  have hlt : t.val * 1000 + p.val < 50000 := by have := t.isLt; have := p.isLt; omega
  refine (blk_apply V c t p j ⟨t.val * 1000 + p.val, hlt⟩ rfl).trans ?_
  refine congrArg₂ (H V c) (Fin.ext ?_) (Fin.ext ?_)
  · show t.val * 1000 + p.val = win0_5.index t (0 : Fin 2) * 1000 + 1 * p.val; omega
  · show j.val = win0_5.index t (1 : Fin 2) * 256 + 1 * j.val; omega

theorem mem_blk5 (t : Fin cfg0.N) (i : S50000x256.Idx) :
    i ∈ ((cfg0.win 5).blk t).view.set ↔ ∀ a : Fin 2, win0_5.index t a * S1000x256.size a ≤ (i a).val ∧ (i a).val < win0_5.index t a * S1000x256.size a + S1000x256.size a := by
  show i ∈ ((View.whole main_v17_0).slice (win0_5.rect t)).set ↔ _
  rw [View.set_slice_whole, Rect.mem_set_unit]
  exact Iff.rfl

theorem cover5 (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 50 := N_0
  obtain ⟨t, ht⟩ : ∃ t : Fin cfg0.N, t.val = (i 0).val / 1000 := ⟨⟨(i 0).val / 1000, by rw [hN]; omega⟩, rfl⟩
  refine ⟨t, flush0_5 t, ?_⟩
  rw [mem_blk5]
  obtain ⟨-, -, -, -, -, -, -, -, -, -, e10, e11, -⟩ := idx_facts t
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 256 ≤ (i 1).val ∧ (i 1).val < win0_5.index t (1 : Fin 2) * 256 + 256; omega

/-- The dense layer's array after the region. -/
theorem final5 (c : Dev nD) : (dat0 V c).arrAt 5 cfg0.N = G5 V c :=
  (dat0 V c).arrAt_eq_of_cover 5 _ (fun t _ => flushed5_eq V c t) (cover5)

end Cert.KernelIdeal.Reg0

end
-- ==== Proof.Stats.lean ====
/-
  The kernel's batch statistics as it forms them between its regions.

  Each of the two cores leaves its partial column sums in every row of its own 8-row half of a 16-row array; the host
  takes row 0 of each half and adds the two (a sum started from the zero word). From the column totals S (of the
  entries) and Q (of their squares) it forms the mean S/n, the variance Q/n - mean², the multiplier g/√(var + ε) and
  the offset be - mean·multiplier.
-/
import proofs.«181591_j57105885168079_2_alg».proof.Proof.Spec

noncomputable section

open scoped BigOperators

namespace Cert.Gin

open Idealize.ShloMosaic

variable {J : ℕ}

/-- The column total from the two cores' partial sums: rows 0 and 8 of the 16-row array, added from the zero word. -/
def tot2 (raw : Fin 16 → Fin J → EReal) (j : Fin J) : EReal := zer + ∑ q : Fin 2, raw ⟨8 * q.val, by omega⟩ j

/-- The multiplier from the column totals: g / √(Q/n - (S/n)² + ε). -/
def scaleOf (S Q g : Fin J → EReal) (j : Fin J) : EReal :=
  g j * Ideal.rsqrt ((Ideal.div (Q j) cnt - Ideal.div (S j) cnt * Ideal.div (S j) cnt) + reg)

/-- The offset from the column totals: be - (S/n)·multiplier. -/
def shiftOf (S Q g be : Fin J → EReal) (j : Fin J) : EReal := be j - Ideal.div (S j) cnt * scaleOf S Q g j

/-- The column sums of the block of 1000 rows number `n` (of 50) of a 50000-row matrix; zero past the last block. -/
def colBlock (H : Fin 50000 → Fin J → EReal) (n : ℕ) (j : Fin J) : EReal :=
  if h : n < 50 then ∑ r : Fin 1000, H ⟨n * 1000 + r.val, by omega⟩ j else 0

/-- A core's partial column sum as the kernel accumulates it: the zero word plus the column sums of its 25 blocks. -/
def corePart (H : Fin 50000 → Fin J → EReal) (q : ℕ) (j : Fin J) : EReal :=
  zer + ∑ s ∈ Finset.range 25, colBlock H (25 * q + s) j

end Cert.Gin

end
-- ==== Proof.Reg0b.lean ====
/-
  The first region's two accumulator arrays at coordinates.

  A core's run is 25 consecutive grid points; its accumulator block (8 rows, every row the same) is cleared at the
  run's first point, takes at each point the column sums of that point's block of the dense layer (of its squares,
  for the second accumulator), and is written back after the run's last point into the core's half of a 16-row
  array. So after the region row r of that array holds, at column j, the zero word plus the column sums of the 25
  blocks of core r / 8.
-/
import proofs.«181591_j57105885168079_2_alg».proof.Proof.Reg0a
import proofs.«181591_j57105885168079_2_alg».proof.Proof.Stats

noncomputable section

open scoped BigOperators
open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen

variable (V : (c : Dev nD) → (b : Ref sig .tc) → Buf (Elt Ideal) ((c : Thread nD τ).loc b))

/-- The squares of the dense layer's entries. -/
def Hsq (c : Dev nD) : Fin 50000 → Fin 256 → EReal := fun p j => H V c p j * H V c p j

/-- The column an index of an 8-row (or 16-row) accumulator array names. -/
abbrev colOf {a : ℕ} (i : (⟨2, ![a, 256]⟩ : Shape).Idx) : Fin 256 := ⟨(i 1).val, idx2_lt1 i⟩

/-- A point's step of the sum accumulator, at an entry: what it held plus the column sum of the point's block. -/
theorem step6_apply (c : Dev nD) (n : ℕ) (hn : n < cfg0.N) (acc : Vec Ideal S8x256 .f32) (i : S8x256.Idx) :
    Acc0.step6 V c n hn acc i = acc i + Cert.Gin.colBlock (H V c) n (colOf i) := by
  obtain ⟨r, j, rfl⟩ : ∃ (r : Fin 8) (j : Fin 256), i = ix2 r j := ⟨i 0, i 1, eq_ix2 i⟩
  have hN : cfg0.N = 50 := N_0
  unfold Acc0.step6
  refine (Pay0.pay6_apply (iblk0 V c 0 ⟨n, hn⟩) (iblk0 V c 2 ⟨n, hn⟩) (iblk0 V c 1 ⟨n, hn⟩) (iblk0 V c 3 ⟨n, hn⟩) (iblk0 V c 4 ⟨n, hn⟩) acc r j).trans ?_
  refine congrArg (acc (ix2 r j) + ·) ?_
  unfold Cert.Gin.colBlock
  rw [dif_pos (by omega)]
  exact Finset.sum_congr rfl fun r' _ => blk_apply V c ⟨n, hn⟩ r' j _ rfl

/-- A point's step of the squares' accumulator, at an entry. -/
theorem step7_apply (c : Dev nD) (n : ℕ) (hn : n < cfg0.N) (acc : Vec Ideal S8x256 .f32) (i : S8x256.Idx) :
    Acc0.step7 V c n hn acc i = acc i + Cert.Gin.colBlock (Hsq V c) n (colOf i) := by
  obtain ⟨r, j, rfl⟩ : ∃ (r : Fin 8) (j : Fin 256), i = ix2 r j := ⟨i 0, i 1, eq_ix2 i⟩
  have hN : cfg0.N = 50 := N_0
  unfold Acc0.step7 Acc0.sqs
  refine (Pay0.pay1_apply (k0_pay5 (iblk0 V c 0 ⟨n, hn⟩) (iblk0 V c 2 ⟨n, hn⟩) (iblk0 V c 1 ⟨n, hn⟩) (iblk0 V c 3 ⟨n, hn⟩) (iblk0 V c 4 ⟨n, hn⟩)) (k0_pay7 acc) r j).trans ?_
  rw [Pay0.pay7_eq]
  refine congrArg (acc (ix2 r j) + ·) ?_
  refine (Pay0.pay5_apply (iblk0 V c 0 ⟨n, hn⟩) (iblk0 V c 2 ⟨n, hn⟩) (iblk0 V c 1 ⟨n, hn⟩) (iblk0 V c 3 ⟨n, hn⟩) (iblk0 V c 4 ⟨n, hn⟩) 0 j).trans ?_
  unfold Cert.Gin.colBlock
  rw [dif_pos (by omega)]
  exact Finset.sum_congr rfl fun r' _ =>
    congrArg₂ (· * ·) (blk_apply V c ⟨n, hn⟩ r' j _ rfl) (blk_apply V c ⟨n, hn⟩ r' j _ rfl)

/-- After the last point of a core's run the sum accumulator holds the core's partial column sums. -/
theorem acc6_apply (c : Dev nD) (t : Fin cfg0.N) (ht : t.val % 25 = 24) (i : S8x256.Idx) :
    (outsAt0 V c t.val t.isLt).2.1 i = Cert.Gin.corePart (H V c) (t.val / 25) (colOf i) := by
  have hN : cfg0.N = 50 := N_0
  have h' : 25 * (t.val / 25) + t.val % 25 < cfg0.N := by have := t.isLt; omega
  rw [Acc0.acc6 V c t.val t.isLt h']
  refine (Pipeline.accAt_add_apply (N := cfg0.N) (ι := S8x256.Idx) (β := EReal)
    (fun n h => Acc0.step6 V c n h (k0_pay2 (F := Ideal))) (fun n h acc => Acc0.step6 V c n h acc)
    (fun _ => Cert.Gin.zer) (fun n i => Cert.Gin.colBlock (H V c) n (colOf i)) (25 * (t.val / 25)) 24
    (fun h i => step6_apply V c _ h (k0_pay2 (F := Ideal)) i) (fun n h acc i _ _ => step6_apply V c n h acc i)
    (t.val % 25) (by omega) h' i).trans ?_
  unfold Cert.Gin.corePart
  rw [ht]

/-- After the last point of a core's run the squares' accumulator holds the core's partial column sums of squares. -/
theorem acc7_apply (c : Dev nD) (t : Fin cfg0.N) (ht : t.val % 25 = 24) (i : S8x256.Idx) :
    (outsAt0 V c t.val t.isLt).2.2 i = Cert.Gin.corePart (Hsq V c) (t.val / 25) (colOf i) := by
  have hN : cfg0.N = 50 := N_0
  have h' : 25 * (t.val / 25) + t.val % 25 < cfg0.N := by have := t.isLt; omega
  rw [Acc0.acc7 V c t.val t.isLt h']
  refine (Pipeline.accAt_add_apply (N := cfg0.N) (ι := S8x256.Idx) (β := EReal)
    (fun n h => Acc0.step7 V c n h (k0_pay3 (F := Ideal))) (fun n h acc => Acc0.step7 V c n h acc)
    (fun _ => Cert.Gin.zer) (fun n i => Cert.Gin.colBlock (Hsq V c) n (colOf i)) (25 * (t.val / 25)) 24
    (fun h i => step7_apply V c _ h (k0_pay3 (F := Ideal)) i) (fun n h acc i _ _ => step7_apply V c n h acc i)
    (t.val % 25) (by omega) h' i).trans ?_
  unfold Cert.Gin.corePart
  rw [ht]

/-- The sums' array: row r holds the partial column sums of core r / 8. -/
def G6 (c : Dev nD) : S16x256.Idx → EReal := fun i => Cert.Gin.corePart (H V c) ((i 0).val / 8) (colOf i)
/-- The squares' array, likewise. -/
def G7 (c : Dev nD) : S16x256.Idx → EReal := fun i => Cert.Gin.corePart (Hsq V c) ((i 0).val / 8) (colOf i)

theorem G6_apply (c : Dev nD) (r : Fin 16) (j : Fin 256) : G6 V c (ix2 r j) = Cert.Gin.corePart (H V c) (r.val / 8) j := rfl
theorem G7_apply (c : Dev nD) (r : Fin 16) (j : Fin 256) : G7 V c (ix2 r j) = Cert.Gin.corePart (Hsq V c) (r.val / 8) j := rfl

/-- What the last point of a core's run writes back to the sums' array is its block of `G6`. -/
theorem flushed6_eq (c : Dev nD) (t : Fin cfg0.N) (hf : (cfg0.win 6).flush t = true) :
    (dat0 V c).flushed 6 t = ((cfg0.win 6).blk t).view.read (Elt Ideal) (G6 V c) := by
  have ht : t.val % 25 = 24 := (flush0_6 t).mp hf
  show (cfg0.win 6).cut (grid0.coords t) ((dat0 V c).after 6 t) = _
  rw [after0_6]
  obtain ⟨-, -, -, -, -, -, -, -, -, -, -, -, e12, e13, -⟩ := idx_facts t
  funext y
  obtain ⟨r, j, rfl⟩ : ∃ (r : Fin 8) (j : Fin 256), y = ix2 r j := ⟨y 0, y 1, eq_ix2 y⟩
  rw [View.read_apply]
  show (outsAt0 V c t.val t.isLt).2.1 (ix2 r j) = G6 V c (((cfg0.win 6).blk t).view.emb (ix2 r j))
  refine (acc6_apply V c t ht (ix2 r j)).trans ?_
  unfold G6
  refine congrArg₂ (Cert.Gin.corePart (H V c)) ?_ (Fin.ext ?_)
  · show t.val / 25 = (win0_6.index t (0 : Fin 2) * 8 + 1 * r.val) / 8; omega
  · show j.val = win0_6.index t (1 : Fin 2) * 256 + 1 * j.val; omega

theorem flushed7_eq (c : Dev nD) (t : Fin cfg0.N) (hf : (cfg0.win 7).flush t = true) :
    (dat0 V c).flushed 7 t = ((cfg0.win 7).blk t).view.read (Elt Ideal) (G7 V c) := by
  have ht : t.val % 25 = 24 := (flush0_7 t).mp hf
  show (cfg0.win 7).cut (grid0.coords t) ((dat0 V c).after 7 t) = _
  rw [after0_7]
  obtain ⟨-, -, -, -, -, -, -, -, -, -, -, -, -, -, e14, e15⟩ := idx_facts t
  funext y
  obtain ⟨r, j, rfl⟩ : ∃ (r : Fin 8) (j : Fin 256), y = ix2 r j := ⟨y 0, y 1, eq_ix2 y⟩
  rw [View.read_apply]
  show (outsAt0 V c t.val t.isLt).2.2 (ix2 r j) = G7 V c (((cfg0.win 7).blk t).view.emb (ix2 r j))
  refine (acc7_apply V c t ht (ix2 r j)).trans ?_
  unfold G7
  refine congrArg₂ (Cert.Gin.corePart (Hsq V c)) ?_ (Fin.ext ?_)
  · show t.val / 25 = (win0_7.index t (0 : Fin 2) * 8 + 1 * r.val) / 8; omega
  · show j.val = win0_7.index t (1 : Fin 2) * 256 + 1 * j.val; omega

theorem mem_blk6 (t : Fin cfg0.N) (i : S16x256.Idx) :
    i ∈ ((cfg0.win 6).blk t).view.set ↔ ∀ a : Fin 2, win0_6.index t a * S8x256.size a ≤ (i a).val ∧ (i a).val < win0_6.index t a * S8x256.size a + S8x256.size a := by
  show i ∈ ((View.whole main_v17_1).slice (win0_6.rect t)).set ↔ _
  rw [View.set_slice_whole, Rect.mem_set_unit]
  exact Iff.rfl

theorem mem_blk7 (t : Fin cfg0.N) (i : S16x256.Idx) :
    i ∈ ((cfg0.win 7).blk t).view.set ↔ ∀ a : Fin 2, win0_7.index t a * S8x256.size a ≤ (i a).val ∧ (i a).val < win0_7.index t a * S8x256.size a + S8x256.size a := by
  show i ∈ ((View.whole main_v17_2).slice (win0_7.rect t)).set ↔ _
  rw [View.set_slice_whole, Rect.mem_set_unit]
  exact Iff.rfl

/-- Row r lies in the block written back after the last point of core r / 8's run. -/
theorem cover6 (i : S16x256.Idx) : ∃ t : Fin cfg0.N, (cfg0.win 6).flush t = true ∧ i ∈ ((cfg0.win 6).blk t).view.set := by
  have hi0 : (i 0).val < 16 := (i 0).isLt
  have hi1 : (i 1).val < 256 := (i 1).isLt
  have hN : cfg0.N = 50 := N_0
  obtain ⟨t, ht⟩ : ∃ t : Fin cfg0.N, t.val = 25 * ((i 0).val / 8) + 24 := ⟨⟨25 * ((i 0).val / 8) + 24, by rw [hN]; omega⟩, rfl⟩
  refine ⟨t, (flush0_6 t).mpr (by omega), ?_⟩
  rw [mem_blk6]
  obtain ⟨-, -, -, -, -, -, -, -, -, -, -, -, e12, e13, -⟩ := idx_facts t
  intro a
  match a with
  | ⟨0, _⟩ => show win0_6.index t (0 : Fin 2) * 8 ≤ (i 0).val ∧ (i 0).val < win0_6.index t (0 : Fin 2) * 8 + 8; omega
  | ⟨1, _⟩ => show win0_6.index t (1 : Fin 2) * 256 ≤ (i 1).val ∧ (i 1).val < win0_6.index t (1 : Fin 2) * 256 + 256; omega

theorem cover7 (i : S16x256.Idx) : ∃ t : Fin cfg0.N, (cfg0.win 7).flush t = true ∧ i ∈ ((cfg0.win 7).blk t).view.set := by
  have hi0 : (i 0).val < 16 := (i 0).isLt
  have hi1 : (i 1).val < 256 := (i 1).isLt
  have hN : cfg0.N = 50 := N_0
  obtain ⟨t, ht⟩ : ∃ t : Fin cfg0.N, t.val = 25 * ((i 0).val / 8) + 24 := ⟨⟨25 * ((i 0).val / 8) + 24, by rw [hN]; omega⟩, rfl⟩
  refine ⟨t, (flush0_7 t).mpr (by omega), ?_⟩
  rw [mem_blk7]
  obtain ⟨-, -, -, -, -, -, -, -, -, -, -, -, -, -, e14, e15⟩ := idx_facts t
  intro a
  match a with
  | ⟨0, _⟩ => show win0_7.index t (0 : Fin 2) * 8 ≤ (i 0).val ∧ (i 0).val < win0_7.index t (0 : Fin 2) * 8 + 8; omega
  | ⟨1, _⟩ => show win0_7.index t (1 : Fin 2) * 256 ≤ (i 1).val ∧ (i 1).val < win0_7.index t (1 : Fin 2) * 256 + 256; omega

/-- The two accumulator arrays after the region. -/
theorem final6 (c : Dev nD) : (dat0 V c).arrAt 6 cfg0.N = G6 V c :=
  (dat0 V c).arrAt_eq_of_cover 6 _ (fun t hf => flushed6_eq V c t hf) (cover6)
theorem final7 (c : Dev nD) : (dat0 V c).arrAt 7 cfg0.N = G7 V c :=
  (dat0 V c).arrAt_eq_of_cover 7 _ (fun t hf => flushed7_eq V c t hf) (cover7)

end Cert.KernelIdeal.Reg0

end
-- ==== Proof.Agg.lean ====
/-
  The aggregation: row r of the result is the sum, over the edges e whose destination index is r, of the edge's weight
  times the feature row at the edge's source index (a negative source index counted from the end, as an array
  subscript does). Both programs compute it on the host by the same sixteen operations — the source index wrapped,
  the rows gathered, scaled by the broadcast weights, and scatter-added into zeros at the destination indices — so it
  is stated here once, over any records of the gather's and the scatter's dimension numbers, and never opened where
  the two programs are compared: only its finiteness (a finite sum of finite products) is ever needed.
-/
import Idealize.ShloMosaic.PureOps.Ideal
import Idealize.ShloMosaic.PureOps

noncomputable section

namespace Cert.Gin

open Idealize.ShloMosaic

abbrev SN : Shape := ⟨2, ![50000, 128]⟩
abbrev SE : Shape := ⟨1, ![800000]⟩
abbrev SE1 : Shape := ⟨2, ![800000, 1]⟩
abbrev SEC : Shape := ⟨2, ![800000, 128]⟩
abbrev S0 : Shape := ⟨0, ![]⟩

/-- The aggregate of the feature rows `v` along the edges (`rows` destinations, `cols` sources, `vals` weights). -/
def agg (dg : GatherDims SN SE1 SEC) (ds : ScatterDims SN SE1 SEC)
    (h1 : SE.BroadcastsInDim SE1 (![0] : Fin 1 → Fin SE1.rank)) (h2 : S0.BroadcastsInDim SE (![] : Fin 0 → Fin SE.rank))
    (h3 : SE1.BroadcastsInDim SEC (![0, 1] : Fin 2 → Fin SEC.rank)) (h4 : S0.BroadcastsInDim SN (![] : Fin 0 → Fin SN.rank))
    (v : (⟨SN, .f32⟩ : BufTy).Contents (Elt Ideal)) (rows cols : (⟨SE, .i32⟩ : BufTy).Contents (Elt Ideal))
    (vals : (⟨SE, .f32⟩ : BufTy).Contents (Elt Ideal)) : (⟨SN, .f32⟩ : BufTy).Contents (Elt Ideal) :=
  Host.scatterAdd (F := Ideal) ds
    (broadcastInDim SN ![] h4 (constant (F := Ideal) S0 .f32 0x00000000#32))
    (broadcastInDim SE1 ![0] h1 rows)
    (mulf (F := Ideal) (broadcastInDim SEC ![0, 1] h3 (broadcastInDim SE1 ![0] h1 vals))
      (Host.gather dg v
        (broadcastInDim SE1 ![0] h1
          (select (cmpi .slt cols (broadcastInDim SE ![] h2 (constantI S0 32 0#32)))
            (addi cols (broadcastInDim SE ![] h2 (constantI S0 32 50000#32))) cols))))

end Cert.Gin

end
-- ==== Proof.Host0.lean ====
/-
  The first host stretch of the kernel program read at coordinates: it forms the aggregate of the feature rows along
  the edges (the shared aggregation, as one term), lays the two bias vectors out as one-row matrices, and narrows the two
  weight matrices to the matmul operand format (on the extended reals a narrowing is the identity); it writes no
  argument array.
-/
import proofs.«181591_j57105885168079_2_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import proofs.«181591_j57105885168079_2_alg».proof.Proof.Agg

noncomputable section

namespace Cert.KernelIdeal.Host

open Cert.KernelIdeal Cert.KernelIdeal.Gen Idealize.ShloMosaic Idealize.ShloMosaic.StableHlo Idealize.ShloMosaic.ValueIdx

/-- The aggregate array after the stretch is the shared aggregation of the feature, index and weight arguments. -/
theorem agg0 (W : Valuation τ sig (Elt Ideal)) :
    StableHlo.after (hostOps0 (F := Ideal)) W (Proc.devRef .tc main_v12)
      = Cert.Gin.agg gather_S50000x128_S800000x1_S800000x128_1_0_n_n_0_1_1128 scatter_S50000x128_S800000x1_S800000x128_1_0_0_1
          Facts₀.bcast_S800000_S800000x1_0 Facts₀.bcast_S_S800000 Facts₀.bcast_S800000x1_S800000x128_0_1 Facts₀.bcast_S_S50000x128
          (W (Proc.devRef .tc main_arg0)) (W (Proc.devRef .tc main_arg1)) (W (Proc.devRef .tc main_arg2))
          (W (Proc.devRef .tc main_arg3)) := by
  after_results_simp
  rfl

/-- The first bias laid out as a one-row matrix reads, at column j, the bias at j. -/
theorem b1row0 (W : Valuation τ sig (Elt Ideal)) (j : Fin 256) :
    StableHlo.after (hostOps0 (F := Ideal)) W (Proc.devRef .tc main_v13) (ix2 (0 : Fin 1) j)
      = W (Proc.devRef .tc main_arg5) (ix1 j) := by
  after_results
  exact shapeCast_a_1a_apply (W (Proc.devRef .tc main_arg5)) _ (0 : Fin 1) j

/-- The second bias laid out as a one-row matrix reads, at column j, the bias at j. -/
theorem b2row0 (W : Valuation τ sig (Elt Ideal)) (j : Fin 128) :
    StableHlo.after (hostOps0 (F := Ideal)) W (Proc.devRef .tc main_v14) (ix2 (0 : Fin 1) j)
      = W (Proc.devRef .tc main_arg9) (ix1 j) := by
  after_results
  exact shapeCast_a_1a_apply (W (Proc.devRef .tc main_arg9)) _ (0 : Fin 1) j

/-- The first weight matrix narrowed to the operand format is, entry by entry, the weight matrix. -/
theorem w1bf0 (W : Valuation τ sig (Elt Ideal)) (i : S128x256.Idx) :
    StableHlo.after (hostOps0 (F := Ideal)) W (Proc.devRef .tc main_v15) i = W (Proc.devRef .tc main_arg4) i := by
  after_results
  rfl

/-- The second weight matrix narrowed to the operand format is, entry by entry, the weight matrix. -/
theorem w2bf0 (W : Valuation τ sig (Elt Ideal)) (i : S256x128.Idx) :
    StableHlo.after (hostOps0 (F := Ideal)) W (Proc.devRef .tc main_v16) i = W (Proc.devRef .tc main_arg8) i := by
  after_results
  rfl

/-! The stretch writes no argument array. -/

theorem keep0_arg0 (W : Valuation τ sig (Elt Ideal)) :
    StableHlo.after (hostOps0 (F := Ideal)) W (Proc.devRef .tc main_arg0) = W (Proc.devRef .tc main_arg0) := by
  after_results

theorem keep0_arg6 (W : Valuation τ sig (Elt Ideal)) :
    StableHlo.after (hostOps0 (F := Ideal)) W (Proc.devRef .tc main_arg6) = W (Proc.devRef .tc main_arg6) := by
  after_results

theorem keep0_arg7 (W : Valuation τ sig (Elt Ideal)) :
    StableHlo.after (hostOps0 (F := Ideal)) W (Proc.devRef .tc main_arg7) = W (Proc.devRef .tc main_arg7) := by
  after_results

theorem keep0_arg10 (W : Valuation τ sig (Elt Ideal)) :
    StableHlo.after (hostOps0 (F := Ideal)) W (Proc.devRef .tc main_arg10) = W (Proc.devRef .tc main_arg10) := by
  after_results

theorem keep0_arg11 (W : Valuation τ sig (Elt Ideal)) :
    StableHlo.after (hostOps0 (F := Ideal)) W (Proc.devRef .tc main_arg11) = W (Proc.devRef .tc main_arg11) := by
  after_results

theorem keep0_arg12 (W : Valuation τ sig (Elt Ideal)) :
    StableHlo.after (hostOps0 (F := Ideal)) W (Proc.devRef .tc main_arg12) = W (Proc.devRef .tc main_arg12) := by
  after_results

end Cert.KernelIdeal.Host

end
-- ==== Proof.HostStat.lean ====
/-
  The host's batch statistics read at a column, for any row length J.

  Between its regions the program forms, on the host, from two 16 x J accumulator arrays (each core's partial column
  sums in every row of its own 8-row half), the column totals — row 0 of each half, the two added from the zero word —
  and from them the mean, the variance from raw moments, the multiplier and the offset of a batch normalisation, each
  as a 1 x J row. Read at column j these are the functions tot2, scaleOf and shiftOf of the accumulators' entries.
  Every statement is over variable arrays, with the shape relations as hypotheses.
-/
import Idealize.ShloMosaic.Lib.ValueIdx
import Idealize.ShloMosaic.Lib.ValueLayout
import Idealize.ShloMosaic.Lib.Pipeline.Value
import Idealize.ShloMosaic.PureOps.Ideal.Laws
import proofs.«181591_j57105885168079_2_alg».proof.Proof.Stats
import proofs.«181591_j57105885168079_2_alg».proof.Proof.LibColumnSum

noncomputable section

open scoped BigOperators

namespace Cert.Gin.HostStat

open Idealize.ShloMosaic Idealize.ShloMosaic.ValueIdx

variable {J : ℕ}

/-- A 16 x J array cut into two halves of 8 rows, row 0 of each half kept: entry (q, j) is entry (8q, j). -/
theorem halves_apply (x : (⟨2, ![16, J]⟩ : Shape).Idx → EReal)
    (hc1 : (⟨2, ![16, J]⟩ : Shape).ShapeCasts ⟨3, ![2, 8, J]⟩)
    (hs : (⟨3, ![2, 8, J]⟩ : Shape).Slices ![0, 0, 0] ⟨3, ![2, 1, J]⟩)
    (hc2 : (⟨3, ![2, 1, J]⟩ : Shape).ShapeCasts ⟨2, ![2, J]⟩) (q : Fin 2) (j : Fin J) :
    shapeCast ⟨2, ![2, J]⟩ (extractStridedSlice ⟨3, ![2, 1, J]⟩ ![0, 0, 0] (shapeCast ⟨3, ![2, 8, J]⟩ x hc1) hs) hc2 (ix2 q j)
      = x (ix2 (⟨8 * q.val, by omega⟩ : Fin 16) j) := by
  refine (shapeCast_apply _ hc2 (ix2 q j) (ix3 q (0 : Fin 1) j) ?_).trans ?_
  · rw [Shape.rowMajor_val_three, Shape.rowMajor_val_two]
    show (q.val * 1 + 0) * J + j.val = q.val * J + j.val
    rw [Nat.mul_one, Nat.add_zero]
  refine (slice3_axis1_apply 0 _ hs q (0 : Fin 1) j (0 : Fin 8) rfl).trans ?_
  refine shapeCast_apply x hc1 (ix3 q (0 : Fin 8) j) (ix2 (⟨8 * q.val, by omega⟩ : Fin 16) j) ?_
  rw [Shape.rowMajor_val_three, Shape.rowMajor_val_two]
  show 8 * q.val * J + j.val = (q.val * 8 + 0) * J + j.val
  rw [Nat.add_zero, Nat.mul_comm 8]

/-- The column totals as the host forms them, spread to a 1 x J row. -/
abbrev totRow (x : FVec Ideal ⟨2, ![16, J]⟩ .f32)
    (hc1 : (⟨2, ![16, J]⟩ : Shape).ShapeCasts ⟨3, ![2, 8, J]⟩)
    (hs : (⟨3, ![2, 8, J]⟩ : Shape).Slices ![0, 0, 0] ⟨3, ![2, 1, J]⟩)
    (hc2 : (⟨3, ![2, 1, J]⟩ : Shape).ShapeCasts ⟨2, ![2, J]⟩)
    (hr : Shape.ReducesTo ⟨2, ![2, J]⟩ [0] ⟨1, ![J]⟩) (hu : 0 < (⟨0, ![]⟩ : Shape).numel)
    (hb : (⟨1, ![J]⟩ : Shape).BroadcastsInDim ⟨2, ![1, J]⟩ ![1]) : FVec Ideal ⟨2, ![1, J]⟩ .f32 :=
  broadcastInDim ⟨2, ![1, J]⟩ ![1] hb
    (Host.reduceAdd (F := Ideal)
      (shapeCast ⟨2, ![2, J]⟩ (extractStridedSlice ⟨3, ![2, 1, J]⟩ ![0, 0, 0] (shapeCast ⟨3, ![2, 8, J]⟩ x hc1) hs) hc2)
      (constant (F := Ideal) ⟨0, ![]⟩ .f32 0x00000000#32) hr hu)

/-- A constant word spread to a 1 x J row. -/
abbrev cstRow (w : BitVec 32) (hb0 : (⟨0, ![]⟩ : Shape).BroadcastsInDim ⟨2, ![1, J]⟩ ![]) : FVec Ideal ⟨2, ![1, J]⟩ .f32 :=
  broadcastInDim ⟨2, ![1, J]⟩ ![] hb0 (constant (F := Ideal) ⟨0, ![]⟩ .f32 w)

theorem cstRow_apply (w : BitVec 32) (hb0 : (⟨0, ![]⟩ : Shape).BroadcastsInDim ⟨2, ![1, J]⟩ ![]) (i : (⟨2, ![1, J]⟩ : Shape).Idx) :
    cstRow w hb0 i = Ideal.ofBits .f32 w := rfl

/-- The totals row at column j is the total of column j. -/
theorem totRow_apply (x : FVec Ideal ⟨2, ![16, J]⟩ .f32)
    (hc1 : (⟨2, ![16, J]⟩ : Shape).ShapeCasts ⟨3, ![2, 8, J]⟩)
    (hs : (⟨3, ![2, 8, J]⟩ : Shape).Slices ![0, 0, 0] ⟨3, ![2, 1, J]⟩)
    (hc2 : (⟨3, ![2, 1, J]⟩ : Shape).ShapeCasts ⟨2, ![2, J]⟩)
    (hr : Shape.ReducesTo ⟨2, ![2, J]⟩ [0] ⟨1, ![J]⟩) (hu : 0 < (⟨0, ![]⟩ : Shape).numel)
    (hb : (⟨1, ![J]⟩ : Shape).BroadcastsInDim ⟨2, ![1, J]⟩ ![1]) (j : Fin J) :
    totRow x hc1 hs hc2 hr hu hb (ix2 (0 : Fin 1) j) = Cert.Gin.tot2 (fun r j => x (ix2 r j)) j := by
  refine (broadcastInDim_apply _ hb _ (ix2 (0 : Fin 1) j) (ix1 j) (fun a => ?_)).trans ?_
  · match a with
    | ⟨0, _⟩ =>
      show j.val = if J = 1 then 0 else j.val
      have := j.isLt
      split <;> omega
  show Ideal.hostReduceAdd hr _ (Ideal.ofBits .f32 0x00000000#32) (ix1 j) = _
  refine (Cert.LibColumnSum.hostColSum_apply hr ⟨hr.1, Nat.zero_lt_one, hr.2⟩ _ _ j).trans ?_
  unfold Cert.Gin.tot2
  exact congrArg (Cert.Gin.zer + ·) (Finset.sum_congr rfl fun q _ => halves_apply x hc1 hs hc2 q j)

/-- The multiplier row, read at column j. -/
theorem scale_apply (x1 x2 : FVec Ideal ⟨2, ![16, J]⟩ .f32) (g : FVec Ideal ⟨1, ![J]⟩ .f32)
    (hc1 : (⟨2, ![16, J]⟩ : Shape).ShapeCasts ⟨3, ![2, 8, J]⟩)
    (hs : (⟨3, ![2, 8, J]⟩ : Shape).Slices ![0, 0, 0] ⟨3, ![2, 1, J]⟩)
    (hc2 : (⟨3, ![2, 1, J]⟩ : Shape).ShapeCasts ⟨2, ![2, J]⟩)
    (hr : Shape.ReducesTo ⟨2, ![2, J]⟩ [0] ⟨1, ![J]⟩) (hu : 0 < (⟨0, ![]⟩ : Shape).numel)
    (hb : (⟨1, ![J]⟩ : Shape).BroadcastsInDim ⟨2, ![1, J]⟩ ![1])
    (hb0 : (⟨0, ![]⟩ : Shape).BroadcastsInDim ⟨2, ![1, J]⟩ ![])
    (hg : (⟨1, ![J]⟩ : Shape).ShapeCasts ⟨2, ![1, J]⟩) (j : Fin J) :
    mulf (F := Ideal) (shapeCast ⟨2, ![1, J]⟩ g hg)
      (Host.rsqrt (addf
        (subf (Host.divf (totRow x2 hc1 hs hc2 hr hu hb) (cstRow 0x47435000#32 hb0))
          (mulf (Host.divf (totRow x1 hc1 hs hc2 hr hu hb) (cstRow 0x47435000#32 hb0))
            (Host.divf (totRow x1 hc1 hs hc2 hr hu hb) (cstRow 0x47435000#32 hb0))))
        (cstRow 0x3727C5AC#32 hb0))) (ix2 (0 : Fin 1) j)
      = Cert.Gin.scaleOf (Cert.Gin.tot2 fun r j => x1 (ix2 r j)) (Cert.Gin.tot2 fun r j => x2 (ix2 r j)) (fun j => g (ix1 j)) j := by
  unfold Cert.Gin.scaleOf
  show _ = g (ix1 j) * _
  rw [← totRow_apply x1 hc1 hs hc2 hr hu hb j, ← totRow_apply x2 hc1 hs hc2 hr hu hb j, ← shapeCast_a_1a_apply g hg (0 : Fin 1) j]
  rfl

/-- The offset row, read at column j. -/
theorem shift_apply (x1 x2 : FVec Ideal ⟨2, ![16, J]⟩ .f32) (g be : FVec Ideal ⟨1, ![J]⟩ .f32)
    (hc1 : (⟨2, ![16, J]⟩ : Shape).ShapeCasts ⟨3, ![2, 8, J]⟩)
    (hs : (⟨3, ![2, 8, J]⟩ : Shape).Slices ![0, 0, 0] ⟨3, ![2, 1, J]⟩)
    (hc2 : (⟨3, ![2, 1, J]⟩ : Shape).ShapeCasts ⟨2, ![2, J]⟩)
    (hr : Shape.ReducesTo ⟨2, ![2, J]⟩ [0] ⟨1, ![J]⟩) (hu : 0 < (⟨0, ![]⟩ : Shape).numel)
    (hb : (⟨1, ![J]⟩ : Shape).BroadcastsInDim ⟨2, ![1, J]⟩ ![1])
    (hb0 : (⟨0, ![]⟩ : Shape).BroadcastsInDim ⟨2, ![1, J]⟩ ![])
    (hg : (⟨1, ![J]⟩ : Shape).ShapeCasts ⟨2, ![1, J]⟩) (j : Fin J) :
    subf (F := Ideal) (shapeCast ⟨2, ![1, J]⟩ be hg)
      (mulf (Host.divf (totRow x1 hc1 hs hc2 hr hu hb) (cstRow 0x47435000#32 hb0))
        (mulf (shapeCast ⟨2, ![1, J]⟩ g hg)
          (Host.rsqrt (addf
            (subf (Host.divf (totRow x2 hc1 hs hc2 hr hu hb) (cstRow 0x47435000#32 hb0))
              (mulf (Host.divf (totRow x1 hc1 hs hc2 hr hu hb) (cstRow 0x47435000#32 hb0))
                (Host.divf (totRow x1 hc1 hs hc2 hr hu hb) (cstRow 0x47435000#32 hb0))))
            (cstRow 0x3727C5AC#32 hb0))))) (ix2 (0 : Fin 1) j)
      = Cert.Gin.shiftOf (Cert.Gin.tot2 fun r j => x1 (ix2 r j)) (Cert.Gin.tot2 fun r j => x2 (ix2 r j))
          (fun j => g (ix1 j)) (fun j => be (ix1 j)) j := by
  unfold Cert.Gin.shiftOf
  show _ = be (ix1 j) - _
  rw [← scale_apply x1 x2 g hc1 hs hc2 hr hu hb hb0 hg j, ← totRow_apply x1 hc1 hs hc2 hr hu hb j,
    ← shapeCast_a_1a_apply be hg (0 : Fin 1) j]
  rfl

end Cert.Gin.HostStat

end
-- ==== Proof.Host1.lean ====
/-
  The second host stretch of the kernel program read at coordinates: from the two 16 x 256 accumulator arrays the first
  region leaves (column sums and column sums of squares, each core's partial sums in its own 8-row half) it forms the
  multiplier row and the offset row of the first batch normalisation; it writes neither the first region's other
  output nor the operands the second region reads.
-/
import proofs.«181591_j57105885168079_2_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import proofs.«181591_j57105885168079_2_alg».proof.Proof.Stats
import proofs.«181591_j57105885168079_2_alg».proof.Proof.HostStat

noncomputable section

open scoped BigOperators

namespace Cert.KernelIdeal.Host

open Cert.KernelIdeal Cert.KernelIdeal.Gen Idealize.ShloMosaic Idealize.ShloMosaic.StableHlo Idealize.ShloMosaic.ValueIdx

/-- The multiplier row after the stretch, at column j: g1 / √(Q/n - (S/n)² + ε) from the column totals S, Q. -/
theorem scale1_apply (W : Valuation τ sig (Elt Ideal)) (j : Fin 256) :
    StableHlo.after (hostOps1 (F := Ideal)) W (Proc.devRef .tc main_v38) (ix2 (0 : Fin 1) j)
      = Cert.Gin.scaleOf (Cert.Gin.tot2 fun r j => W (Proc.devRef .tc main_v17_1) (ix2 r j))
          (Cert.Gin.tot2 fun r j => W (Proc.devRef .tc main_v17_2) (ix2 r j))
          (fun j => W (Proc.devRef .tc main_arg6) (ix1 j)) j := by
  after_results_simp
  exact Cert.Gin.HostStat.scale_apply (J := 256) (W (Proc.devRef .tc main_v17_1)) (W (Proc.devRef .tc main_v17_2))
    (W (Proc.devRef .tc main_arg6)) _ _ _ _ _ _ _ _ j

/-- The offset row after the stretch, at column j: be1 - (S/n)·multiplier. -/
theorem shift1_apply (W : Valuation τ sig (Elt Ideal)) (j : Fin 256) :
    StableHlo.after (hostOps1 (F := Ideal)) W (Proc.devRef .tc main_v41) (ix2 (0 : Fin 1) j)
      = Cert.Gin.shiftOf (Cert.Gin.tot2 fun r j => W (Proc.devRef .tc main_v17_1) (ix2 r j))
          (Cert.Gin.tot2 fun r j => W (Proc.devRef .tc main_v17_2) (ix2 r j))
          (fun j => W (Proc.devRef .tc main_arg6) (ix1 j)) (fun j => W (Proc.devRef .tc main_arg7) (ix1 j)) j := by
  after_results_simp
  exact Cert.Gin.HostStat.shift_apply (J := 256) (W (Proc.devRef .tc main_v17_1)) (W (Proc.devRef .tc main_v17_2))
    (W (Proc.devRef .tc main_arg6)) (W (Proc.devRef .tc main_arg7)) _ _ _ _ _ _ _ _ j

/-- The stretch does not write the first region's normalised-input output. -/
theorem keep1_h (W : Valuation τ sig (Elt Ideal)) :
    StableHlo.after (hostOps1 (F := Ideal)) W (Proc.devRef .tc main_v17_0) = W (Proc.devRef .tc main_v17_0) := by
  after_results

/-- The stretch does not write the second layer's weights. -/
theorem keep1_w2 (W : Valuation τ sig (Elt Ideal)) :
    StableHlo.after (hostOps1 (F := Ideal)) W (Proc.devRef .tc main_v16) = W (Proc.devRef .tc main_v16) := by
  after_results

/-- The stretch does not write the second layer's bias row. -/
theorem keep1_b2 (W : Valuation τ sig (Elt Ideal)) :
    StableHlo.after (hostOps1 (F := Ideal)) W (Proc.devRef .tc main_v14) = W (Proc.devRef .tc main_v14) := by
  after_results

end Cert.KernelIdeal.Host

end
-- ==== Proof.Host2.lean ====
/-
  The third host stretch of the kernel program read at coordinates: from the two 16 x 128 accumulator arrays the second
  region leaves (column sums and column sums of squares, each core's partial sums in its own 8-row half) it forms the
  multiplier row and the offset row of the second batch normalisation; it does not write the second region's other
  output.
-/
import proofs.«181591_j57105885168079_2_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import proofs.«181591_j57105885168079_2_alg».proof.Proof.Stats
import proofs.«181591_j57105885168079_2_alg».proof.Proof.HostStat

noncomputable section

open scoped BigOperators

namespace Cert.KernelIdeal.Host

open Cert.KernelIdeal Cert.KernelIdeal.Gen Idealize.ShloMosaic Idealize.ShloMosaic.StableHlo Idealize.ShloMosaic.ValueIdx

/-- The multiplier row after the stretch, at column j: g2 / √(Q/n - (S/n)² + ε) from the column totals S, Q. -/
theorem scale2_apply (W : Valuation τ sig (Elt Ideal)) (j : Fin 128) :
    StableHlo.after (hostOps2 (F := Ideal)) W (Proc.devRef .tc main_v63) (ix2 (0 : Fin 1) j)
      = Cert.Gin.scaleOf (Cert.Gin.tot2 fun r j => W (Proc.devRef .tc main_v42_1) (ix2 r j))
          (Cert.Gin.tot2 fun r j => W (Proc.devRef .tc main_v42_2) (ix2 r j))
          (fun j => W (Proc.devRef .tc main_arg10) (ix1 j)) j := by
  after_results_simp
  exact Cert.Gin.HostStat.scale_apply (J := 128) (W (Proc.devRef .tc main_v42_1)) (W (Proc.devRef .tc main_v42_2))
    (W (Proc.devRef .tc main_arg10)) _ _ _ _ _ _ _ _ j

/-- The offset row after the stretch, at column j: be2 - (S/n)·multiplier. -/
theorem shift2_apply (W : Valuation τ sig (Elt Ideal)) (j : Fin 128) :
    StableHlo.after (hostOps2 (F := Ideal)) W (Proc.devRef .tc main_v66) (ix2 (0 : Fin 1) j)
      = Cert.Gin.shiftOf (Cert.Gin.tot2 fun r j => W (Proc.devRef .tc main_v42_1) (ix2 r j))
          (Cert.Gin.tot2 fun r j => W (Proc.devRef .tc main_v42_2) (ix2 r j))
          (fun j => W (Proc.devRef .tc main_arg10) (ix1 j)) (fun j => W (Proc.devRef .tc main_arg11) (ix1 j)) j := by
  after_results_simp
  exact Cert.Gin.HostStat.shift_apply (J := 128) (W (Proc.devRef .tc main_v42_1)) (W (Proc.devRef .tc main_v42_2))
    (W (Proc.devRef .tc main_arg10)) (W (Proc.devRef .tc main_arg11)) _ _ _ _ _ _ _ _ j

/-- The stretch does not write the second region's normalised-input output. -/
theorem keep2_out (W : Valuation τ sig (Elt Ideal)) :
    StableHlo.after (hostOps2 (F := Ideal)) W (Proc.devRef .tc main_v42_0) = W (Proc.devRef .tc main_v42_0) := by
  after_results

end Cert.KernelIdeal.Host

end
-- ==== Proof.Walk.lean ====
/-
  The buffer contents at the kernel program's segment boundaries, walked back to the launch memory or to a region's
  write-backs. A host stretch changes only the buffers it writes, and a region only its own arrays; so at each
  boundary an argument array still holds what the launch memory gave it, an array a host stretch formed holds that
  stretch's value of the launch memory, and an array a region wrote holds what the region's write-backs leave.
-/
import proofs.«181591_j57105885168079_2_alg».proof.Proof.Gen.KernelIdeal.Frame
import proofs.«181591_j57105885168079_2_alg».proof.Proof.Host0
import proofs.«181591_j57105885168079_2_alg».proof.Proof.Host1
import proofs.«181591_j57105885168079_2_alg».proof.Proof.Host2

noncomputable section

namespace Cert.KernelIdeal.Walk

open Cert.KernelIdeal Cert.KernelIdeal.Gen Idealize.ShloMosaic Idealize.ShloMosaic.TcCoe Idealize.ShloMosaic.StableHlo
  Idealize.ShloMosaic.ValueIdx

/-- The second stretch writes neither of the second normalisation's parameter arguments. -/
private theorem keep1_arg10 (W : Valuation τ sig (Elt Ideal)) :
    StableHlo.after (hostOps1 (F := Ideal)) W (Proc.devRef .tc main_arg10) = W (Proc.devRef .tc main_arg10) := by
  after_results
private theorem keep1_arg11 (W : Valuation τ sig (Elt Ideal)) :
    StableHlo.after (hostOps1 (F := Ideal)) W (Proc.devRef .tc main_arg11) = W (Proc.devRef .tc main_arg11) := by
  after_results

variable (m : (ℓ : Loc nD τ sig) → Buf (Elt Ideal) ℓ) (ρ : Dev nD → PrngReg)

/-! ### At the first region's entry -/

theorem w1_agg (c : Dev nD) :
    W1 m ρ c (Proc.devRef .tc main_v12)
      = Cert.Gin.agg gather_S50000x128_S800000x1_S800000x128_1_0_n_n_0_1_1128 scatter_S50000x128_S800000x1_S800000x128_1_0_0_1
          Facts₀.bcast_S800000_S800000x1_0 Facts₀.bcast_S_S800000 Facts₀.bcast_S800000x1_S800000x128_0_1 Facts₀.bcast_S_S50000x128
          (m ((c : Thread nD τ).loc main_arg0)) (m ((c : Thread nD τ).loc main_arg1)) (m ((c : Thread nD τ).loc main_arg2)) (m ((c : Thread nD τ).loc main_arg3)) :=
  Host.agg0 (W0 m ρ c)

theorem w1_v (c : Dev nD) : W1 m ρ c (Proc.devRef .tc main_arg0) = m ((c : Thread nD τ).loc main_arg0) :=
  Host.keep0_arg0 (W0 m ρ c)

theorem w1_eps (c : Dev nD) : W1 m ρ c (Proc.devRef .tc main_arg12) = m ((c : Thread nD τ).loc main_arg12) :=
  Host.keep0_arg12 (W0 m ρ c)

theorem w1_w1 (c : Dev nD) (i : S128x256.Idx) : W1 m ρ c (Proc.devRef .tc main_v15) i = m ((c : Thread nD τ).loc main_arg4) i :=
  Host.w1bf0 (W0 m ρ c) i

theorem w1_b1 (c : Dev nD) (j : Fin 256) :
    W1 m ρ c (Proc.devRef .tc main_v13) (ix2 (0 : Fin 1) j) = m ((c : Thread nD τ).loc main_arg5) (ix1 j) :=
  Host.b1row0 (W0 m ρ c) j

/-! ### At the first region's exit: it writes its three outputs only -/

theorem w2_g1 (c : Dev nD) : W2 m ρ c (Proc.devRef .tc main_arg6) = m ((c : Thread nD τ).loc main_arg6) :=
  (W2_of_ne m ρ c main_arg6 (by decide)).trans (Host.keep0_arg6 (W0 m ρ c))

theorem w2_be1 (c : Dev nD) : W2 m ρ c (Proc.devRef .tc main_arg7) = m ((c : Thread nD τ).loc main_arg7) :=
  (W2_of_ne m ρ c main_arg7 (by decide)).trans (Host.keep0_arg7 (W0 m ρ c))

theorem w2_w2 (c : Dev nD) (i : S256x128.Idx) : W2 m ρ c (Proc.devRef .tc main_v16) i = m ((c : Thread nD τ).loc main_arg8) i :=
  (congrFun (W2_of_ne m ρ c main_v16 (by decide)) i).trans (Host.w2bf0 (W0 m ρ c) i)

theorem w2_b2 (c : Dev nD) (j : Fin 128) :
    W2 m ρ c (Proc.devRef .tc main_v14) (ix2 (0 : Fin 1) j) = m ((c : Thread nD τ).loc main_arg9) (ix1 j) :=
  (congrFun (W2_of_ne m ρ c main_v14 (by decide)) (ix2 (0 : Fin 1) j)).trans (Host.b2row0 (W0 m ρ c) j)

theorem w2_h (c : Dev nD) : W2 m ρ c (Proc.devRef .tc main_v17_0) = (dat0 (V1 m ρ) c).arrAt 5 cfg0.N :=
  W2_arr m ρ c 5

theorem w2_s (c : Dev nD) : W2 m ρ c (Proc.devRef .tc main_v17_1) = (dat0 (V1 m ρ) c).arrAt 6 cfg0.N :=
  W2_arr m ρ c 6

theorem w2_q (c : Dev nD) : W2 m ρ c (Proc.devRef .tc main_v17_2) = (dat0 (V1 m ρ) c).arrAt 7 cfg0.N :=
  W2_arr m ρ c 7

/-! ### At the second region's exit -/

theorem w4_g2 (c : Dev nD) : W4 m ρ c (Proc.devRef .tc main_arg10) = m ((c : Thread nD τ).loc main_arg10) :=
  (W4_of_ne m ρ c main_arg10 (by decide)).trans ((keep1_arg10 (W2 m ρ c)).trans
    ((W2_of_ne m ρ c main_arg10 (by decide)).trans (Host.keep0_arg10 (W0 m ρ c))))

theorem w4_be2 (c : Dev nD) : W4 m ρ c (Proc.devRef .tc main_arg11) = m ((c : Thread nD τ).loc main_arg11) :=
  (W4_of_ne m ρ c main_arg11 (by decide)).trans ((keep1_arg11 (W2 m ρ c)).trans
    ((W2_of_ne m ρ c main_arg11 (by decide)).trans (Host.keep0_arg11 (W0 m ρ c))))

theorem w4_out (c : Dev nD) : W4 m ρ c (Proc.devRef .tc main_v42_0) = (dat1 (V3 m ρ) c).arrAt 5 cfg1.N :=
  W4_arr m ρ c 5

theorem w4_s (c : Dev nD) : W4 m ρ c (Proc.devRef .tc main_v42_1) = (dat1 (V3 m ρ) c).arrAt 6 cfg1.N :=
  W4_arr m ρ c 6

theorem w4_q (c : Dev nD) : W4 m ρ c (Proc.devRef .tc main_v42_2) = (dat1 (V3 m ρ) c).arrAt 7 cfg1.N :=
  W4_arr m ρ c 7

/-! ### At the end -/

theorem w6_res (c : Dev nD) : W6 m ρ c (Proc.devRef .tc main_v67) = (dat2 (V5 m ρ) c).arrAt 3 cfg2.N :=
  W6_arr m ρ c 3

end Cert.KernelIdeal.Walk

end
-- ==== Proof.LibCovariance.lean ====
/-
  GENERAL LEMMAS: the covariance law, on the reals and on the extended reals (no shapes, no program).
  The one algebraic law of this certificate. For two families of REAL numbers f, g over a finite index set of M
  elements, with means a = (Σ f) / M and b = (Σ g) / M,
      (Σ_i (f i - a) (g i - b)) / M  =  (Σ_i f i g i) / M - a b:
  expanding the product, the two cross terms each give -a b and the constant term gives +a b (it is summed M times and
  divided by M). It is a law of the reals: on the extended reals it fails at infinities, which is why the
  certificate's precondition (every input finite) is used here and nowhere else. The second half of this file
  carries the law to the extended reals in the two spellings the programs use: a quotient by the count is the
  division of the ideal arithmetic, a sum starts from the zero word, and a term E (the regulariser) is added on.
-/
import Idealize.ShloMosaic.PureOps.Ideal
import Mathlib.Algebra.BigOperators.Field
import Mathlib.Tactic.Ring
import Mathlib.Tactic.FieldSimp

noncomputable section

open scoped BigOperators

namespace Cert.Whiten.Cov

open Idealize.ShloMosaic

/-- The word 0x47C40000 is the float 100352.0 = 1.53125 * 2^16: the number of positions, 32 * 3136. -/
theorem ofBits_count : Ideal.ofBits .f32 0x47C40000#32 = ((100352 : ℝ) : EReal) := by
  simp [Ideal.ofBits, Ideal.ieee, -EReal.coe_mul]; norm_num

/-- The zero word is 0. -/
theorem ofBits_zero : Ideal.ofBits .f32 0x00000000#32 = 0 := by
  simp [Ideal.ofBits, Ideal.ieee]

/-- A finite sum of reals, read in the extended reals, is the sum of the terms read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law on the reals. -/
theorem centred_moment {ι : Type*} [Fintype ι] (f g : ι → ℝ) (M : ℝ) (hM : (Fintype.card ι : ℝ) = M) (h0 : M ≠ 0) :
    (∑ i, (f i - (∑ j, f j) / M) * (g i - (∑ j, g j) / M)) / M
      = (∑ i, f i * g i) / M - ((∑ j, f j) / M) * ((∑ j, g j) / M) := by
  have h1 : ∀ i, (f i - (∑ j, f j) / M) * (g i - (∑ j, g j) / M)
      = f i * g i - (∑ j, g j) / M * f i - (∑ j, f j) / M * g i + (∑ j, f j) / M * ((∑ j, g j) / M) := fun i => by ring
  simp only [h1, Finset.sum_add_distrib, Finset.sum_sub_distrib, ← Finset.mul_sum, Finset.sum_const, Finset.card_univ,
    nsmul_eq_mul, hM]
  field_simp
  ring

/-- The law on the extended reals, in the programs' two spellings: on the left the raw second moment over the count,
    minus the product of the two means; on the right the centred second moment over the count, each mean a sum that
    starts from 0. Any extended real E may be added to both. -/
theorem cov_eq {ι : Type*} [Fintype ι] (f g : ι → ℝ) (M : ℝ) (hM : (Fintype.card ι : ℝ) = M) (h0 : M ≠ 0) (E : EReal) :
    (E + Ideal.div (∑ i, (f i : EReal) * (g i : EReal)) (M : EReal))
        - Ideal.div (∑ i, (f i : EReal)) (M : EReal) * Ideal.div (∑ i, (g i : EReal)) (M : EReal)
      = E + Ideal.div (∑ i, ((f i : EReal) - Ideal.div (0 + ∑ j, (f j : EReal)) (M : EReal))
                              * ((g i : EReal) - Ideal.div (0 + ∑ j, (g j : EReal)) (M : EReal))) (M : EReal) := by
  simp only [Ideal.div_coe h0, zero_add, ← coe_sum, ← EReal.coe_mul, ← EReal.coe_sub]
  rw [sub_eq_add_neg, add_assoc, ← EReal.coe_neg, ← EReal.coe_add]
  congr 2
  simp only [mul_one_div]
  rw [centred_moment f g M hM h0]; ring

end Cert.Whiten.Cov

end
-- ==== Proof.Bridge.lean ====
/-
  The bridge on the extended reals: the two spellings of a batch normalisation (by centring, and from raw moments)
  are the same function on finite entries, and so are the two programs' results.

  With every entry of H a real number, the column mean (Σ H)/n is real, the centred variance (Σ (H - mean)²)/n equals
  the raw one (Σ H²)/n - mean² (the variance identity: a law of the reals, which fails at infinities) and is
  nonnegative as a mean of squares; the regulariser ε is a positive real, so var + ε is a positive real and its
  reciprocal square root r is a real. Then
      H·(g·r) + (be - mean·(g·r)) = ((H - mean)·r)·g + be
  by distributivity on the reals, and the maximum with zero is taken of the same number on both sides. A dense layer
  and the residual sum keep entries real, so the identity applies at both normalisations of the perceptron.
-/
import proofs.«181591_j57105885168079_2_alg».proof.Proof.Spec
import proofs.«181591_j57105885168079_2_alg».proof.Proof.LibCovariance
import Mathlib.Tactic.Ring
import Mathlib.Tactic.NormNum
import Mathlib.Tactic.Positivity

noncomputable section

open scoped BigOperators

namespace Cert.Gin

open Idealize.ShloMosaic
open Cert.Whiten.Cov (coe_sum centred_moment)

/-! ### The three words -/

/-- The word 0x47435000 is the float 50000.0 = 1.52587890625 * 2^15. -/
theorem cnt_eq : cnt = ((50000 : ℝ) : EReal) := by
  simp [cnt, Ideal.ofBits, Ideal.ieee, -EReal.coe_mul]; norm_num

/-- The zero word is 0. -/
theorem zer_eq : zer = 0 := by
  simp [zer, Ideal.ofBits, Ideal.ieee]

/-- The word 0x3727C5AC is a positive real: sign bit 0, exponent 110, so (2^23 + fraction) * 2^(-40). -/
theorem reg_pos : ∃ r : ℝ, 0 < r ∧ reg = (r : EReal) := by
  simp [reg, Ideal.ofBits, Ideal.ieee, -EReal.coe_mul]

/-- The regulariser as a real number. -/
def eps : ℝ := reg.toReal

theorem reg_eq_eps : reg = (eps : EReal) := by
  obtain ⟨r, _, hr⟩ := reg_pos
  rw [eps, hr, EReal.toReal_coe]

theorem eps_pos : 0 < eps := by
  obtain ⟨r, h0, hr⟩ := reg_pos
  rw [eps, hr, EReal.toReal_coe]; exact h0

theorem n_ne : (50000 : ℝ) ≠ 0 := by norm_num

/-! ### Real entries are closed under the operations of the layer -/

theorem isReal_coe (r : ℝ) : IsReal (r : EReal) := ⟨r, rfl⟩

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

theorem IsReal.sum {ι : Type*} (s : Finset ι) (f : ι → EReal) (hf : ∀ i, IsReal (f i)) : IsReal (∑ i ∈ s, f i) := by
  choose g hg using hf
  exact ⟨∑ i ∈ s, g i, by rw [coe_sum]; exact Finset.sum_congr rfl (fun i _ => hg i)⟩

theorem resid_real {P K : ℕ} (A v : Fin P → Fin K → EReal) (e : EReal) (hA : ∀ p k, IsReal (A p k))
    (hv : ∀ p k, IsReal (v p k)) (he : IsReal e) : ∀ p k, IsReal (resid A v e p k) :=
  fun p k => (hA p k).add (he.mul (hv p k))

theorem lin_real {P K J : ℕ} (X : Fin P → Fin K → EReal) (W : Fin K → Fin J → EReal) (b : Fin J → EReal)
    (hX : ∀ p k, IsReal (X p k)) (hW : ∀ k j, IsReal (W k j)) (hb : ∀ j, IsReal (b j)) : ∀ p j, IsReal (lin X W b p j) :=
  fun p j => (IsReal.sum _ _ (fun k => (hX p k).mul (hW k j))).add (hb j)

/-! ### A batch normalisation on real entries -/

section BN

variable {J : ℕ}

/-- The column mean, on the reals. -/
def mu (h : Fin 50000 → Fin J → ℝ) (j : Fin J) : ℝ := (∑ p, h p j) / 50000

/-- The centred column variance, on the reals. -/
def sg (h : Fin 50000 → Fin J → ℝ) (j : Fin J) : ℝ := (∑ p, (h p j - mu h j) * (h p j - mu h j)) / 50000

/-- The reciprocal square root of variance plus regulariser, on the reals. -/
def rs (h : Fin 50000 → Fin J → ℝ) (j : Fin J) : ℝ := (Real.sqrt (sg h j + eps))⁻¹

theorem sg_nonneg (h : Fin 50000 → Fin J → ℝ) (j : Fin J) : 0 ≤ sg h j :=
  div_nonneg (Finset.sum_nonneg (fun p _ => mul_self_nonneg _)) (by norm_num)

/-- The variance identity: the centred variance is the mean of squares minus the squared mean. -/
theorem sg_eq (h : Fin 50000 → Fin J → ℝ) (j : Fin J) :
    sg h j = (∑ p, h p j * h p j) / 50000 - mu h j * mu h j :=
  centred_moment (fun p => h p j) (fun p => h p j) 50000 (by simp) n_ne

theorem meanR_coe (h : Fin 50000 → Fin J → ℝ) (j : Fin J) :
    meanR (fun p j => (h p j : EReal)) j = (mu h j : EReal) := by
  simp only [meanR, zer_eq, cnt_eq, zero_add, Ideal.div_coe n_ne, ← coe_sum, ← EReal.coe_mul, mu, mul_one_div]

theorem meanK_coe (h : Fin 50000 → Fin J → ℝ) (j : Fin J) :
    meanK (fun p j => (h p j : EReal)) j = (mu h j : EReal) := by
  simp only [meanK, cnt_eq, Ideal.div_coe n_ne, ← coe_sum, ← EReal.coe_mul, mu, mul_one_div]

theorem varR_coe (h : Fin 50000 → Fin J → ℝ) (j : Fin J) :
    varR (fun p j => (h p j : EReal)) j = (sg h j : EReal) := by
  simp only [varR, meanR_coe, zer_eq, cnt_eq, zero_add, Ideal.div_coe n_ne, ← EReal.coe_sub, ← EReal.coe_mul,
    ← coe_sum, sg, mul_one_div]

theorem varK_coe (h : Fin 50000 → Fin J → ℝ) (j : Fin J) :
    varK (fun p j => (h p j : EReal)) j = (sg h j : EReal) := by
  simp only [varK, meanK_coe, cnt_eq, Ideal.div_coe n_ne, ← EReal.coe_mul, ← coe_sum, ← EReal.coe_sub, mul_one_div,
    sg_eq]

/-- The reciprocal square root of a positive real is the real one. -/
theorem rsqrt_coe_pos {x : ℝ} (hx : 0 < x) : Ideal.rsqrt (x : EReal) = (((Real.sqrt x)⁻¹ : ℝ) : EReal) := by
  rw [Ideal.rsqrt_coe, if_neg (not_lt.2 hx.le), if_neg hx.ne']

theorem sg_eps_pos (h : Fin 50000 → Fin J → ℝ) (j : Fin J) : 0 < sg h j + eps :=
  add_pos_of_nonneg_of_pos (sg_nonneg h j) eps_pos

/-- The reference's normalisation on real entries: the maximum of a real number and zero. -/
theorem bnR_coe (h : Fin 50000 → Fin J → ℝ) (g be : Fin J → ℝ) (p : Fin 50000) (j : Fin J) :
    bnR (fun p j => (h p j : EReal)) (fun j => (g j : EReal)) (fun j => (be j : EReal)) p j
      = max (((h p j - mu h j) * rs h j * g j + be j : ℝ) : EReal) 0 := by
  simp only [bnR, meanR_coe, varR_coe, reg_eq_eps, zer_eq, ← EReal.coe_add, rsqrt_coe_pos (sg_eps_pos h j),
    ← EReal.coe_sub, ← EReal.coe_mul, rs]

/-- The kernel's normalisation on real entries: the maximum of the same real number and zero. -/
theorem bnK_coe (h : Fin 50000 → Fin J → ℝ) (g be : Fin J → ℝ) (p : Fin 50000) (j : Fin J) :
    bnK (fun p j => (h p j : EReal)) (fun j => (g j : EReal)) (fun j => (be j : EReal)) p j
      = max (((h p j - mu h j) * rs h j * g j + be j : ℝ) : EReal) 0 := by
  simp only [bnK, scaleK, shiftK, meanK_coe, varK_coe, reg_eq_eps, zer_eq, ← EReal.coe_add,
    rsqrt_coe_pos (sg_eps_pos h j), ← EReal.coe_sub, ← EReal.coe_mul]
  congr 2
  rw [rs]; ring

/-- Entries that are real numbers are the images of a real family. -/
theorem exists_real2 {P K : ℕ} (H : Fin P → Fin K → EReal) (hH : ∀ p k, IsReal (H p k)) :
    ∃ h : Fin P → Fin K → ℝ, H = fun p k => (h p k : EReal) := by
  choose h hh using hH
  exact ⟨h, funext fun p => funext fun k => hh p k⟩

theorem exists_real1 {K : ℕ} (g : Fin K → EReal) (hg : ∀ k, IsReal (g k)) :
    ∃ g' : Fin K → ℝ, g = fun k => (g' k : EReal) := by
  choose g' hg' using hg
  exact ⟨g', funext hg'⟩

theorem bnR_real (H : Fin 50000 → Fin J → EReal) (g be : Fin J → EReal) (hH : ∀ p j, IsReal (H p j))
    (hg : ∀ j, IsReal (g j)) (hbe : ∀ j, IsReal (be j)) : ∀ p j, IsReal (bnR H g be p j) := by
  obtain ⟨h, rfl⟩ := exists_real2 H hH
  obtain ⟨g', rfl⟩ := exists_real1 g hg
  obtain ⟨be', rfl⟩ := exists_real1 be hbe
  intro p j
  rw [bnR_coe]
  rcases max_choice (((h p j - mu h j) * rs h j * g' j + be' j : ℝ) : EReal) 0 with hm | hm
  · rw [hm]; exact isReal_coe _
  · rw [hm]; exact ⟨0, rfl⟩

/-- The two spellings of a batch normalisation agree on real entries. -/
theorem bnK_eq_bnR (H : Fin 50000 → Fin J → EReal) (g be : Fin J → EReal) (hH : ∀ p j, IsReal (H p j))
    (hg : ∀ j, IsReal (g j)) (hbe : ∀ j, IsReal (be j)) : bnK H g be = bnR H g be := by
  obtain ⟨h, rfl⟩ := exists_real2 H hH
  obtain ⟨g', rfl⟩ := exists_real1 g hg
  obtain ⟨be', rfl⟩ := exists_real1 be hbe
  funext p j
  rw [bnK_coe, bnR_coe]

end BN

/-! ### The two programs' results -/

/-- The kernel's result is the reference's, on finite inputs. -/
theorem outK_eq_outR {K J J' : ℕ} (A v : Fin 50000 → Fin K → EReal) (e : EReal) (w1 : Fin K → Fin J → EReal)
    (b1 g1 be1 : Fin J → EReal) (w2 : Fin J → Fin J' → EReal) (b2 g2 be2 : Fin J' → EReal)
    (hA : ∀ p k, IsReal (A p k)) (hv : ∀ p k, IsReal (v p k)) (he : IsReal e) (hw1 : ∀ k j, IsReal (w1 k j))
    (hb1 : ∀ j, IsReal (b1 j)) (hg1 : ∀ j, IsReal (g1 j)) (hbe1 : ∀ j, IsReal (be1 j)) (hw2 : ∀ k j, IsReal (w2 k j))
    (hb2 : ∀ j, IsReal (b2 j)) (hg2 : ∀ j, IsReal (g2 j)) (hbe2 : ∀ j, IsReal (be2 j)) :
    outK A v e w1 b1 g1 be1 w2 b2 g2 be2 = outR A v e w1 b1 g1 be1 w2 b2 g2 be2 := by
  have hX := resid_real A v e hA hv he
  have hH1 := lin_real _ w1 b1 hX hw1 hb1
  have h1 := bnK_eq_bnR _ g1 be1 hH1 hg1 hbe1
  have hY := bnR_real _ g1 be1 hH1 hg1 hbe1
  have hH2 := lin_real _ w2 b2 hY hw2 hb2
  rw [outK, outR, h1]
  exact bnK_eq_bnR _ g2 be2 hH2 hg2 hbe2

end Cert.Gin

end
-- ==== Proof.BlockSum.lean ====
/-
  The kernel's column total is the plain column sum.

  The kernel adds a column of 50000 entries in three stages: each block of 1000 rows is summed; each of the two cores
  adds its 25 blocks' sums into an accumulator that starts at the zero word; the two cores' results are added, again
  from the zero word. The zero word is 0, and 50000 = 2 * 25 * 1000: regrouping a finite sum (addition on the
  extended reals is commutative and associative, so no finiteness is needed) gives the sum over all rows. The
  regrouping is done on the column extended by zero past its last row, as a function of a natural number, where a sum
  over the first a * b numbers is a sum of a consecutive runs of b.
-/
import proofs.«181591_j57105885168079_2_alg».proof.Proof.Stats
import proofs.«181591_j57105885168079_2_alg».proof.Proof.Bridge

noncomputable section

open scoped BigOperators

namespace Cert.Gin

open Idealize.ShloMosaic

/-- A sum over the first `a * b` numbers is the sum of `a` consecutive runs of `b`. -/
theorem sum_range_mul {M : Type*} [AddCommMonoid M] (f : ℕ → M) (a b : ℕ) :
    ∑ i ∈ Finset.range (a * b), f i = ∑ s ∈ Finset.range a, ∑ r ∈ Finset.range b, f (s * b + r) := by
  induction a with
  | zero => simp
  | succ a ih => rw [Nat.succ_mul, Finset.sum_range_add, ih, Finset.sum_range_succ]

variable {J : ℕ}

/-- Column `j` of a 50000-row matrix, extended by zero past the last row. -/
def colExt (H : Fin 50000 → Fin J → EReal) (j : Fin J) (i : ℕ) : EReal := if h : i < 50000 then H ⟨i, h⟩ j else 0

/-- The column sum is the sum of the extended column over the first 50000 numbers. -/
theorem sum_eq_colExt (H : Fin 50000 → Fin J → EReal) (j : Fin J) :
    ∑ p : Fin 50000, H p j = ∑ i ∈ Finset.range 50000, colExt H j i := by
  rw [← Fin.sum_univ_eq_sum_range (colExt H j) 50000]
  exact Finset.sum_congr rfl fun p _ => by rw [colExt, dif_pos p.isLt]

/-- A block's column sum is the sum of the extended column over the block's 1000 numbers (past the last block both
    are zero). -/
theorem colBlock_eq (H : Fin 50000 → Fin J → EReal) (n : ℕ) (j : Fin J) :
    colBlock H n j = ∑ r ∈ Finset.range 1000, colExt H j (n * 1000 + r) := by
  unfold colBlock
  split_ifs with hn
  · rw [← Fin.sum_univ_eq_sum_range (fun r => colExt H j (n * 1000 + r)) 1000]
    refine Finset.sum_congr rfl fun r _ => ?_
    have hr := r.isLt
    rw [colExt, dif_pos (by omega : n * 1000 + r.val < 50000)]
  · refine (Finset.sum_eq_zero fun r _ => ?_).symm
    rw [colExt, dif_neg (by omega)]

/-- A core's partial sum is the sum of the extended column over the core's 25000 numbers. -/
theorem corePart_eq (H : Fin 50000 → Fin J → EReal) (q : ℕ) (j : Fin J) :
    corePart H q j = ∑ i ∈ Finset.range (25 * 1000), colExt H j (25000 * q + i) := by
  rw [corePart, zer_eq, zero_add, sum_range_mul]
  refine Finset.sum_congr rfl fun s _ => ?_
  rw [colBlock_eq]
  refine Finset.sum_congr rfl fun r _ => ?_
  congr 1; ring

/-- The two cores' partial sums, added from the zero word, are the column sum. -/
theorem tot2_corePart (H : Fin 50000 → Fin J → EReal) (j : Fin J) :
    tot2 (fun r j => corePart H (r.val / 8) j) j = ∑ p : Fin 50000, H p j := by
  show zer + ∑ q : Fin 2, corePart H (8 * q.val / 8) j = _
  simp only [Nat.mul_div_cancel_left _ (show 0 < 8 by norm_num)]
  rw [Fin.sum_univ_two, corePart_eq, corePart_eq, zer_eq, zero_add, sum_eq_colExt,
    show (50000 : ℕ) = 25 * 1000 + 25 * 1000 from rfl, Finset.sum_range_add]
  simp only [Fin.val_zero, Fin.val_one, mul_zero, mul_one, zero_add]

end Cert.Gin

end
-- ==== Proof.KV0.lean ====
/-
  The kernel program's values, first half: the first region and the statistics the host forms from it.

  From the launch memory the first host stretch forms the aggregate and lays out the weights and biases; the first
  region then writes the dense layer H of the perceptron's input and, per core, the partial column sums of H and of
  its squares; the host adds the two cores' parts — together the plain sums over all 50000 rows — and forms from them
  the first normalisation's multiplier and offset rows: exactly the multiplier and offset of the raw-moment batch
  normalisation of H.
-/
import proofs.«181591_j57105885168079_2_alg».proof.Proof.Reg0b
import proofs.«181591_j57105885168079_2_alg».proof.Proof.Walk
import proofs.«181591_j57105885168079_2_alg».proof.Proof.Host1
import proofs.«181591_j57105885168079_2_alg».proof.Proof.BlockSum
import proofs.«181591_j57105885168079_2_alg».proof.Proof.Agg

noncomputable section

open scoped BigOperators
open Idealize.ShloMosaic Idealize.ShloMosaic.TcCoe Idealize.SL.Sem Idealize.ShloMosaic.ValueIdx

namespace Cert.KernelIdeal.KValue

open Cert.KernelIdeal Cert.KernelIdeal.Gen

variable (m : (ℓ : Loc nD τ sig) → Buf (Elt Ideal) ℓ) (ρ : Dev nD → PrngReg)

/-! ### The argument arrays by coordinates -/

def aA (c : Dev nD) : Fin 50000 → Fin 128 → EReal := fun p k => (Cert.Gin.agg gather_S50000x128_S800000x1_S800000x128_1_0_n_n_0_1_1128 scatter_S50000x128_S800000x1_S800000x128_1_0_0_1 Facts₀.bcast_S800000_S800000x1_0 Facts₀.bcast_S_S800000 Facts₀.bcast_S800000x1_S800000x128_0_1 Facts₀.bcast_S_S50000x128 (m ((c : Thread nD τ).loc main_arg0)) (m ((c : Thread nD τ).loc main_arg1)) (m ((c : Thread nD τ).loc main_arg2)) (m ((c : Thread nD τ).loc main_arg3))) (ix2 p k)
def aV (c : Dev nD) : Fin 50000 → Fin 128 → EReal := fun p k => (m ((c : Thread nD τ).loc main_arg0)) (ix2 p k)
def aE (c : Dev nD) : EReal := (m ((c : Thread nD τ).loc main_arg12)) (ix2 (0 : Fin 1) (0 : Fin 1))
def aW1 (c : Dev nD) : Fin 128 → Fin 256 → EReal := fun k j => (m ((c : Thread nD τ).loc main_arg4)) (ix2 k j)
def aB1 (c : Dev nD) : Fin 256 → EReal := fun j => (m ((c : Thread nD τ).loc main_arg5)) (ix1 j)
def aG1 (c : Dev nD) : Fin 256 → EReal := fun j => (m ((c : Thread nD τ).loc main_arg6)) (ix1 j)
def aBe1 (c : Dev nD) : Fin 256 → EReal := fun j => (m ((c : Thread nD τ).loc main_arg7)) (ix1 j)
def aW2 (c : Dev nD) : Fin 256 → Fin 128 → EReal := fun k j => (m ((c : Thread nD τ).loc main_arg8)) (ix2 k j)
def aB2 (c : Dev nD) : Fin 128 → EReal := fun j => (m ((c : Thread nD τ).loc main_arg9)) (ix1 j)
def aG2 (c : Dev nD) : Fin 128 → EReal := fun j => (m ((c : Thread nD τ).loc main_arg10)) (ix1 j)
def aBe2 (c : Dev nD) : Fin 128 → EReal := fun j => (m ((c : Thread nD τ).loc main_arg11)) (ix1 j)

/-- The first dense layer of the arguments. -/
def H1 (c : Dev nD) : Fin 50000 → Fin 256 → EReal :=
  Cert.Gin.lin (Cert.Gin.resid (aA m c) (aV m c) (aE m c)) (aW1 m c) (aB1 m c)

/-! ### The first region -/

/-- The first region's dense layer, at the contents it is entered with, is the first dense layer of the arguments. -/
theorem h0_eq (c : Dev nD) : Reg0.H (V1 m ρ) c = H1 m c := by
  unfold Reg0.H H1
  have eA : (fun (p : Fin 50000) (k : Fin 128) => Reg0.VA (V1 m ρ) c (ix2 p k)) = aA m c :=
    funext fun p => funext fun k => congrFun (Walk.w1_agg m ρ c) (ix2 p k)
  have eV : (fun (p : Fin 50000) (k : Fin 128) => Reg0.VV (V1 m ρ) c (ix2 p k)) = aV m c :=
    funext fun p => funext fun k => congrFun (Walk.w1_v m ρ c) (ix2 p k)
  have eE : Reg0.VE (V1 m ρ) c (ix2 (0 : Fin 1) (0 : Fin 1)) = aE m c := congrFun (Walk.w1_eps m ρ c) _
  have eW : (fun (k : Fin 128) (j : Fin 256) => Reg0.VW (V1 m ρ) c (ix2 k j)) = aW1 m c :=
    funext fun k => funext fun j => Walk.w1_w1 m ρ c (ix2 k j)
  have eB : (fun (j : Fin 256) => Reg0.VB (V1 m ρ) c (ix2 (0 : Fin 1) j)) = aB1 m c :=
    funext fun j => Walk.w1_b1 m ρ c j
  rw [eA, eV, eE, eW, eB]

/-- The column totals the host forms from the two cores' parts are the plain column sums. -/
theorem tot_sum (c : Dev nD) :
    (Cert.Gin.tot2 fun (r : Fin 16) (j : Fin 256) => W2 m ρ c (Proc.devRef .tc main_v17_1) (ix2 r j)) = fun j => ∑ p, H1 m c p j := by
  funext j
  have e : (fun (r : Fin 16) (j : Fin 256) => W2 m ρ c (Proc.devRef .tc main_v17_1) (ix2 r j))
      = fun r j => Cert.Gin.corePart (H1 m c) (r.val / 8) j := by
    funext r j
    rw [Walk.w2_s m ρ c, Reg0.final6, Reg0.G6_apply, h0_eq]
  rw [e]
  exact Cert.Gin.tot2_corePart (H1 m c) j

theorem tot_sq (c : Dev nD) :
    (Cert.Gin.tot2 fun (r : Fin 16) (j : Fin 256) => W2 m ρ c (Proc.devRef .tc main_v17_2) (ix2 r j)) = fun j => ∑ p, H1 m c p j * H1 m c p j := by
  funext j
  have e : (fun (r : Fin 16) (j : Fin 256) => W2 m ρ c (Proc.devRef .tc main_v17_2) (ix2 r j))
      = fun r j => Cert.Gin.corePart (fun p j => H1 m c p j * H1 m c p j) (r.val / 8) j := by
    funext r j
    rw [Walk.w2_q m ρ c, Reg0.final7, Reg0.G7_apply]
    unfold Reg0.Hsq
    rw [h0_eq]
  rw [e]
  exact Cert.Gin.tot2_corePart (fun p j => H1 m c p j * H1 m c p j) j

/-! ### What the second region is entered with -/

theorem v3_h (c : Dev nD) (p : Fin 50000) (k : Fin 256) :
    W3 m ρ c (Proc.devRef .tc main_v17_0) (ix2 p k) = H1 m c p k := by
  refine (congrFun (Host.keep1_h (W2 m ρ c)) (ix2 p k)).trans ?_
  rw [Walk.w2_h m ρ c, Reg0.final5, Reg0.G5_apply, h0_eq]

theorem v3_scale (c : Dev nD) (k : Fin 256) :
    W3 m ρ c (Proc.devRef .tc main_v38) (ix2 (0 : Fin 1) k) = Cert.Gin.scaleK (H1 m c) (aG1 m c) k := by
  refine (Host.scale1_apply (W2 m ρ c) k).trans ?_
  rw [tot_sum, tot_sq, Walk.w2_g1 m ρ c]
  rfl

theorem v3_shift (c : Dev nD) (k : Fin 256) :
    W3 m ρ c (Proc.devRef .tc main_v41) (ix2 (0 : Fin 1) k) = Cert.Gin.shiftK (H1 m c) (aG1 m c) (aBe1 m c) k := by
  refine (Host.shift1_apply (W2 m ρ c) k).trans ?_
  rw [tot_sum, tot_sq, Walk.w2_g1 m ρ c, Walk.w2_be1 m ρ c]
  rfl

theorem v3_w2 (c : Dev nD) (k : Fin 256) (j : Fin 128) :
    W3 m ρ c (Proc.devRef .tc main_v16) (ix2 k j) = aW2 m c k j := by
  exact (congrFun (Host.keep1_w2 (W2 m ρ c)) (ix2 k j)).trans (Walk.w2_w2 m ρ c (ix2 k j))

theorem v3_b2 (c : Dev nD) (j : Fin 128) :
    W3 m ρ c (Proc.devRef .tc main_v14) (ix2 (0 : Fin 1) j) = aB2 m c j := by
  exact (congrFun (Host.keep1_b2 (W2 m ρ c)) (ix2 (0 : Fin 1) j)).trans (Walk.w2_b2 m ρ c j)

end Cert.KernelIdeal.KValue

end
-- ==== Proof.Pieces1.lean ====
/-
  What one run of the second kernel's body leaves in its three output blocks, as values.

  The body's run is found once per case of its one conditional (the first point of a core's run clears the two
  accumulators; every other point does not). Read back, the stores it leaves are: in the second dense layer's block,
  the layer's arithmetic of the point's input blocks; in the sum accumulator, what it held (the zero word after a
  clearing) plus the block's column sums; in the squares' accumulator, what it held plus the column sums of the
  block's squares.
-/
import proofs.«181591_j57105885168079_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces1

open Cert.KernelIdeal Cert.KernelIdeal.Gen

variable {F : FTy → Type} [FloatOps F]

theorem hz : (![0, 0] : Fin 2 → Nat) = fun _ => 0 := funext fun a => by fin_cases a <;> rfl

/-- A point that does not clear: the second dense layer's block. -/
theorem outB5 (c : Dev nD) (i : grid1.Coords) (arg2 : Memref sig .tc .vmem S1000x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S1000x128 .f32) (harg7 : arg7.IsWhole) (arg8 : Memref sig .tc .vmem S8x128 .f32) (harg8 : arg8.IsWhole) (arg9 : Memref sig .tc .vmem S8x128 .f32) (harg9 : arg9.IsWhole) (hc0 : ¬cond1_0 i) (x0 : Vec F S1000x256 .f32) (x1 : Vec F S1x256 .f32) (x2 : Vec F S1x256 .f32) (x3 : Vec F S256x128 .bf16) (x4 : Vec F S1x128 .f32) (xo6 xo7 : Vec F S8x128 .f32) :
    out1_B_5 c i arg2 harg2 arg3 harg3 arg4 harg4 arg5 harg5 arg6 harg6 arg7 harg7 arg8 harg8 arg9 harg9 hc0 x0 x1 x2 x3 x4 xo6 xo7 = k1_pay4 x0 x1 x2 x3 x4 := by
  unfold out1_B_5
  rw [View.read_writes_eq_canon _ _ _ (cover1_B_5 c i arg2 harg2 arg3 harg3 arg4 harg4 arg5 harg5 arg6 harg6 arg7 harg7 arg8 harg8 arg9 harg9 hc0 x0 x1 x2 x3 x4 xo6 xo7)]
  unfold kernelRun1_B
  dsimp only
  rw [View.canon_unit_zero hz]
  simp only [View.readAt_eq_ld, harg2.read_unread, harg3.read_unread, harg4.read_unread, harg5.read_unread, harg6.read_unread, harg8.read_unread, harg9.read_unread, View.ld_unit_zero (S := S1000x256) hz, View.ld_unit_zero (S := S1x256) hz, View.ld_unit_zero (S := S256x128) hz, View.ld_unit_zero (S := S1x128) hz, View.ld_unit_zero (S := S8x128) hz]

/-- A point that does not clear: the sum accumulator takes the block's column sums. -/
theorem outB6 (c : Dev nD) (i : grid1.Coords) (arg2 : Memref sig .tc .vmem S1000x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S1000x128 .f32) (harg7 : arg7.IsWhole) (arg8 : Memref sig .tc .vmem S8x128 .f32) (harg8 : arg8.IsWhole) (arg9 : Memref sig .tc .vmem S8x128 .f32) (harg9 : arg9.IsWhole) (hc0 : ¬cond1_0 i) (x0 : Vec F S1000x256 .f32) (x1 : Vec F S1x256 .f32) (x2 : Vec F S1x256 .f32) (x3 : Vec F S256x128 .bf16) (x4 : Vec F S1x128 .f32) (xo6 xo7 : Vec F S8x128 .f32) :
    out1_B_6 c i arg2 harg2 arg3 harg3 arg4 harg4 arg5 harg5 arg6 harg6 arg7 harg7 arg8 harg8 arg9 harg9 hc0 x0 x1 x2 x3 x4 xo6 xo7 = k1_pay6 x0 x1 x2 x3 x4 xo6 := by
  unfold out1_B_6
  rw [View.read_writes_eq_canon _ _ _ (cover1_B_6 c i arg2 harg2 arg3 harg3 arg4 harg4 arg5 harg5 arg6 harg6 arg7 harg7 arg8 harg8 arg9 harg9 hc0 x0 x1 x2 x3 x4 xo6 xo7)]
  unfold kernelRun1_B
  dsimp only
  sl_unfold_words
  rw [View.canon_unit_zero hz]
  simp only [View.readAt_eq_ld, harg2.read_unread, harg3.read_unread, harg4.read_unread, harg5.read_unread, harg6.read_unread, harg8.read_unread, harg9.read_unread, View.ld_unit_zero (S := S1000x256) hz, View.ld_unit_zero (S := S1x256) hz, View.ld_unit_zero (S := S256x128) hz, View.ld_unit_zero (S := S1x128) hz, View.ld_unit_zero (S := S8x128) hz]

/-- A point that does not clear: the squares' accumulator takes the column sums of the block's squares. -/
theorem outB7 (c : Dev nD) (i : grid1.Coords) (arg2 : Memref sig .tc .vmem S1000x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S1000x128 .f32) (harg7 : arg7.IsWhole) (arg8 : Memref sig .tc .vmem S8x128 .f32) (harg8 : arg8.IsWhole) (arg9 : Memref sig .tc .vmem S8x128 .f32) (harg9 : arg9.IsWhole) (hc0 : ¬cond1_0 i) (x0 : Vec F S1000x256 .f32) (x1 : Vec F S1x256 .f32) (x2 : Vec F S1x256 .f32) (x3 : Vec F S256x128 .bf16) (x4 : Vec F S1x128 .f32) (xo6 xo7 : Vec F S8x128 .f32) :
    out1_B_7 c i arg2 harg2 arg3 harg3 arg4 harg4 arg5 harg5 arg6 harg6 arg7 harg7 arg8 harg8 arg9 harg9 hc0 x0 x1 x2 x3 x4 xo6 xo7 = k1_pay1 (k1_pay5 x0 x1 x2 x3 x4) xo7 := by
  unfold out1_B_7
  rw [View.read_writes_eq_canon _ _ _ (cover1_B_7 c i arg2 harg2 arg3 harg3 arg4 harg4 arg5 harg5 arg6 harg6 arg7 harg7 arg8 harg8 arg9 harg9 hc0 x0 x1 x2 x3 x4 xo6 xo7)]
  unfold kernelRun1_B
  dsimp only
  sl_unfold_words
  rw [View.canon_unit_zero hz]
  simp only [View.readAt_eq_ld, harg2.read_unread, harg3.read_unread, harg4.read_unread, harg5.read_unread, harg6.read_unread, harg8.read_unread, harg9.read_unread, View.ld_unit_zero (S := S1000x256) hz, View.ld_unit_zero (S := S1x256) hz, View.ld_unit_zero (S := S256x128) hz, View.ld_unit_zero (S := S1x128) hz, View.ld_unit_zero (S := S8x128) hz]

/-- A clearing point: the second dense layer's block. -/
theorem outA5 (c : Dev nD) (i : grid1.Coords) (arg2 : Memref sig .tc .vmem S1000x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S1000x128 .f32) (harg7 : arg7.IsWhole) (arg8 : Memref sig .tc .vmem S8x128 .f32) (harg8 : arg8.IsWhole) (arg9 : Memref sig .tc .vmem S8x128 .f32) (harg9 : arg9.IsWhole) (hc0 : cond1_0 i) (x0 : Vec F S1000x256 .f32) (x1 : Vec F S1x256 .f32) (x2 : Vec F S1x256 .f32) (x3 : Vec F S256x128 .bf16) (x4 : Vec F S1x128 .f32) :
    out1_A_5 c i arg2 harg2 arg3 harg3 arg4 harg4 arg5 harg5 arg6 harg6 arg7 harg7 arg8 harg8 arg9 harg9 hc0 x0 x1 x2 x3 x4 = k1_pay4 x0 x1 x2 x3 x4 := by
  unfold out1_A_5
  rw [View.read_writes_eq_canon _ _ _ (cover1_A_5 c i arg2 harg2 arg3 harg3 arg4 harg4 arg5 harg5 arg6 harg6 arg7 harg7 arg8 harg8 arg9 harg9 hc0 x0 x1 x2 x3 x4)]
  unfold kernelRun1_A
  dsimp only
  rw [View.canon_unit_zero hz]
  simp only [View.readAt_eq_ld, harg2.read_unread, harg3.read_unread, harg4.read_unread, harg5.read_unread, harg6.read_unread, harg8.read_unread, harg9.read_unread, View.ld_unit_zero (S := S1000x256) hz, View.ld_unit_zero (S := S1x256) hz, View.ld_unit_zero (S := S256x128) hz, View.ld_unit_zero (S := S1x128) hz, View.ld_unit_zero (S := S8x128) hz]

/-- A clearing point: the sum accumulator is the zero block plus the block's column sums. -/
theorem outA6 (c : Dev nD) (i : grid1.Coords) (arg2 : Memref sig .tc .vmem S1000x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S1000x128 .f32) (harg7 : arg7.IsWhole) (arg8 : Memref sig .tc .vmem S8x128 .f32) (harg8 : arg8.IsWhole) (arg9 : Memref sig .tc .vmem S8x128 .f32) (harg9 : arg9.IsWhole) (hc0 : cond1_0 i) (x0 : Vec F S1000x256 .f32) (x1 : Vec F S1x256 .f32) (x2 : Vec F S1x256 .f32) (x3 : Vec F S256x128 .bf16) (x4 : Vec F S1x128 .f32) :
    out1_A_6 c i arg2 harg2 arg3 harg3 arg4 harg4 arg5 harg5 arg6 harg6 arg7 harg7 arg8 harg8 arg9 harg9 hc0 x0 x1 x2 x3 x4 = k1_pay6 x0 x1 x2 x3 x4 (k1_pay2 (F := F)) := by
  unfold out1_A_6
  rw [View.read_writes_eq_canon _ _ _ (cover1_A_6 c i arg2 harg2 arg3 harg3 arg4 harg4 arg5 harg5 arg6 harg6 arg7 harg7 arg8 harg8 arg9 harg9 hc0 x0 x1 x2 x3 x4)]
  unfold kernelRun1_A
  dsimp only
  sl_unfold_words
  rw [View.canon_cons_unit_zero (S := S8x128) hz, View.readCov_unit_zero (S := S8x128) _ hz]
  simp only [View.readAt_eq_ld, harg2.read_unread, harg3.read_unread, harg4.read_unread, harg5.read_unread, harg6.read_unread, harg8.read_unread, harg9.read_unread, View.ld_unit_zero (S := S1000x256) hz, View.ld_unit_zero (S := S1x256) hz, View.ld_unit_zero (S := S256x128) hz, View.ld_unit_zero (S := S1x128) hz, View.ld_unit_zero (S := S8x128) hz]

/-- A clearing point: the squares' accumulator is the zero block plus the column sums of the block's squares. -/
theorem outA7 (c : Dev nD) (i : grid1.Coords) (arg2 : Memref sig .tc .vmem S1000x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x128 .bf16) (harg5 : arg5.IsWhole) (arg6 : Memref sig .tc .vmem S1x128 .f32) (harg6 : arg6.IsWhole) (arg7 : Memref sig .tc .vmem S1000x128 .f32) (harg7 : arg7.IsWhole) (arg8 : Memref sig .tc .vmem S8x128 .f32) (harg8 : arg8.IsWhole) (arg9 : Memref sig .tc .vmem S8x128 .f32) (harg9 : arg9.IsWhole) (hc0 : cond1_0 i) (x0 : Vec F S1000x256 .f32) (x1 : Vec F S1x256 .f32) (x2 : Vec F S1x256 .f32) (x3 : Vec F S256x128 .bf16) (x4 : Vec F S1x128 .f32) :
    out1_A_7 c i arg2 harg2 arg3 harg3 arg4 harg4 arg5 harg5 arg6 harg6 arg7 harg7 arg8 harg8 arg9 harg9 hc0 x0 x1 x2 x3 x4 = k1_pay1 (k1_pay5 x0 x1 x2 x3 x4) (k1_pay3 (F := F)) := by
  unfold out1_A_7
  rw [View.read_writes_eq_canon _ _ _ (cover1_A_7 c i arg2 harg2 arg3 harg3 arg4 harg4 arg5 harg5 arg6 harg6 arg7 harg7 arg8 harg8 arg9 harg9 hc0 x0 x1 x2 x3 x4)]
  unfold kernelRun1_A
  dsimp only
  sl_unfold_words
  rw [View.canon_cons_unit_zero (S := S8x128) hz, View.readCov_unit_zero (S := S8x128) _ hz]
  simp only [View.readAt_eq_ld, harg2.read_unread, harg3.read_unread, harg4.read_unread, harg5.read_unread, harg6.read_unread, harg8.read_unread, harg9.read_unread, View.ld_unit_zero (S := S1000x256) hz, View.ld_unit_zero (S := S1x256) hz, View.ld_unit_zero (S := S256x128) hz, View.ld_unit_zero (S := S1x128) hz, View.ld_unit_zero (S := S8x128) hz]

end Cert.KernelIdeal.Pieces1

end
-- ==== Proof.Acc1.lean ====
/-
  The second kernel's three outputs after each grid point, as values.

  The grid is two runs of 25 consecutive points (one run per core). At every point the second dense layer's output
  block is the layer's arithmetic of that point's input blocks. The two accumulators are cleared at the first point of
  a run and, at every point, take that point's column sums (of the block, and of its squares): after a point they hold
  the fold of those additions over the run so far, started from the zero block.
-/
import proofs.«181591_j57105885168079_2_alg».proof.Proof.Pieces1

noncomputable section

open Idealize.ShloMosaic Idealize.ShloMosaic.TcCoe Idealize.SL.Sem

namespace Cert.KernelIdeal.Acc1

open Cert.KernelIdeal Cert.KernelIdeal.Gen Cert.KernelIdeal.Pieces1

variable {F : FTy → Type} [FloatOps F]
variable (V : (c : Dev nD) → (b : Ref sig .tc) → Buf (Elt F) ((c : Thread nD τ).loc b))

/-- The second dense layer's block at point `t`: the layer's arithmetic of the point's five input blocks. -/
def blk (c : Dev nD) (t : Fin cfg1.N) : Vec F S1000x128 .f32 :=
  k1_pay4 (iblk1 V c 0 t) (iblk1 V c 1 t) (iblk1 V c 2 t) (iblk1 V c 3 t) (iblk1 V c 4 t)

/-- The column sums of the squares of the block at point `n`, as a one-row matrix. -/
def sqs (c : Dev nD) (n : ℕ) (hn : n < cfg1.N) : Vec F S1x128 .f32 :=
  k1_pay5 (iblk1 V c 0 ⟨n, hn⟩) (iblk1 V c 1 ⟨n, hn⟩) (iblk1 V c 2 ⟨n, hn⟩) (iblk1 V c 3 ⟨n, hn⟩) (iblk1 V c 4 ⟨n, hn⟩)

/-- The sum accumulator's step at point `n`: add the block's column sums to what it held. -/
def step6 (c : Dev nD) (n : ℕ) (hn : n < cfg1.N) (acc : Vec F S8x128 .f32) : Vec F S8x128 .f32 :=
  k1_pay6 (iblk1 V c 0 ⟨n, hn⟩) (iblk1 V c 1 ⟨n, hn⟩) (iblk1 V c 2 ⟨n, hn⟩) (iblk1 V c 3 ⟨n, hn⟩) (iblk1 V c 4 ⟨n, hn⟩) acc

/-- The squares' accumulator's step at point `n`. -/
def step7 (c : Dev nD) (n : ℕ) (hn : n < cfg1.N) (acc : Vec F S8x128 .f32) : Vec F S8x128 .f32 :=
  k1_pay1 (sqs V c n hn) acc

/-- After every point the first output's staging buffer holds that point's block. -/
theorem out5_eq (c : Dev nD) (t : Fin cfg1.N) : (outsAt1 V c t.val t.isLt).1 = blk V c t := by
  unfold blk
  by_cases h0 : t.val % 25 = 0
  · have e := congrArg Prod.fst (outsAt1_A V c t h0)
    dsimp only at e
    exact e.trans (outA5 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t))
  · have e := congrArg Prod.fst (outsAt1_B V c t h0)
    dsimp only at e
    exact e.trans (outB5 (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun hc => h0 ((hcond1_0 t).mp hc)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2)

theorem out6_reset (c : Dev nD) (n : ℕ) (h : n < cfg1.N) (h0 : n % 25 = 0) :
    (outsAt1 V c n h).2.1 = step6 V c n h (k1_pay2 (F := F)) := by
  unfold step6
  exact (congrArg (fun x => x.2.1) (outsAt1_A V c (⟨n, h⟩ : Fin cfg1.N) h0)).trans (outA6 (F := F) c (grid1.coords (⟨n, h⟩ : Fin cfg1.N)) (ms1_0 (⟨n, h⟩ : Fin cfg1.N)) (hs1_0 (⟨n, h⟩ : Fin cfg1.N)) (ms1_1 (⟨n, h⟩ : Fin cfg1.N)) (hs1_1 (⟨n, h⟩ : Fin cfg1.N)) (ms1_2 (⟨n, h⟩ : Fin cfg1.N)) (hs1_2 (⟨n, h⟩ : Fin cfg1.N)) (ms1_3 (⟨n, h⟩ : Fin cfg1.N)) (hs1_3 (⟨n, h⟩ : Fin cfg1.N)) (ms1_4 (⟨n, h⟩ : Fin cfg1.N)) (hs1_4 (⟨n, h⟩ : Fin cfg1.N)) (ms1_5 (⟨n, h⟩ : Fin cfg1.N)) (hs1_5 (⟨n, h⟩ : Fin cfg1.N)) (ms1_6 (⟨n, h⟩ : Fin cfg1.N)) (hs1_6 (⟨n, h⟩ : Fin cfg1.N)) (ms1_7 (⟨n, h⟩ : Fin cfg1.N)) (hs1_7 (⟨n, h⟩ : Fin cfg1.N)) ((hcond1_0 (⟨n, h⟩ : Fin cfg1.N)).mpr h0) (iblk1 V c 0 (⟨n, h⟩ : Fin cfg1.N)) (iblk1 V c 1 (⟨n, h⟩ : Fin cfg1.N)) (iblk1 V c 2 (⟨n, h⟩ : Fin cfg1.N)) (iblk1 V c 3 (⟨n, h⟩ : Fin cfg1.N)) (iblk1 V c 4 (⟨n, h⟩ : Fin cfg1.N)))

theorem out6_step (c : Dev nD) (n : ℕ) (h : n + 1 < cfg1.N) (h0 : ¬(n + 1) % 25 = 0) :
    (outsAt1 V c (n + 1) h).2.1 = step6 V c (n + 1) h (outsAt1 V c n (Nat.lt_of_succ_lt h)).2.1 := by
  unfold step6
  exact (congrArg (fun x => x.2.1) (outsAt1_B V c (⟨n + 1, h⟩ : Fin cfg1.N) h0)).trans (outB6 (F := F) c (grid1.coords (⟨n + 1, h⟩ : Fin cfg1.N)) (ms1_0 (⟨n + 1, h⟩ : Fin cfg1.N)) (hs1_0 (⟨n + 1, h⟩ : Fin cfg1.N)) (ms1_1 (⟨n + 1, h⟩ : Fin cfg1.N)) (hs1_1 (⟨n + 1, h⟩ : Fin cfg1.N)) (ms1_2 (⟨n + 1, h⟩ : Fin cfg1.N)) (hs1_2 (⟨n + 1, h⟩ : Fin cfg1.N)) (ms1_3 (⟨n + 1, h⟩ : Fin cfg1.N)) (hs1_3 (⟨n + 1, h⟩ : Fin cfg1.N)) (ms1_4 (⟨n + 1, h⟩ : Fin cfg1.N)) (hs1_4 (⟨n + 1, h⟩ : Fin cfg1.N)) (ms1_5 (⟨n + 1, h⟩ : Fin cfg1.N)) (hs1_5 (⟨n + 1, h⟩ : Fin cfg1.N)) (ms1_6 (⟨n + 1, h⟩ : Fin cfg1.N)) (hs1_6 (⟨n + 1, h⟩ : Fin cfg1.N)) (ms1_7 (⟨n + 1, h⟩ : Fin cfg1.N)) (hs1_7 (⟨n + 1, h⟩ : Fin cfg1.N)) (fun hc => h0 ((hcond1_0 (⟨n + 1, h⟩ : Fin cfg1.N)).mp hc)) (iblk1 V c 0 (⟨n + 1, h⟩ : Fin cfg1.N)) (iblk1 V c 1 (⟨n + 1, h⟩ : Fin cfg1.N)) (iblk1 V c 2 (⟨n + 1, h⟩ : Fin cfg1.N)) (iblk1 V c 3 (⟨n + 1, h⟩ : Fin cfg1.N)) (iblk1 V c 4 (⟨n + 1, h⟩ : Fin cfg1.N)) (outsAt1 V c ((⟨n + 1, h⟩ : Fin cfg1.N).val - 1) (Nat.lt_of_le_of_lt (Nat.sub_le _ _) (⟨n + 1, h⟩ : Fin cfg1.N).isLt)).2.1 (outsAt1 V c ((⟨n + 1, h⟩ : Fin cfg1.N).val - 1) (Nat.lt_of_le_of_lt (Nat.sub_le _ _) (⟨n + 1, h⟩ : Fin cfg1.N).isLt)).2.2)

theorem out7_reset (c : Dev nD) (n : ℕ) (h : n < cfg1.N) (h0 : n % 25 = 0) :
    (outsAt1 V c n h).2.2 = step7 V c n h (k1_pay3 (F := F)) := by
  unfold step7 sqs
  exact (congrArg (fun x => x.2.2) (outsAt1_A V c (⟨n, h⟩ : Fin cfg1.N) h0)).trans (outA7 (F := F) c (grid1.coords (⟨n, h⟩ : Fin cfg1.N)) (ms1_0 (⟨n, h⟩ : Fin cfg1.N)) (hs1_0 (⟨n, h⟩ : Fin cfg1.N)) (ms1_1 (⟨n, h⟩ : Fin cfg1.N)) (hs1_1 (⟨n, h⟩ : Fin cfg1.N)) (ms1_2 (⟨n, h⟩ : Fin cfg1.N)) (hs1_2 (⟨n, h⟩ : Fin cfg1.N)) (ms1_3 (⟨n, h⟩ : Fin cfg1.N)) (hs1_3 (⟨n, h⟩ : Fin cfg1.N)) (ms1_4 (⟨n, h⟩ : Fin cfg1.N)) (hs1_4 (⟨n, h⟩ : Fin cfg1.N)) (ms1_5 (⟨n, h⟩ : Fin cfg1.N)) (hs1_5 (⟨n, h⟩ : Fin cfg1.N)) (ms1_6 (⟨n, h⟩ : Fin cfg1.N)) (hs1_6 (⟨n, h⟩ : Fin cfg1.N)) (ms1_7 (⟨n, h⟩ : Fin cfg1.N)) (hs1_7 (⟨n, h⟩ : Fin cfg1.N)) ((hcond1_0 (⟨n, h⟩ : Fin cfg1.N)).mpr h0) (iblk1 V c 0 (⟨n, h⟩ : Fin cfg1.N)) (iblk1 V c 1 (⟨n, h⟩ : Fin cfg1.N)) (iblk1 V c 2 (⟨n, h⟩ : Fin cfg1.N)) (iblk1 V c 3 (⟨n, h⟩ : Fin cfg1.N)) (iblk1 V c 4 (⟨n, h⟩ : Fin cfg1.N)))

theorem out7_step (c : Dev nD) (n : ℕ) (h : n + 1 < cfg1.N) (h0 : ¬(n + 1) % 25 = 0) :
    (outsAt1 V c (n + 1) h).2.2 = step7 V c (n + 1) h (outsAt1 V c n (Nat.lt_of_succ_lt h)).2.2 := by
  unfold step7 sqs
  exact (congrArg (fun x => x.2.2) (outsAt1_B V c (⟨n + 1, h⟩ : Fin cfg1.N) h0)).trans (outB7 (F := F) c (grid1.coords (⟨n + 1, h⟩ : Fin cfg1.N)) (ms1_0 (⟨n + 1, h⟩ : Fin cfg1.N)) (hs1_0 (⟨n + 1, h⟩ : Fin cfg1.N)) (ms1_1 (⟨n + 1, h⟩ : Fin cfg1.N)) (hs1_1 (⟨n + 1, h⟩ : Fin cfg1.N)) (ms1_2 (⟨n + 1, h⟩ : Fin cfg1.N)) (hs1_2 (⟨n + 1, h⟩ : Fin cfg1.N)) (ms1_3 (⟨n + 1, h⟩ : Fin cfg1.N)) (hs1_3 (⟨n + 1, h⟩ : Fin cfg1.N)) (ms1_4 (⟨n + 1, h⟩ : Fin cfg1.N)) (hs1_4 (⟨n + 1, h⟩ : Fin cfg1.N)) (ms1_5 (⟨n + 1, h⟩ : Fin cfg1.N)) (hs1_5 (⟨n + 1, h⟩ : Fin cfg1.N)) (ms1_6 (⟨n + 1, h⟩ : Fin cfg1.N)) (hs1_6 (⟨n + 1, h⟩ : Fin cfg1.N)) (ms1_7 (⟨n + 1, h⟩ : Fin cfg1.N)) (hs1_7 (⟨n + 1, h⟩ : Fin cfg1.N)) (fun hc => h0 ((hcond1_0 (⟨n + 1, h⟩ : Fin cfg1.N)).mp hc)) (iblk1 V c 0 (⟨n + 1, h⟩ : Fin cfg1.N)) (iblk1 V c 1 (⟨n + 1, h⟩ : Fin cfg1.N)) (iblk1 V c 2 (⟨n + 1, h⟩ : Fin cfg1.N)) (iblk1 V c 3 (⟨n + 1, h⟩ : Fin cfg1.N)) (iblk1 V c 4 (⟨n + 1, h⟩ : Fin cfg1.N)) (outsAt1 V c ((⟨n + 1, h⟩ : Fin cfg1.N).val - 1) (Nat.lt_of_le_of_lt (Nat.sub_le _ _) (⟨n + 1, h⟩ : Fin cfg1.N).isLt)).2.1 (outsAt1 V c ((⟨n + 1, h⟩ : Fin cfg1.N).val - 1) (Nat.lt_of_le_of_lt (Nat.sub_le _ _) (⟨n + 1, h⟩ : Fin cfg1.N).isLt)).2.2)

/-- The sum accumulator after point `t` is the fold of the steps over its run so far, from the cleared block. -/
theorem acc6 (c : Dev nD) (t : ℕ) (ht : t < cfg1.N) (h' : 25 * (t / 25) + t % 25 < cfg1.N) :
    (outsAt1 V c t ht).2.1
      = Pipeline.accAt (fun n h => step6 V c n h (k1_pay2 (F := F))) (fun n h acc => step6 V c n h acc) (25 * (t / 25)) (t % 25) h' :=
  Pipeline.eq_accAt_of_mod (fun n h => (outsAt1 V c n h).2.1) 25 _ _
    (fun n h h0 => out6_reset V c n h h0) (fun n h h0 => out6_step V c n h h0) (by decide) t ht h'

/-- The squares' accumulator after point `t`, likewise. -/
theorem acc7 (c : Dev nD) (t : ℕ) (ht : t < cfg1.N) (h' : 25 * (t / 25) + t % 25 < cfg1.N) :
    (outsAt1 V c t ht).2.2
      = Pipeline.accAt (fun n h => step7 V c n h (k1_pay3 (F := F))) (fun n h acc => step7 V c n h acc) (25 * (t / 25)) (t % 25) h' :=
  Pipeline.eq_accAt_of_mod (fun n h => (outsAt1 V c n h).2.2) 25 _ _
    (fun n h h0 => out7_reset V c n h h0) (fun n h h0 => out7_step V c n h h0) (by decide) t ht h'

end Cert.KernelIdeal.Acc1

end
-- ==== Proof.Pay1.lean ====
/-
  The second kernel's arithmetic at an entry.

  On a block of 1000 rows the body normalises and rectifies the first dense layer's block (each entry times its
  column's multiplier plus its column's offset, then the maximum with zero), multiplies the result by the 256 x 128
  weights and adds the bias row: the second dense layer's block. It then adds the block's column sums, and the column
  sums of its squares, into two 8-row accumulators (every row of an accumulator holds the same running sum), which the
  first point of a core's run clears.
-/
import proofs.«181591_j57105885168079_2_alg».proof.Proof.Gen.KernelIdeal.Skeleton
import proofs.«181591_j57105885168079_2_alg».proof.Proof.Spec
import proofs.«181591_j57105885168079_2_alg».proof.Proof.LibColumnSum
import proofs.«181591_j57105885168079_2_alg».proof.Proof.LibBlock

noncomputable section

open scoped BigOperators

namespace Cert.KernelIdeal.Pay1

open Cert.KernelIdeal Cert.KernelIdeal.Gen Idealize.ShloMosaic Idealize.ShloMosaic.ValueIdx Cert.LibColumnSum

/-- The second dense layer's block at `(p, j)`: row `p` of the normalised and rectified input block against column `j`
    of the weights, plus the bias. -/
theorem pay4_apply (v3 : Vec Ideal S1000x256 .f32) (v5 v9 : Vec Ideal S1x256 .f32) (v16 : Vec Ideal S256x128 .bf16)
    (v19 : Vec Ideal S1x128 .f32) (p : Fin 1000) (j : Fin 128) :
    k1_pay4 v3 v5 v9 v16 v19 (ix2 p j)
      = Cert.Gin.lin (fun p k => max (v3 (ix2 p k) * v5 (ix2 (0 : Fin 1) k) + v9 (ix2 (0 : Fin 1) k)) Cert.Gin.zer)
          (fun k j => v16 (ix2 k j)) (fun j => v19 (ix2 (0 : Fin 1) j)) p j := by
  unfold k1_pay4
  rw [addf_apply, shapeCast_self, shapeCast_self, shapeCast_self, shapeCast_self, shapeCast_self, broadcastTo_1b_ab_apply]
  refine congrArg (· + v19 (ix2 (0 : Fin 1) j)) ?_
  refine (Cert.LibBlock.matmul_zero_ix2 (φ₁ := .bf16) (φ₂ := .bf16) dot_S1000x256_S256x128_S1000x128_1_0_0_1_n_n rfl rfl rfl rfl rfl rfl none _ v16 p j).trans ?_
  refine Finset.sum_congr rfl fun k _ => ?_
  rw [truncf_apply, maximumf_apply, addf_apply, mulf_apply, broadcastTo_1b_ab_apply, broadcastTo_1b_ab_apply]
  rfl

/-- The column sums of the block's squares, as a one-row matrix. -/
theorem pay5_apply (v3 : Vec Ideal S1000x256 .f32) (v5 v9 : Vec Ideal S1x256 .f32) (v16 : Vec Ideal S256x128 .bf16)
    (v19 : Vec Ideal S1x128 .f32) (u : Fin 1) (j : Fin 128) :
    k1_pay5 v3 v5 v9 v16 v19 (ix2 u j)
      = ∑ r : Fin 1000, k1_pay4 v3 v5 v9 v16 v19 (ix2 r j) * k1_pay4 v3 v5 v9 v16 v19 (ix2 r j) := by
  unfold k1_pay5
  rw [shapeCast_a_1a_apply]
  exact colSum_apply _ _ _ j

/-- The sum accumulator after the point: what it held plus the block's column sum. -/
theorem pay6_apply (v3 : Vec Ideal S1000x256 .f32) (v5 v9 : Vec Ideal S1x256 .f32) (v16 : Vec Ideal S256x128 .bf16)
    (v19 : Vec Ideal S1x128 .f32) (v29 : Vec Ideal S8x128 .f32) (r : Fin 8) (j : Fin 128) :
    k1_pay6 v3 v5 v9 v16 v19 v29 (ix2 r j) = v29 (ix2 r j) + ∑ r' : Fin 1000, k1_pay4 v3 v5 v9 v16 v19 (ix2 r' j) := by
  unfold k1_pay6
  rw [addf_apply, shapeCast_self, shapeCast_self, broadcastTo_1b_ab_apply, shapeCast_a_1a_apply]
  exact congrArg (v29 (ix2 r j) + ·) (colSum_apply _ _ _ j)

/-- The squares' accumulator after the point: what it held plus the one-row matrix of the block's squared column sums. -/
theorem pay1_apply (v28 : FVec Ideal S1x128 .f32) (v35 : Vec Ideal S8x128 .f32) (r : Fin 8) (j : Fin 128) :
    k1_pay1 v28 v35 (ix2 r j) = v35 (ix2 r j) + v28 (ix2 (0 : Fin 1) j) := by
  unfold k1_pay1
  rw [addf_apply, shapeCast_self, shapeCast_self, broadcastTo_1b_ab_apply]

/-- The cleared accumulators hold the zero word. -/
theorem pay2_apply (i : S8x128.Idx) : k1_pay2 (F := Ideal) i = Cert.Gin.zer := rfl
theorem pay3_apply (i : S8x128.Idx) : k1_pay3 (F := Ideal) i = Cert.Gin.zer := rfl

end Cert.KernelIdeal.Pay1

end
-- ==== Proof.Reg1a.lean ====
/-
  The second region's arrays at coordinates: the blocks it reads, and the second dense layer's array it writes.

  Grid point t (of 50) reads rows 1000 t … 1000 t + 999 of the first dense layer's array, and the whole of the
  multiplier row, the offset row, the weights and the bias row; it writes rows 1000 t … 1000 t + 999 of the second
  dense layer's array. So after the region that array holds, at (P, j), row P of the normalised and rectified first
  layer against column j of the weights, plus the bias.
-/
import proofs.«181591_j57105885168079_2_alg».proof.Proof.Acc1
import proofs.«181591_j57105885168079_2_alg».proof.Proof.Pay1
import proofs.«181591_j57105885168079_2_alg».proof.Proof.Spec
import Idealize.ShloMosaic.Lib.ValueIdx
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Reg1

open Cert.KernelIdeal Cert.KernelIdeal.Gen

variable (V : (c : Dev nD) → (b : Ref sig .tc) → Buf (Elt Ideal) ((c : Thread nD τ).loc b))

/-- The five arrays the region reads, as it finds them: the first dense layer's array, the multiplier row, the offset
    row, the weights, the bias row. -/
abbrev VH (c : Dev nD) : S50000x256.Idx → EReal := V c main_v17_0
abbrev VS (c : Dev nD) : S1x256.Idx → EReal := V c main_v38
abbrev VT (c : Dev nD) : S1x256.Idx → EReal := V c main_v41
abbrev VW (c : Dev nD) : S256x128.Idx → EReal := V c main_v16
abbrev VB (c : Dev nD) : S1x128.Idx → EReal := V c main_v14

/-- The second dense layer over the whole arrays, by coordinates: its input is the first layer's entry times its
    column's multiplier plus its column's offset, rectified. -/
def H (c : Dev nD) : Fin 50000 → Fin 128 → EReal :=
  Cert.Gin.lin (fun p k => max (VH V c (ix2 p k) * VS V c (ix2 (0 : Fin 1) k) + VT V c (ix2 (0 : Fin 1) k)) Cert.Gin.zer)
    (fun k j => VW V c (ix2 k j)) (fun j => VB V c (ix2 (0 : Fin 1) j))

/-- The printed index maps over the grid: the row windows move one block per point, the whole-array windows stay,
    the accumulators' block is the core's. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val / 25 ∧ win1_6.index t (1 : Fin 2) = 0
    ∧ win1_7.index t (0 : Fin 2) = t.val / 25 ∧ win1_7.index t (1 : Fin 2) = 0 :=
  (by decide +kernel : ∀ t : Fin grid1.N, _)

/-- The first dense layer's block at point `t` is rows 1000 t … of that array. -/
theorem rd0 (c : Dev nD) (t : Fin cfg1.N) (p : Fin 1000) (k : Fin 256) (P : Fin 50000) (hP : P.val = t.val * 1000 + p.val) :
    (iblk1 V c 0 t : Vec Ideal S1000x256 .f32) (ix2 p k) = VH V c (ix2 P k) := by
  unfold iblk1
  rw [View.read_apply]
  show VH V c _ = VH V c _
  refine congrArg (VH V c) ?_
  obtain ⟨e0, e1, -⟩ := idx_facts t
  funext a; apply Fin.ext
  match a with
  | ⟨0, _⟩ => show win1_0.index t (0 : Fin 2) * 1000 + 1 * p.val = P.val; omega
  | ⟨1, _⟩ => show win1_0.index t (1 : Fin 2) * 256 + 1 * k.val = k.val; omega

/-- The multiplier row's block is the multiplier row. -/
theorem rd1 (c : Dev nD) (t : Fin cfg1.N) (k : Fin 256) :
    (iblk1 V c 1 t : Vec Ideal S1x256 .f32) (ix2 (0 : Fin 1) k) = VS V c (ix2 (0 : Fin 1) k) := by
  unfold iblk1
  rw [View.read_apply]
  show VS V c _ = VS V c _
  refine congrArg (VS V c) ?_
  obtain ⟨-, -, e2, e3, -⟩ := idx_facts t
  funext a; apply Fin.ext
  match a with
  | ⟨0, _⟩ => show win1_1.index t (0 : Fin 2) * 1 + 1 * 0 = 0; omega
  | ⟨1, _⟩ => show win1_1.index t (1 : Fin 2) * 256 + 1 * k.val = k.val; omega

/-- The offset row's block is the offset row. -/
theorem rd2 (c : Dev nD) (t : Fin cfg1.N) (k : Fin 256) :
    (iblk1 V c 2 t : Vec Ideal S1x256 .f32) (ix2 (0 : Fin 1) k) = VT V c (ix2 (0 : Fin 1) k) := by
  unfold iblk1
  rw [View.read_apply]
  show VT V c _ = VT V c _
  refine congrArg (VT V c) ?_
  obtain ⟨-, -, -, -, e4, e5, -⟩ := idx_facts t
  funext a; apply Fin.ext
  match a with
  | ⟨0, _⟩ => show win1_2.index t (0 : Fin 2) * 1 + 1 * 0 = 0; omega
  | ⟨1, _⟩ => show win1_2.index t (1 : Fin 2) * 256 + 1 * k.val = k.val; omega

/-- The weights' block is the weights. -/
theorem rd3 (c : Dev nD) (t : Fin cfg1.N) (k : Fin 256) (j : Fin 128) :
    (iblk1 V c 3 t : Vec Ideal S256x128 .bf16) (ix2 k j) = VW V c (ix2 k j) := by
  unfold iblk1
  rw [View.read_apply]
  show VW V c _ = VW V c _
  refine congrArg (VW V c) ?_
  obtain ⟨-, -, -, -, -, -, e6, e7, -⟩ := idx_facts t
  funext a; apply Fin.ext
  match a with
  | ⟨0, _⟩ => show win1_3.index t (0 : Fin 2) * 256 + 1 * k.val = k.val; omega
  | ⟨1, _⟩ => show win1_3.index t (1 : Fin 2) * 128 + 1 * j.val = j.val; omega

/-- The bias row's block is the bias row. -/
theorem rd4 (c : Dev nD) (t : Fin cfg1.N) (j : Fin 128) :
    (iblk1 V c 4 t : Vec Ideal S1x128 .f32) (ix2 (0 : Fin 1) j) = VB V c (ix2 (0 : Fin 1) j) := by
  unfold iblk1
  rw [View.read_apply]
  show VB V c _ = VB V c _
  refine congrArg (VB V c) ?_
  obtain ⟨-, -, -, -, -, -, -, -, e8, e9, -⟩ := idx_facts t
  funext a; apply Fin.ext
  match a with
  | ⟨0, _⟩ => show win1_4.index t (0 : Fin 2) * 1 + 1 * 0 = 0; omega
  | ⟨1, _⟩ => show win1_4.index t (1 : Fin 2) * 128 + 1 * j.val = j.val; omega

/-- The second dense layer's block at point `t`, entry `(p, j)`, is that layer at row `1000 t + p`. -/
theorem blk_apply (c : Dev nD) (t : Fin cfg1.N) (p : Fin 1000) (j : Fin 128) (P : Fin 50000) (hP : P.val = t.val * 1000 + p.val) :
    Acc1.blk V c t (ix2 p j) = H V c P j := by
  unfold Acc1.blk
  refine (Pay1.pay4_apply (iblk1 V c 0 t) (iblk1 V c 1 t) (iblk1 V c 2 t) (iblk1 V c 3 t) (iblk1 V c 4 t) p j).trans ?_
  unfold H Cert.Gin.lin
  refine congrArg₂ (· + ·) (Finset.sum_congr rfl fun k _ => ?_) (rd4 V c t j)
  dsimp only
  rw [rd0 V c t p k P hP, rd1 V c t k, rd2 V c t k, rd3 V c t k j]

/-- The second dense layer's array, as one function of the index. -/
def G5 (c : Dev nD) : S50000x128.Idx → EReal :=
  fun i => H V c ⟨(i 0).val, idx2_lt0 i⟩ ⟨(i 1).val, idx2_lt1 i⟩

theorem G5_apply (c : Dev nD) (P : Fin 50000) (j : Fin 128) : G5 V c (ix2 P j) = H V c P j := rfl

/-- What point `t` writes back to the second dense layer's array is block `t` of `G5`. -/
theorem flushed5_eq (c : Dev nD) (t : Fin cfg1.N) :
    (dat1 V c).flushed 5 t = ((cfg1.win 5).blk t).view.read (Elt Ideal) (G5 V c) := by
  show (cfg1.win 5).cut (grid1.coords t) ((dat1 V c).after 5 t) = _
  rw [after1_5, Acc1.out5_eq]
  obtain ⟨-, -, -, -, -, -, -, -, -, -, e10, e11, -⟩ := idx_facts t
  funext y
  obtain ⟨p, j, rfl⟩ : ∃ (p : Fin 1000) (j : Fin 128), y = ix2 p j := ⟨y 0, y 1, eq_ix2 y⟩
  rw [View.read_apply]
  show Acc1.blk V c t (ix2 p j) = G5 V c (((cfg1.win 5).blk t).view.emb (ix2 p j))
  unfold G5
  have hN : cfg1.N = 50 := N_1
  have hlt : t.val * 1000 + p.val < 50000 := by have := t.isLt; have := p.isLt; omega
  refine (blk_apply V c t p j ⟨t.val * 1000 + p.val, hlt⟩ rfl).trans ?_
  refine congrArg₂ (H V c) (Fin.ext ?_) (Fin.ext ?_)
  · show t.val * 1000 + p.val = win1_5.index t (0 : Fin 2) * 1000 + 1 * p.val; omega
  · show j.val = win1_5.index t (1 : Fin 2) * 128 + 1 * j.val; omega

theorem mem_blk5 (t : Fin cfg1.N) (i : S50000x128.Idx) :
    i ∈ ((cfg1.win 5).blk t).view.set ↔ ∀ a : Fin 2, win1_5.index t a * S1000x128.size a ≤ (i a).val ∧ (i a).val < win1_5.index t a * S1000x128.size a + S1000x128.size a := by
  show i ∈ ((View.whole main_v42_0).slice (win1_5.rect t)).set ↔ _
  rw [View.set_slice_whole, Rect.mem_set_unit]
  exact Iff.rfl

theorem cover5 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 50 := N_1
  obtain ⟨t, ht⟩ : ∃ t : Fin cfg1.N, t.val = (i 0).val / 1000 := ⟨⟨(i 0).val / 1000, by rw [hN]; omega⟩, rfl⟩
  refine ⟨t, flush1_5 t, ?_⟩
  rw [mem_blk5]
  obtain ⟨-, -, -, -, -, -, -, -, -, -, e10, e11, -⟩ := idx_facts t
  intro a
  match a with
  | ⟨0, _⟩ => show win1_5.index t (0 : Fin 2) * 1000 ≤ (i 0).val ∧ (i 0).val < win1_5.index t (0 : Fin 2) * 1000 + 1000; omega
  | ⟨1, _⟩ => show win1_5.index t (1 : Fin 2) * 128 ≤ (i 1).val ∧ (i 1).val < win1_5.index t (1 : Fin 2) * 128 + 128; omega

/-- The second dense layer's array after the region. -/
theorem final5 (c : Dev nD) : (dat1 V c).arrAt 5 cfg1.N = G5 V c :=
  (dat1 V c).arrAt_eq_of_cover 5 _ (fun t _ => flushed5_eq V c t) (cover5)

end Cert.KernelIdeal.Reg1

end
-- ==== Proof.Reg1b.lean ====
/-
  The second region's two accumulator arrays at coordinates.

  A core's run is 25 consecutive grid points; its accumulator block (8 rows, every row the same) is cleared at the
  run's first point, takes at each point the column sums of that point's block of the second dense layer (of its
  squares, for the second accumulator), and is written back after the run's last point into the core's half of a
  16-row array. So after the region row r of that array holds, at column j, the zero word plus the column sums of the
  25 blocks of core r / 8.
-/
import proofs.«181591_j57105885168079_2_alg».proof.Proof.Reg1a
import proofs.«181591_j57105885168079_2_alg».proof.Proof.Stats

noncomputable section

open scoped BigOperators
open Idealize.ShloMosaic Idealize.ShloMosaic.TcCoe Idealize.SL.Sem Idealize.ShloMosaic.ValueIdx
open Idealize.ShloMosaic.Pipeline (Dat)

namespace Cert.KernelIdeal.Reg1

open Cert.KernelIdeal Cert.KernelIdeal.Gen

variable (V : (c : Dev nD) → (b : Ref sig .tc) → Buf (Elt Ideal) ((c : Thread nD τ).loc b))

/-- The squares of the second dense layer's entries. -/
def Hsq (c : Dev nD) : Fin 50000 → Fin 128 → EReal := fun p j => H V c p j * H V c p j

/-- The column an index of an 8-row (or 16-row) accumulator array names. -/
abbrev colOf {a : ℕ} (i : (⟨2, ![a, 128]⟩ : Shape).Idx) : Fin 128 := ⟨(i 1).val, idx2_lt1 i⟩

/-- A point's step of the sum accumulator, at an entry: what it held plus the column sum of the point's block. -/
theorem step6_apply (c : Dev nD) (n : ℕ) (hn : n < cfg1.N) (acc : Vec Ideal S8x128 .f32) (i : S8x128.Idx) :
    Acc1.step6 V c n hn acc i = acc i + Cert.Gin.colBlock (H V c) n (colOf i) := by
  obtain ⟨r, j, rfl⟩ : ∃ (r : Fin 8) (j : Fin 128), i = ix2 r j := ⟨i 0, i 1, eq_ix2 i⟩
  have hN : cfg1.N = 50 := N_1
  unfold Acc1.step6
  refine (Pay1.pay6_apply (iblk1 V c 0 ⟨n, hn⟩) (iblk1 V c 1 ⟨n, hn⟩) (iblk1 V c 2 ⟨n, hn⟩) (iblk1 V c 3 ⟨n, hn⟩) (iblk1 V c 4 ⟨n, hn⟩) acc r j).trans ?_
  refine congrArg (acc (ix2 r j) + ·) ?_
  unfold Cert.Gin.colBlock
  rw [dif_pos (by omega)]
  exact Finset.sum_congr rfl fun r' _ => blk_apply V c ⟨n, hn⟩ r' j _ rfl

/-- A point's step of the squares' accumulator, at an entry. -/
theorem step7_apply (c : Dev nD) (n : ℕ) (hn : n < cfg1.N) (acc : Vec Ideal S8x128 .f32) (i : S8x128.Idx) :
    Acc1.step7 V c n hn acc i = acc i + Cert.Gin.colBlock (Hsq V c) n (colOf i) := by
  obtain ⟨r, j, rfl⟩ : ∃ (r : Fin 8) (j : Fin 128), i = ix2 r j := ⟨i 0, i 1, eq_ix2 i⟩
  have hN : cfg1.N = 50 := N_1
  unfold Acc1.step7 Acc1.sqs
  refine (Pay1.pay1_apply (k1_pay5 (iblk1 V c 0 ⟨n, hn⟩) (iblk1 V c 1 ⟨n, hn⟩) (iblk1 V c 2 ⟨n, hn⟩) (iblk1 V c 3 ⟨n, hn⟩) (iblk1 V c 4 ⟨n, hn⟩)) acc r j).trans ?_
  refine congrArg (acc (ix2 r j) + ·) ?_
  refine (Pay1.pay5_apply (iblk1 V c 0 ⟨n, hn⟩) (iblk1 V c 1 ⟨n, hn⟩) (iblk1 V c 2 ⟨n, hn⟩) (iblk1 V c 3 ⟨n, hn⟩) (iblk1 V c 4 ⟨n, hn⟩) 0 j).trans ?_
  unfold Cert.Gin.colBlock
  rw [dif_pos (by omega)]
  exact Finset.sum_congr rfl fun r' _ =>
    congrArg₂ (· * ·) (blk_apply V c ⟨n, hn⟩ r' j _ rfl) (blk_apply V c ⟨n, hn⟩ r' j _ rfl)

/-- After the last point of a core's run the sum accumulator holds the core's partial column sums. -/
theorem acc6_apply (c : Dev nD) (t : Fin cfg1.N) (ht : t.val % 25 = 24) (i : S8x128.Idx) :
    (outsAt1 V c t.val t.isLt).2.1 i = Cert.Gin.corePart (H V c) (t.val / 25) (colOf i) := by
  have hN : cfg1.N = 50 := N_1
  have h' : 25 * (t.val / 25) + t.val % 25 < cfg1.N := by have := t.isLt; omega
  rw [Acc1.acc6 V c t.val t.isLt h']
  refine (Pipeline.accAt_add_apply (N := cfg1.N) (ι := S8x128.Idx) (β := EReal)
    (fun n h => Acc1.step6 V c n h (k1_pay2 (F := Ideal))) (fun n h acc => Acc1.step6 V c n h acc)
    (fun _ => Cert.Gin.zer) (fun n i => Cert.Gin.colBlock (H V c) n (colOf i)) (25 * (t.val / 25)) 24
    (fun h i => step6_apply V c _ h (k1_pay2 (F := Ideal)) i) (fun n h acc i _ _ => step6_apply V c n h acc i)
    (t.val % 25) (by omega) h' i).trans ?_
  unfold Cert.Gin.corePart
  rw [ht]

/-- After the last point of a core's run the squares' accumulator holds the core's partial column sums of squares. -/
theorem acc7_apply (c : Dev nD) (t : Fin cfg1.N) (ht : t.val % 25 = 24) (i : S8x128.Idx) :
    (outsAt1 V c t.val t.isLt).2.2 i = Cert.Gin.corePart (Hsq V c) (t.val / 25) (colOf i) := by
  have hN : cfg1.N = 50 := N_1
  have h' : 25 * (t.val / 25) + t.val % 25 < cfg1.N := by have := t.isLt; omega
  rw [Acc1.acc7 V c t.val t.isLt h']
  refine (Pipeline.accAt_add_apply (N := cfg1.N) (ι := S8x128.Idx) (β := EReal)
    (fun n h => Acc1.step7 V c n h (k1_pay3 (F := Ideal))) (fun n h acc => Acc1.step7 V c n h acc)
    (fun _ => Cert.Gin.zer) (fun n i => Cert.Gin.colBlock (Hsq V c) n (colOf i)) (25 * (t.val / 25)) 24
    (fun h i => step7_apply V c _ h (k1_pay3 (F := Ideal)) i) (fun n h acc i _ _ => step7_apply V c n h acc i)
    (t.val % 25) (by omega) h' i).trans ?_
  unfold Cert.Gin.corePart
  rw [ht]

/-- The sums' array: row r holds the partial column sums of core r / 8. -/
def G6 (c : Dev nD) : S16x128.Idx → EReal := fun i => Cert.Gin.corePart (H V c) ((i 0).val / 8) (colOf i)
/-- The squares' array, likewise. -/
def G7 (c : Dev nD) : S16x128.Idx → EReal := fun i => Cert.Gin.corePart (Hsq V c) ((i 0).val / 8) (colOf i)

theorem G6_apply (c : Dev nD) (r : Fin 16) (j : Fin 128) : G6 V c (ix2 r j) = Cert.Gin.corePart (H V c) (r.val / 8) j := rfl
theorem G7_apply (c : Dev nD) (r : Fin 16) (j : Fin 128) : G7 V c (ix2 r j) = Cert.Gin.corePart (Hsq V c) (r.val / 8) j := rfl

/-- What the last point of a core's run writes back to the sums' array is its block of `G6`. -/
theorem flushed6_eq (c : Dev nD) (t : Fin cfg1.N) (hf : (cfg1.win 6).flush t = true) :
    (dat1 V c).flushed 6 t = ((cfg1.win 6).blk t).view.read (Elt Ideal) (G6 V c) := by
  have ht : t.val % 25 = 24 := (flush1_6 t).mp hf
  show (cfg1.win 6).cut (grid1.coords t) ((dat1 V c).after 6 t) = _
  rw [after1_6]
  obtain ⟨-, -, -, -, -, -, -, -, -, -, -, -, e12, e13, -⟩ := idx_facts t
  funext y
  obtain ⟨r, j, rfl⟩ : ∃ (r : Fin 8) (j : Fin 128), y = ix2 r j := ⟨y 0, y 1, eq_ix2 y⟩
  rw [View.read_apply]
  show (outsAt1 V c t.val t.isLt).2.1 (ix2 r j) = G6 V c (((cfg1.win 6).blk t).view.emb (ix2 r j))
  refine (acc6_apply V c t ht (ix2 r j)).trans ?_
  unfold G6
  refine congrArg₂ (Cert.Gin.corePart (H V c)) ?_ (Fin.ext ?_)
  · show t.val / 25 = (win1_6.index t (0 : Fin 2) * 8 + 1 * r.val) / 8; omega
  · show j.val = win1_6.index t (1 : Fin 2) * 128 + 1 * j.val; omega

theorem flushed7_eq (c : Dev nD) (t : Fin cfg1.N) (hf : (cfg1.win 7).flush t = true) :
    (dat1 V c).flushed 7 t = ((cfg1.win 7).blk t).view.read (Elt Ideal) (G7 V c) := by
  have ht : t.val % 25 = 24 := (flush1_7 t).mp hf
  show (cfg1.win 7).cut (grid1.coords t) ((dat1 V c).after 7 t) = _
  rw [after1_7]
  obtain ⟨-, -, -, -, -, -, -, -, -, -, -, -, -, -, e14, e15⟩ := idx_facts t
  funext y
  obtain ⟨r, j, rfl⟩ : ∃ (r : Fin 8) (j : Fin 128), y = ix2 r j := ⟨y 0, y 1, eq_ix2 y⟩
  rw [View.read_apply]
  show (outsAt1 V c t.val t.isLt).2.2 (ix2 r j) = G7 V c (((cfg1.win 7).blk t).view.emb (ix2 r j))
  refine (acc7_apply V c t ht (ix2 r j)).trans ?_
  unfold G7
  refine congrArg₂ (Cert.Gin.corePart (Hsq V c)) ?_ (Fin.ext ?_)
  · show t.val / 25 = (win1_7.index t (0 : Fin 2) * 8 + 1 * r.val) / 8; omega
  · show j.val = win1_7.index t (1 : Fin 2) * 128 + 1 * j.val; omega

theorem mem_blk6 (t : Fin cfg1.N) (i : S16x128.Idx) :
    i ∈ ((cfg1.win 6).blk t).view.set ↔ ∀ a : Fin 2, win1_6.index t a * S8x128.size a ≤ (i a).val ∧ (i a).val < win1_6.index t a * S8x128.size a + S8x128.size a := by
  show i ∈ ((View.whole main_v42_1).slice (win1_6.rect t)).set ↔ _
  rw [View.set_slice_whole, Rect.mem_set_unit]
  exact Iff.rfl

theorem mem_blk7 (t : Fin cfg1.N) (i : S16x128.Idx) :
    i ∈ ((cfg1.win 7).blk t).view.set ↔ ∀ a : Fin 2, win1_7.index t a * S8x128.size a ≤ (i a).val ∧ (i a).val < win1_7.index t a * S8x128.size a + S8x128.size a := by
  show i ∈ ((View.whole main_v42_2).slice (win1_7.rect t)).set ↔ _
  rw [View.set_slice_whole, Rect.mem_set_unit]
  exact Iff.rfl

/-- Row r lies in the block written back after the last point of core r / 8's run. -/
theorem cover6 (i : S16x128.Idx) : ∃ t : Fin cfg1.N, (cfg1.win 6).flush t = true ∧ i ∈ ((cfg1.win 6).blk t).view.set := by
  have hi0 : (i 0).val < 16 := (i 0).isLt
  have hi1 : (i 1).val < 128 := (i 1).isLt
  have hN : cfg1.N = 50 := N_1
  obtain ⟨t, ht⟩ : ∃ t : Fin cfg1.N, t.val = 25 * ((i 0).val / 8) + 24 := ⟨⟨25 * ((i 0).val / 8) + 24, by rw [hN]; omega⟩, rfl⟩
  refine ⟨t, (flush1_6 t).mpr (by omega), ?_⟩
  rw [mem_blk6]
  obtain ⟨-, -, -, -, -, -, -, -, -, -, -, -, e12, e13, -⟩ := idx_facts t
  intro a
  match a with
  | ⟨0, _⟩ => show win1_6.index t (0 : Fin 2) * 8 ≤ (i 0).val ∧ (i 0).val < win1_6.index t (0 : Fin 2) * 8 + 8; omega
  | ⟨1, _⟩ => show win1_6.index t (1 : Fin 2) * 128 ≤ (i 1).val ∧ (i 1).val < win1_6.index t (1 : Fin 2) * 128 + 128; omega

theorem cover7 (i : S16x128.Idx) : ∃ t : Fin cfg1.N, (cfg1.win 7).flush t = true ∧ i ∈ ((cfg1.win 7).blk t).view.set := by
  have hi0 : (i 0).val < 16 := (i 0).isLt
  have hi1 : (i 1).val < 128 := (i 1).isLt
  have hN : cfg1.N = 50 := N_1
  obtain ⟨t, ht⟩ : ∃ t : Fin cfg1.N, t.val = 25 * ((i 0).val / 8) + 24 := ⟨⟨25 * ((i 0).val / 8) + 24, by rw [hN]; omega⟩, rfl⟩
  refine ⟨t, (flush1_7 t).mpr (by omega), ?_⟩
  rw [mem_blk7]
  obtain ⟨-, -, -, -, -, -, -, -, -, -, -, -, -, -, e14, e15⟩ := idx_facts t
  intro a
  match a with
  | ⟨0, _⟩ => show win1_7.index t (0 : Fin 2) * 8 ≤ (i 0).val ∧ (i 0).val < win1_7.index t (0 : Fin 2) * 8 + 8; omega
  | ⟨1, _⟩ => show win1_7.index t (1 : Fin 2) * 128 ≤ (i 1).val ∧ (i 1).val < win1_7.index t (1 : Fin 2) * 128 + 128; omega

/-- The two accumulator arrays after the region. -/
theorem final6 (c : Dev nD) : (dat1 V c).arrAt 6 cfg1.N = G6 V c :=
  (dat1 V c).arrAt_eq_of_cover 6 _ (fun t hf => flushed6_eq V c t hf) (cover6)
theorem final7 (c : Dev nD) : (dat1 V c).arrAt 7 cfg1.N = G7 V c :=
  (dat1 V c).arrAt_eq_of_cover 7 _ (fun t hf => flushed7_eq V c t hf) (cover7)

end Cert.KernelIdeal.Reg1

end
-- ==== Proof.Reg2.lean ====
/-
  The third kernel's result array, as one function of the arrays it reads.

  The third region is pointwise: on each block of 2000 rows it multiplies by the multiplier row, adds the offset row
  and rectifies. Every grid point writes its own block of the result back, and the 25 blocks tile the 50000 rows,
  so after the region the result array holds, at every entry, the rectified affine image of the entry it was
  computed from.
-/
import proofs.«181591_j57105885168079_2_alg».proof.Proof.Gen.KernelIdeal.Frame
import proofs.«181591_j57105885168079_2_alg».proof.Proof.Spec
import Idealize.ShloMosaic.Lib.ValueIdx
import Idealize.ShloMosaic.Lib.ValueLayout
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Reg2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The three arrays the region reads, as the region finds them: the pre-normalisation array, the multiplier row, the
    offset row. -/
abbrev X (c : Dev nD) : S50000x128.Idx → EReal := V c main_v42_0
abbrev SC (c : Dev nD) : S1x128.Idx → EReal := V c main_v63
abbrev SH (c : Dev nD) : S1x128.Idx → EReal := V c main_v66

/-- The body's arithmetic at an entry of its block. -/
theorem pay_apply (v0 : Vec Ideal S2000x128 .f32) (v2 v6 : Vec Ideal S1x128 .f32) (p : Fin 2000) (q : Fin 128) :
    k2_pay1 v0 v2 v6 (ix2 p q) = max (v0 (ix2 p q) * v2 (ix2 (0 : Fin 1) q) + v6 (ix2 (0 : Fin 1) q)) Cert.Gin.zer := by
  unfold k2_pay1
  rw [maximumf_apply, addf_apply, mulf_apply, shapeCast_self, shapeCast_self, shapeCast_self,
    broadcastTo_1b_ab_apply, broadcastTo_1b_ab_apply]
  rfl

/-- The index of column `q` in a one-row matrix, from an index of the big array. -/
abbrev rowIdx (i : S50000x128.Idx) : S1x128.Idx := ix2 (0 : Fin 1) (⟨(i 1).val, idx2_lt1 i⟩ : Fin 128)

/-- The result as one function of the pre-normalisation array, the multiplier row and the offset row. -/
def G (x : S50000x128.Idx → EReal) (sc sh : S1x128.Idx → EReal) : S50000x128.Idx → EReal :=
  fun i => max (x i * sc (rowIdx i) + sh (rowIdx i)) Cert.Gin.zer

theorem G_apply (x : S50000x128.Idx → EReal) (sc sh : S1x128.Idx → EReal) (p : Fin 50000) (q : Fin 128) :
    G x sc sh (ix2 p q) = max (x (ix2 p q) * sc (ix2 (0 : Fin 1) q) + sh (ix2 (0 : Fin 1) q)) Cert.Gin.zer := rfl

/-- The printed index maps over the grid: the data windows move one block of rows per point, the two rows stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of `G` of the arrays as the region finds them. -/
theorem flushed_eq (c : Dev nD) (t : Fin cfg2.N) :
    (dat2 V c).flushed 3 t = ((cfg2.win 3).blk t).view.read (Elt Ideal) (G (X V c) (SC V c) (SH V c)) := by
  show (cfg2.win 3).cut (grid2.coords t) ((dat2 V c).after 3 t) = _
  rw [after2_3]
  unfold out2_3
  rw [View.canon_unit_zero hz]
  simp only [View.ld_unit_zero (S := S2000x128) hz, View.ld_unit_zero (S := S1x128) hz]
  obtain ⟨e0, e1, e2, e3, e4, e5, e6, e7⟩ := idx_facts t
  funext y
  obtain ⟨p, q, rfl⟩ : ∃ (p : Fin 2000) (q : Fin 128), y = ix2 p q := ⟨y 0, y 1, eq_ix2 y⟩
  refine (pay_apply (iblk2 V c 0 t) (iblk2 V c 1 t) (iblk2 V c 2 t) p q).trans ?_
  have h0 : ((cfg2.win 0).blk t).view.emb (ix2 p q) = ((cfg2.win 3).blk t).view.emb (ix2 p q) := by
    funext a; apply Fin.ext
    match a with
    | ⟨0, _⟩ => show win2_0.index t (0 : Fin 2) * 2000 + 1 * p.val = win2_3.index t (0 : Fin 2) * 2000 + 1 * p.val; omega
    | ⟨1, _⟩ => show win2_0.index t (1 : Fin 2) * 128 + 1 * q.val = win2_3.index t (1 : Fin 2) * 128 + 1 * q.val; omega
  have h1 : ((cfg2.win 1).blk t).view.emb (ix2 (0 : Fin 1) q) = rowIdx (((cfg2.win 3).blk t).view.emb (ix2 p q)) := by
    funext a; apply Fin.ext
    match a with
    | ⟨0, _⟩ => show win2_1.index t (0 : Fin 2) * 1 + 1 * 0 = 0; omega
    | ⟨1, _⟩ => show win2_1.index t (1 : Fin 2) * 128 + 1 * q.val = win2_3.index t (1 : Fin 2) * 128 + 1 * q.val; omega
  have h2 : ((cfg2.win 2).blk t).view.emb (ix2 (0 : Fin 1) q) = rowIdx (((cfg2.win 3).blk t).view.emb (ix2 p q)) := by
    funext a; apply Fin.ext
    match a with
    | ⟨0, _⟩ => show win2_2.index t (0 : Fin 2) * 1 + 1 * 0 = 0; omega
    | ⟨1, _⟩ => show win2_2.index t (1 : Fin 2) * 128 + 1 * q.val = win2_3.index t (1 : Fin 2) * 128 + 1 * q.val; omega
  show max (X V c (((cfg2.win 0).blk t).view.emb (ix2 p q)) * SC V c (((cfg2.win 1).blk t).view.emb (ix2 (0 : Fin 1) q))
        + SH V c (((cfg2.win 2).blk t).view.emb (ix2 (0 : Fin 1) q))) Cert.Gin.zer
      = G (X V c) (SC V c) (SH V c) (((cfg2.win 3).blk t).view.emb (ix2 p q))
  rw [h0, h1, h2]
  rfl

/-- An index of the array is in point `t`'s block iff each coordinate is in the block's range on its axis. -/
theorem mem_blk (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v67).slice (win2_3.rect t)).set ↔ _
  rw [View.set_slice_whole, Rect.mem_set_unit]
  exact Iff.rfl

/-- Every row lies in the block of the point numbered by the row's quotient by 2000. -/
theorem cover (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by rw [hN]; omega⟩, rfl⟩
  refine ⟨t, flush2_3 t, ?_⟩
  rw [mem_blk]
  obtain ⟨-, -, -, -, -, -, e6, e7⟩ := idx_facts t
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- The result array after the region. -/
theorem final (c : Dev nD) : (dat2 V c).arrAt 3 cfg2.N = G (X V c) (SC V c) (SH V c) :=
  (dat2 V c).arrAt_eq_of_cover 3 _ (fun t _ => flushed_eq V c t) (cover)

end Cert.KernelIdeal.Reg2

end
-- ==== Proof.KV1.lean ====
/-
  The kernel program's values, second half: the second and third regions, and the result.

  The second region is entered with the first dense layer H, and with the multiplier and offset rows of H's raw-moment
  batch normalisation; its body rectifies H·multiplier + offset — the normalised, rectified layer — and multiplies by
  the second weights: the second dense layer H'. Its accumulators give H''s column sums, from which the host forms the
  second multiplier and offset; the third region rectifies H'·multiplier + offset. That is the specification's
  raw-moment result, entry by entry.
-/
import proofs.«181591_j57105885168079_2_alg».proof.Proof.KV0
import proofs.«181591_j57105885168079_2_alg».proof.Proof.Reg1b
import proofs.«181591_j57105885168079_2_alg».proof.Proof.Reg2
import proofs.«181591_j57105885168079_2_alg».proof.Proof.Host2

noncomputable section

open scoped BigOperators
open Idealize.ShloMosaic Idealize.ShloMosaic.TcCoe Idealize.SL.Sem Idealize.ShloMosaic.ValueIdx

namespace Cert.KernelIdeal.KValue

open Cert.KernelIdeal Cert.KernelIdeal.Gen

variable (m : (ℓ : Loc nD τ sig) → Buf (Elt Ideal) ℓ) (ρ : Dev nD → PrngReg)

/-- The first layer normalised from raw moments and rectified. -/
def Y1 (c : Dev nD) : Fin 50000 → Fin 256 → EReal := Cert.Gin.bnK (H1 m c) (aG1 m c) (aBe1 m c)
/-- The second dense layer. -/
def H2 (c : Dev nD) : Fin 50000 → Fin 128 → EReal := Cert.Gin.lin (Y1 m c) (aW2 m c) (aB2 m c)

/-- The second region's dense layer, at the contents it is entered with, is the second dense layer of the arguments. -/
theorem h1_eq (c : Dev nD) : Reg1.H (V3 m ρ) c = H2 m c := by
  unfold Reg1.H H2
  have eX : (fun (p : Fin 50000) (k : Fin 256) => max (Reg1.VH (V3 m ρ) c (ix2 p k) * Reg1.VS (V3 m ρ) c (ix2 (0 : Fin 1) k)
      + Reg1.VT (V3 m ρ) c (ix2 (0 : Fin 1) k)) Cert.Gin.zer) = Y1 m c := by
    funext p k
    rw [show Reg1.VH (V3 m ρ) c (ix2 p k) = H1 m c p k from v3_h m ρ c p k,
      show Reg1.VS (V3 m ρ) c (ix2 (0 : Fin 1) k) = Cert.Gin.scaleK (H1 m c) (aG1 m c) k from v3_scale m ρ c k,
      show Reg1.VT (V3 m ρ) c (ix2 (0 : Fin 1) k) = Cert.Gin.shiftK (H1 m c) (aG1 m c) (aBe1 m c) k from v3_shift m ρ c k]
    rfl
  have eW : (fun (k : Fin 256) (j : Fin 128) => Reg1.VW (V3 m ρ) c (ix2 k j)) = aW2 m c :=
    funext fun k => funext fun j => v3_w2 m ρ c k j
  have eB : (fun (j : Fin 128) => Reg1.VB (V3 m ρ) c (ix2 (0 : Fin 1) j)) = aB2 m c :=
    funext fun j => v3_b2 m ρ c j
  rw [eX, eW, eB]

theorem tot_sum2 (c : Dev nD) :
    (Cert.Gin.tot2 fun (r : Fin 16) (j : Fin 128) => W4 m ρ c (Proc.devRef .tc main_v42_1) (ix2 r j)) = fun j => ∑ p, H2 m c p j := by
  funext j
  have e : (fun (r : Fin 16) (j : Fin 128) => W4 m ρ c (Proc.devRef .tc main_v42_1) (ix2 r j))
      = fun r j => Cert.Gin.corePart (H2 m c) (r.val / 8) j := by
    funext r j
    rw [Walk.w4_s m ρ c, Reg1.final6, Reg1.G6_apply, h1_eq]
  rw [e]
  exact Cert.Gin.tot2_corePart (H2 m c) j

theorem tot_sq2 (c : Dev nD) :
    (Cert.Gin.tot2 fun (r : Fin 16) (j : Fin 128) => W4 m ρ c (Proc.devRef .tc main_v42_2) (ix2 r j)) = fun j => ∑ p, H2 m c p j * H2 m c p j := by
  funext j
  have e : (fun (r : Fin 16) (j : Fin 128) => W4 m ρ c (Proc.devRef .tc main_v42_2) (ix2 r j))
      = fun r j => Cert.Gin.corePart (fun p j => H2 m c p j * H2 m c p j) (r.val / 8) j := by
    funext r j
    rw [Walk.w4_q m ρ c, Reg1.final7, Reg1.G7_apply]
    unfold Reg1.Hsq
    rw [h1_eq]
  rw [e]
  exact Cert.Gin.tot2_corePart (fun p j => H2 m c p j * H2 m c p j) j

/-! ### What the third region is entered with -/

theorem v5_x (c : Dev nD) (p : Fin 50000) (q : Fin 128) :
    W5 m ρ c (Proc.devRef .tc main_v42_0) (ix2 p q) = H2 m c p q := by
  refine (congrFun (Host.keep2_out (W4 m ρ c)) (ix2 p q)).trans ?_
  rw [Walk.w4_out m ρ c, Reg1.final5, Reg1.G5_apply, h1_eq]

theorem v5_scale (c : Dev nD) (q : Fin 128) :
    W5 m ρ c (Proc.devRef .tc main_v63) (ix2 (0 : Fin 1) q) = Cert.Gin.scaleK (H2 m c) (aG2 m c) q := by
  refine (Host.scale2_apply (W4 m ρ c) q).trans ?_
  rw [tot_sum2, tot_sq2, Walk.w4_g2 m ρ c]
  rfl

theorem v5_shift (c : Dev nD) (q : Fin 128) :
    W5 m ρ c (Proc.devRef .tc main_v66) (ix2 (0 : Fin 1) q) = Cert.Gin.shiftK (H2 m c) (aG2 m c) (aBe2 m c) q := by
  refine (Host.shift2_apply (W4 m ρ c) q).trans ?_
  rw [tot_sum2, tot_sq2, Walk.w4_g2 m ρ c, Walk.w4_be2 m ρ c]
  rfl

/-- The result array after the run, entry by entry: the specification's raw-moment result of the arguments. -/
theorem result_apply (c : Dev nD) (p : Fin 50000) (q : Fin 128) :
    W6 m ρ c (Proc.devRef .tc main_v67) (ix2 p q)
      = Cert.Gin.outK (aA m c) (aV m c) (aE m c) (aW1 m c) (aB1 m c) (aG1 m c) (aBe1 m c) (aW2 m c) (aB2 m c) (aG2 m c) (aBe2 m c) p q := by
  rw [Walk.w6_res m ρ c, Reg2.final, Reg2.G_apply]
  rw [show Reg2.X (V5 m ρ) c (ix2 p q) = H2 m c p q from v5_x m ρ c p q,
    show Reg2.SC (V5 m ρ) c (ix2 (0 : Fin 1) q) = Cert.Gin.scaleK (H2 m c) (aG2 m c) q from v5_scale m ρ c q,
    show Reg2.SH (V5 m ρ) c (ix2 (0 : Fin 1) q) = Cert.Gin.shiftK (H2 m c) (aG2 m c) (aBe2 m c) q from v5_shift m ρ c q]
  rfl

end Cert.KernelIdeal.KValue

end
-- ==== Proof.RefRun.lean ====
/-
  The reference program's @main as a list of its host operations, and its run.

  @main is a straight line: seventy-one operations of its own and four calls of module-local functions — the
  variance of a layer's columns (twice, each itself calling the three-operation select helper) and the rectifier
  (twice) —, whose bodies are substituted at the calls over the calls' buffer records. Unfolded, the program is one
  chain of 121 host steps, so every weakly fair execution terminates with each buffer at the fold of the operations'
  results over the launch contents.
-/
import proofs.«181591_j57105885168079_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 121 operations, in order, the calls unfolded: the column variance is nineteen operations and the three of
    the select helper it calls, the rectifier three. -/
abbrev ops : List (HloOp τ sig (Elt F)) :=
  [ StableHlo.unary main_arg3 main_v0 (broadcastInDim S800000x1 ![0] bcast_S800000_S800000x1_0 : (⟨S800000, .f32⟩ : BufTy).Contents (Elt F) → (⟨S800000x1, .f32⟩ : BufTy).Contents (Elt F)),
    StableHlo.nullary main_c (constantI S_ 32 0#32),
    StableHlo.unary main_c main_v1 (broadcastInDim S800000 ![] bcast_S_S800000 : (⟨S_, .i32⟩ : BufTy).Contents (Elt F) → (⟨S800000, .i32⟩ : BufTy).Contents (Elt F)),
    StableHlo.binary main_arg2 main_v1 main_v2 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v3 (broadcastInDim S800000 ![] bcast_S_S800000 : (⟨S_, .i32⟩ : BufTy).Contents (Elt F) → (⟨S800000, .i32⟩ : BufTy).Contents (Elt F)),
    StableHlo.binary main_arg2 main_v3 main_v4 (addi : (⟨S800000, .i32⟩ : BufTy).Contents (Elt F) → (⟨S800000, .i32⟩ : BufTy).Contents (Elt F) → (⟨S800000, .i32⟩ : BufTy).Contents (Elt F)),
    StableHlo.ternary main_v2 main_v4 main_arg2 main_v5 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v5 main_v6 (broadcastInDim S800000x1 ![0] bcast_S800000_S800000x1_0 : (⟨S800000, .i32⟩ : BufTy).Contents (Elt F) → (⟨S800000x1, .i32⟩ : BufTy).Contents (Elt F)),
    StableHlo.binary main_arg0 main_v6 main_v7 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v0 main_v8 (broadcastInDim S800000x128 ![0, 1] bcast_S800000x1_S800000x128_0_1 : (⟨S800000x1, .f32⟩ : BufTy).Contents (Elt F) → (⟨S800000x128, .f32⟩ : BufTy).Contents (Elt F)),
    StableHlo.binary main_v8 main_v7 main_v9 (mulf : (⟨S800000x128, .f32⟩ : BufTy).Contents (Elt F) → (⟨S800000x128, .f32⟩ : BufTy).Contents (Elt F) → (⟨S800000x128, .f32⟩ : BufTy).Contents (Elt F)),
    StableHlo.nullary main_cst (constant S_ .f32 0x00000000#32),
    StableHlo.unary main_cst main_v10 (broadcastInDim S50000x128 ![] bcast_S_S50000x128 : (⟨S_, .f32⟩ : BufTy).Contents (Elt F) → (⟨S50000x128, .f32⟩ : BufTy).Contents (Elt F)),
    StableHlo.unary main_arg1 main_v11 (broadcastInDim S800000x1 ![0] bcast_S800000_S800000x1_0 : (⟨S800000, .i32⟩ : BufTy).Contents (Elt F) → (⟨S800000x1, .i32⟩ : BufTy).Contents (Elt F)),
    StableHlo.ternary main_v10 main_v11 main_v9 main_v12 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg12 main_v13 (broadcastInDim S50000x128 ![0, 1] bcast_S1x1_S50000x128_0_1 : (⟨S1x1, .f32⟩ : BufTy).Contents (Elt F) → (⟨S50000x128, .f32⟩ : BufTy).Contents (Elt F)),
    StableHlo.binary main_v13 main_arg0 main_v14 (mulf : (⟨S50000x128, .f32⟩ : BufTy).Contents (Elt F) → (⟨S50000x128, .f32⟩ : BufTy).Contents (Elt F) → (⟨S50000x128, .f32⟩ : BufTy).Contents (Elt F)),
    StableHlo.binary main_v12 main_v14 main_v15 (addf : (⟨S50000x128, .f32⟩ : BufTy).Contents (Elt F) → (⟨S50000x128, .f32⟩ : BufTy).Contents (Elt F) → (⟨S50000x128, .f32⟩ : BufTy).Contents (Elt F)),
    StableHlo.binary main_v15 main_arg4 main_v16 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg5 main_v17 (broadcastInDim S1x256 ![1] bcast_S256_S1x256_1 : (⟨S256, .f32⟩ : BufTy).Contents (Elt F) → (⟨S1x256, .f32⟩ : BufTy).Contents (Elt F)),
    StableHlo.unary main_v17 main_v18 (broadcastInDim S50000x256 ![0, 1] bcast_S1x256_S50000x256_0_1 : (⟨S1x256, .f32⟩ : BufTy).Contents (Elt F) → (⟨S50000x256, .f32⟩ : BufTy).Contents (Elt F)),
    StableHlo.binary main_v16 main_v18 main_v19 (addf : (⟨S50000x256, .f32⟩ : BufTy).Contents (Elt F) → (⟨S50000x256, .f32⟩ : BufTy).Contents (Elt F) → (⟨S50000x256, .f32⟩ : BufTy).Contents (Elt F)),
    StableHlo.nullary main_cst_1 (constant S_ .f32 0x00000000#32),
    StableHlo.binary main_v19 main_cst_1 main_v20 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_2 (constant S_ .f32 0x47435000#32),
    StableHlo.unary main_cst_2 main_v21 (broadcastInDim S256 ![] bcast_S_S256 : (⟨S_, .f32⟩ : BufTy).Contents (Elt F) → (⟨S256, .f32⟩ : BufTy).Contents (Elt F)),
    StableHlo.binary main_v20 main_v21 main_v22 (Host.divf : (⟨S256, .f32⟩ : BufTy).Contents (Elt F) → (⟨S256, .f32⟩ : BufTy).Contents (Elt F) → (⟨S256, .f32⟩ : BufTy).Contents (Elt F)),
    StableHlo.nullary main_c_3 (constantI S_ 32 0#32),
    StableHlo.TRef.nullary main_call0.cst (constant S_ .f32 0x00000000#32),
    StableHlo.TRef.binary (.of main_v19) main_call0.cst main_call0.v0 (fun x v => Host.reduceAdd x v reducesTo_S50000x256_S256_d0 h_S_),
    StableHlo.TRef.unary main_call0.v0 main_call0.v1 (broadcastInDim S1x256 ![1] bcast_S256_S1x256_1),
    StableHlo.TRef.nullary main_call0.cst_0 (constant S_ .f32 0x47435000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S50000x256 ![0, 1] bcast_S1x256_S50000x256_0_1),
    StableHlo.TRef.binary (.of main_v19) main_call0.v4 main_call0.v5 subf,
    StableHlo.TRef.binary main_call0.v5 main_call0.v5 main_call0.v6 mulf,
    StableHlo.TRef.unary (.of main_c_3) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v22 main_v24 (broadcastInDim S1x256 ![1] bcast_S256_S1x256_1 : (⟨S256, .f32⟩ : BufTy).Contents (Elt F) → (⟨S1x256, .f32⟩ : BufTy).Contents (Elt F)),
    StableHlo.unary main_v24 main_v25 (broadcastInDim S50000x256 ![0, 1] bcast_S1x256_S50000x256_0_1 : (⟨S1x256, .f32⟩ : BufTy).Contents (Elt F) → (⟨S50000x256, .f32⟩ : BufTy).Contents (Elt F)),
    StableHlo.binary main_v19 main_v25 main_v26 (subf : (⟨S50000x256, .f32⟩ : BufTy).Contents (Elt F) → (⟨S50000x256, .f32⟩ : BufTy).Contents (Elt F) → (⟨S50000x256, .f32⟩ : BufTy).Contents (Elt F)),
    StableHlo.nullary main_cst_4 (constant S_ .f32 0x3727C5AC#32),
    StableHlo.unary main_cst_4 main_v27 (broadcastInDim S256 ![] bcast_S_S256 : (⟨S_, .f32⟩ : BufTy).Contents (Elt F) → (⟨S256, .f32⟩ : BufTy).Contents (Elt F)),
    StableHlo.binary main_v23 main_v27 main_v28 (addf : (⟨S256, .f32⟩ : BufTy).Contents (Elt F) → (⟨S256, .f32⟩ : BufTy).Contents (Elt F) → (⟨S256, .f32⟩ : BufTy).Contents (Elt F)),
    StableHlo.unary main_v28 main_v29 (Host.rsqrt : (⟨S256, .f32⟩ : BufTy).Contents (Elt F) → (⟨S256, .f32⟩ : BufTy).Contents (Elt F)),
    StableHlo.unary main_v29 main_v30 (broadcastInDim S1x256 ![1] bcast_S256_S1x256_1 : (⟨S256, .f32⟩ : BufTy).Contents (Elt F) → (⟨S1x256, .f32⟩ : BufTy).Contents (Elt F)),
    StableHlo.unary main_v30 main_v31 (broadcastInDim S50000x256 ![0, 1] bcast_S1x256_S50000x256_0_1 : (⟨S1x256, .f32⟩ : BufTy).Contents (Elt F) → (⟨S50000x256, .f32⟩ : BufTy).Contents (Elt F)),
    StableHlo.binary main_v26 main_v31 main_v32 (mulf : (⟨S50000x256, .f32⟩ : BufTy).Contents (Elt F) → (⟨S50000x256, .f32⟩ : BufTy).Contents (Elt F) → (⟨S50000x256, .f32⟩ : BufTy).Contents (Elt F)),
    StableHlo.unary main_arg6 main_v33 (broadcastInDim S1x256 ![1] bcast_S256_S1x256_1 : (⟨S256, .f32⟩ : BufTy).Contents (Elt F) → (⟨S1x256, .f32⟩ : BufTy).Contents (Elt F)),
    StableHlo.unary main_v33 main_v34 (broadcastInDim S50000x256 ![0, 1] bcast_S1x256_S50000x256_0_1 : (⟨S1x256, .f32⟩ : BufTy).Contents (Elt F) → (⟨S50000x256, .f32⟩ : BufTy).Contents (Elt F)),
    StableHlo.binary main_v32 main_v34 main_v35 (mulf : (⟨S50000x256, .f32⟩ : BufTy).Contents (Elt F) → (⟨S50000x256, .f32⟩ : BufTy).Contents (Elt F) → (⟨S50000x256, .f32⟩ : BufTy).Contents (Elt F)),
    StableHlo.unary main_arg7 main_v36 (broadcastInDim S1x256 ![1] bcast_S256_S1x256_1 : (⟨S256, .f32⟩ : BufTy).Contents (Elt F) → (⟨S1x256, .f32⟩ : BufTy).Contents (Elt F)),
    StableHlo.unary main_v36 main_v37 (broadcastInDim S50000x256 ![0, 1] bcast_S1x256_S50000x256_0_1 : (⟨S1x256, .f32⟩ : BufTy).Contents (Elt F) → (⟨S50000x256, .f32⟩ : BufTy).Contents (Elt F)),
    StableHlo.binary main_v35 main_v37 main_v38 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v38) main_call1.v0 main_call1.v1 maximumf,
    StableHlo.binary main_v39 main_arg8 main_v40 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg9 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S50000x128 ![0, 1] bcast_S1x128_S50000x128_0_1 : (⟨S1x128, .f32⟩ : BufTy).Contents (Elt F) → (⟨S50000x128, .f32⟩ : BufTy).Contents (Elt F)),
    StableHlo.binary main_v40 main_v42 main_v43 (addf : (⟨S50000x128, .f32⟩ : BufTy).Contents (Elt F) → (⟨S50000x128, .f32⟩ : BufTy).Contents (Elt F) → (⟨S50000x128, .f32⟩ : BufTy).Contents (Elt F)),
    StableHlo.nullary main_cst_5 (constant S_ .f32 0x00000000#32),
    StableHlo.binary main_v43 main_cst_5 main_v44 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_6 (constant S_ .f32 0x47435000#32),
    StableHlo.unary main_cst_6 main_v45 (broadcastInDim S128 ![] bcast_S_S128 : (⟨S_, .f32⟩ : BufTy).Contents (Elt F) → (⟨S128, .f32⟩ : BufTy).Contents (Elt F)),
    StableHlo.binary main_v44 main_v45 main_v46 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call2.cst (constant S_ .f32 0x00000000#32),
    StableHlo.TRef.binary (.of main_v43) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v43) main_call2.v4 main_call2.v5 subf,
    StableHlo.TRef.binary main_call2.v5 main_call2.v5 main_call2.v6 mulf,
    StableHlo.TRef.unary (.of main_c_7) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v46 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v49 main_v50 (subf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3727C5AC#32),
    StableHlo.unary main_cst_8 main_v51 (broadcastInDim S128 ![] bcast_S_S128 : (⟨S_, .f32⟩ : BufTy).Contents (Elt F) → (⟨S128, .f32⟩ : BufTy).Contents (Elt F)),
    StableHlo.binary main_v47 main_v51 main_v52 (addf : (⟨S128, .f32⟩ : BufTy).Contents (Elt F) → (⟨S128, .f32⟩ : BufTy).Contents (Elt F) → (⟨S128, .f32⟩ : BufTy).Contents (Elt F)),
    StableHlo.unary main_v52 main_v53 (Host.rsqrt : (⟨S128, .f32⟩ : BufTy).Contents (Elt F) → (⟨S128, .f32⟩ : BufTy).Contents (Elt F)),
    StableHlo.unary main_v53 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S50000x128 ![0, 1] bcast_S1x128_S50000x128_0_1 : (⟨S1x128, .f32⟩ : BufTy).Contents (Elt F) → (⟨S50000x128, .f32⟩ : BufTy).Contents (Elt F)),
    StableHlo.binary main_v50 main_v55 main_v56 (mulf : (⟨S50000x128, .f32⟩ : BufTy).Contents (Elt F) → (⟨S50000x128, .f32⟩ : BufTy).Contents (Elt F) → (⟨S50000x128, .f32⟩ : BufTy).Contents (Elt F)),
    StableHlo.unary main_arg10 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S50000x128 ![0, 1] bcast_S1x128_S50000x128_0_1 : (⟨S1x128, .f32⟩ : BufTy).Contents (Elt F) → (⟨S50000x128, .f32⟩ : BufTy).Contents (Elt F)),
    StableHlo.binary main_v56 main_v58 main_v59 (mulf : (⟨S50000x128, .f32⟩ : BufTy).Contents (Elt F) → (⟨S50000x128, .f32⟩ : BufTy).Contents (Elt F) → (⟨S50000x128, .f32⟩ : BufTy).Contents (Elt F)),
    StableHlo.unary main_arg11 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S50000x128 ![0, 1] bcast_S1x128_S50000x128_0_1 : (⟨S1x128, .f32⟩ : BufTy).Contents (Elt F) → (⟨S50000x128, .f32⟩ : BufTy).Contents (Elt F)),
    StableHlo.binary main_v59 main_v61 main_v62 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v62) main_call3.v0 main_call3.v1 maximumf ]

-- one hundred and twenty-one binds re-associated: the rewrite under the chain recurses once per statement
set_option maxRecDepth 8192 in
set_option maxHeartbeats 4000000 in
/-- @main is that straight line: the two windows and the functions' definitions unfolded at their calls, both sides
    are one chain of host steps once sequencing is re-associated. -/
theorem main_eq (c : Dev nD) : main (F := F) c = seq ops := by
  simp only [main, main_part0, main_part1, fn_var.body, fn_where.body, fn_relu.body, fn_var_0.body, fn_where_1.body,
    fn_relu_2.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., unary_bufs_sub .., binary_bufs_sub ..,
    binary_bufs_sub .., binary_bufs_sub .., unary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub ..⟩

/-- On every device, for any float values, from any memory with zero counters: every weakly fair execution of @main
    terminates, and every final state has each buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.LibLineResults.lean ====
/-
  Reading a straight line of host operations: three general facts used by every stage lemma of this certificate.

  * The contents after two lines run one after the other are the second line's contents after the first's.
  * An operation over a literal family of FIVE operand references (a concatenation of five arrays) writes its
    function applied to each operand's contents taken at that operand's own reference, so that a reader can go on
    rewriting those contents one operation further back.
  * A tactic that unrolls a literal line at a reference in one simplification pass, the five-operand fact included.
-/
import Idealize.ShloMosaic.Lib.StableHlo.Run

noncomputable section

namespace Idealize.ShloMosaic.StableHlo

open Idealize.ShloMosaic

variable {τ : Topo} {sig : RefSig} {Val : EltTy → Type}

/-- The contents after a concatenated line: the second part's fold over the first part's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable {x a b c e y : Ref sig .tc}

/-- A five-operand operation's result, each operand's contents at its own reference. -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

/-- The same, with the result reference kept out of the simplifier's index. -/
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) :=
  nary5_result f hxs hy F

/-- Unrolls a literal line of host operations at one reference in a single pass: every operation's result at its
    own result reference becomes its function's value, at any other reference what was there before. -/
macro "line_results" : tactic =>
  `(tactic| (simp (disch := decide) only [after_cons, after_nil,
      nullary_result', unary_result', binary_result', ternary_result', quaternary_result', reshape_result', nary5_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.RefSeg.lean ====
/-
  The reference's operation list cut at the three places where one array carries everything that follows: after the
  first dense layer, after the first rectifier, after the second dense layer. The contents after the whole line are
  the contents after the fourth part run from those after the third, and so on back to the launch contents.
-/
import proofs.«181591_j57105885168079_2_alg».proof.Proof.RefRun
import proofs.«181591_j57105885168079_2_alg».proof.Proof.LibLineResults

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The first twenty-three operations: the aggregation, the residual input and the first dense layer; they end at `main_v19`. -/
abbrev seg1 : List (HloOp τ sig (Elt F)) :=
  [ StableHlo.unary main_arg3 main_v0 (broadcastInDim S800000x1 ![0] bcast_S800000_S800000x1_0 : (⟨S800000, .f32⟩ : BufTy).Contents (Elt F) → (⟨S800000x1, .f32⟩ : BufTy).Contents (Elt F)),
    StableHlo.nullary main_c (constantI S_ 32 0#32),
    StableHlo.unary main_c main_v1 (broadcastInDim S800000 ![] bcast_S_S800000 : (⟨S_, .i32⟩ : BufTy).Contents (Elt F) → (⟨S800000, .i32⟩ : BufTy).Contents (Elt F)),
    StableHlo.binary main_arg2 main_v1 main_v2 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v3 (broadcastInDim S800000 ![] bcast_S_S800000 : (⟨S_, .i32⟩ : BufTy).Contents (Elt F) → (⟨S800000, .i32⟩ : BufTy).Contents (Elt F)),
    StableHlo.binary main_arg2 main_v3 main_v4 (addi : (⟨S800000, .i32⟩ : BufTy).Contents (Elt F) → (⟨S800000, .i32⟩ : BufTy).Contents (Elt F) → (⟨S800000, .i32⟩ : BufTy).Contents (Elt F)),
    StableHlo.ternary main_v2 main_v4 main_arg2 main_v5 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v5 main_v6 (broadcastInDim S800000x1 ![0] bcast_S800000_S800000x1_0 : (⟨S800000, .i32⟩ : BufTy).Contents (Elt F) → (⟨S800000x1, .i32⟩ : BufTy).Contents (Elt F)),
    StableHlo.binary main_arg0 main_v6 main_v7 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v0 main_v8 (broadcastInDim S800000x128 ![0, 1] bcast_S800000x1_S800000x128_0_1 : (⟨S800000x1, .f32⟩ : BufTy).Contents (Elt F) → (⟨S800000x128, .f32⟩ : BufTy).Contents (Elt F)),
    StableHlo.binary main_v8 main_v7 main_v9 (mulf : (⟨S800000x128, .f32⟩ : BufTy).Contents (Elt F) → (⟨S800000x128, .f32⟩ : BufTy).Contents (Elt F) → (⟨S800000x128, .f32⟩ : BufTy).Contents (Elt F)),
    StableHlo.nullary main_cst (constant S_ .f32 0x00000000#32),
    StableHlo.unary main_cst main_v10 (broadcastInDim S50000x128 ![] bcast_S_S50000x128 : (⟨S_, .f32⟩ : BufTy).Contents (Elt F) → (⟨S50000x128, .f32⟩ : BufTy).Contents (Elt F)),
    StableHlo.unary main_arg1 main_v11 (broadcastInDim S800000x1 ![0] bcast_S800000_S800000x1_0 : (⟨S800000, .i32⟩ : BufTy).Contents (Elt F) → (⟨S800000x1, .i32⟩ : BufTy).Contents (Elt F)),
    StableHlo.ternary main_v10 main_v11 main_v9 main_v12 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg12 main_v13 (broadcastInDim S50000x128 ![0, 1] bcast_S1x1_S50000x128_0_1 : (⟨S1x1, .f32⟩ : BufTy).Contents (Elt F) → (⟨S50000x128, .f32⟩ : BufTy).Contents (Elt F)),
    StableHlo.binary main_v13 main_arg0 main_v14 (mulf : (⟨S50000x128, .f32⟩ : BufTy).Contents (Elt F) → (⟨S50000x128, .f32⟩ : BufTy).Contents (Elt F) → (⟨S50000x128, .f32⟩ : BufTy).Contents (Elt F)),
    StableHlo.binary main_v12 main_v14 main_v15 (addf : (⟨S50000x128, .f32⟩ : BufTy).Contents (Elt F) → (⟨S50000x128, .f32⟩ : BufTy).Contents (Elt F) → (⟨S50000x128, .f32⟩ : BufTy).Contents (Elt F)),
    StableHlo.binary main_v15 main_arg4 main_v16 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg5 main_v17 (broadcastInDim S1x256 ![1] bcast_S256_S1x256_1 : (⟨S256, .f32⟩ : BufTy).Contents (Elt F) → (⟨S1x256, .f32⟩ : BufTy).Contents (Elt F)),
    StableHlo.unary main_v17 main_v18 (broadcastInDim S50000x256 ![0, 1] bcast_S1x256_S50000x256_0_1 : (⟨S1x256, .f32⟩ : BufTy).Contents (Elt F) → (⟨S50000x256, .f32⟩ : BufTy).Contents (Elt F)),
    StableHlo.binary main_v16 main_v18 main_v19 (addf : (⟨S50000x256, .f32⟩ : BufTy).Contents (Elt F) → (⟨S50000x256, .f32⟩ : BufTy).Contents (Elt F) → (⟨S50000x256, .f32⟩ : BufTy).Contents (Elt F)) ]

/-- The next forty-seven: the first layer's column mean, its variance (the called function and the select helper it calls), the normalisation and the rectifier; they end at `main_v39`. -/
abbrev seg2 : List (HloOp τ sig (Elt F)) :=
  [ StableHlo.nullary main_cst_1 (constant S_ .f32 0x00000000#32),
    StableHlo.binary main_v19 main_cst_1 main_v20 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_2 (constant S_ .f32 0x47435000#32),
    StableHlo.unary main_cst_2 main_v21 (broadcastInDim S256 ![] bcast_S_S256 : (⟨S_, .f32⟩ : BufTy).Contents (Elt F) → (⟨S256, .f32⟩ : BufTy).Contents (Elt F)),
    StableHlo.binary main_v20 main_v21 main_v22 (Host.divf : (⟨S256, .f32⟩ : BufTy).Contents (Elt F) → (⟨S256, .f32⟩ : BufTy).Contents (Elt F) → (⟨S256, .f32⟩ : BufTy).Contents (Elt F)),
    StableHlo.nullary main_c_3 (constantI S_ 32 0#32),
    StableHlo.TRef.nullary main_call0.cst (constant S_ .f32 0x00000000#32),
    StableHlo.TRef.binary (.of main_v19) main_call0.cst main_call0.v0 (fun x v => Host.reduceAdd x v reducesTo_S50000x256_S256_d0 h_S_),
    StableHlo.TRef.unary main_call0.v0 main_call0.v1 (broadcastInDim S1x256 ![1] bcast_S256_S1x256_1),
    StableHlo.TRef.nullary main_call0.cst_0 (constant S_ .f32 0x47435000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S50000x256 ![0, 1] bcast_S1x256_S50000x256_0_1),
    StableHlo.TRef.binary (.of main_v19) main_call0.v4 main_call0.v5 subf,
    StableHlo.TRef.binary main_call0.v5 main_call0.v5 main_call0.v6 mulf,
    StableHlo.TRef.unary (.of main_c_3) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v22 main_v24 (broadcastInDim S1x256 ![1] bcast_S256_S1x256_1 : (⟨S256, .f32⟩ : BufTy).Contents (Elt F) → (⟨S1x256, .f32⟩ : BufTy).Contents (Elt F)),
    StableHlo.unary main_v24 main_v25 (broadcastInDim S50000x256 ![0, 1] bcast_S1x256_S50000x256_0_1 : (⟨S1x256, .f32⟩ : BufTy).Contents (Elt F) → (⟨S50000x256, .f32⟩ : BufTy).Contents (Elt F)),
    StableHlo.binary main_v19 main_v25 main_v26 (subf : (⟨S50000x256, .f32⟩ : BufTy).Contents (Elt F) → (⟨S50000x256, .f32⟩ : BufTy).Contents (Elt F) → (⟨S50000x256, .f32⟩ : BufTy).Contents (Elt F)),
    StableHlo.nullary main_cst_4 (constant S_ .f32 0x3727C5AC#32),
    StableHlo.unary main_cst_4 main_v27 (broadcastInDim S256 ![] bcast_S_S256 : (⟨S_, .f32⟩ : BufTy).Contents (Elt F) → (⟨S256, .f32⟩ : BufTy).Contents (Elt F)),
    StableHlo.binary main_v23 main_v27 main_v28 (addf : (⟨S256, .f32⟩ : BufTy).Contents (Elt F) → (⟨S256, .f32⟩ : BufTy).Contents (Elt F) → (⟨S256, .f32⟩ : BufTy).Contents (Elt F)),
    StableHlo.unary main_v28 main_v29 (Host.rsqrt : (⟨S256, .f32⟩ : BufTy).Contents (Elt F) → (⟨S256, .f32⟩ : BufTy).Contents (Elt F)),
    StableHlo.unary main_v29 main_v30 (broadcastInDim S1x256 ![1] bcast_S256_S1x256_1 : (⟨S256, .f32⟩ : BufTy).Contents (Elt F) → (⟨S1x256, .f32⟩ : BufTy).Contents (Elt F)),
    StableHlo.unary main_v30 main_v31 (broadcastInDim S50000x256 ![0, 1] bcast_S1x256_S50000x256_0_1 : (⟨S1x256, .f32⟩ : BufTy).Contents (Elt F) → (⟨S50000x256, .f32⟩ : BufTy).Contents (Elt F)),
    StableHlo.binary main_v26 main_v31 main_v32 (mulf : (⟨S50000x256, .f32⟩ : BufTy).Contents (Elt F) → (⟨S50000x256, .f32⟩ : BufTy).Contents (Elt F) → (⟨S50000x256, .f32⟩ : BufTy).Contents (Elt F)),
    StableHlo.unary main_arg6 main_v33 (broadcastInDim S1x256 ![1] bcast_S256_S1x256_1 : (⟨S256, .f32⟩ : BufTy).Contents (Elt F) → (⟨S1x256, .f32⟩ : BufTy).Contents (Elt F)),
    StableHlo.unary main_v33 main_v34 (broadcastInDim S50000x256 ![0, 1] bcast_S1x256_S50000x256_0_1 : (⟨S1x256, .f32⟩ : BufTy).Contents (Elt F) → (⟨S50000x256, .f32⟩ : BufTy).Contents (Elt F)),
    StableHlo.binary main_v32 main_v34 main_v35 (mulf : (⟨S50000x256, .f32⟩ : BufTy).Contents (Elt F) → (⟨S50000x256, .f32⟩ : BufTy).Contents (Elt F) → (⟨S50000x256, .f32⟩ : BufTy).Contents (Elt F)),
    StableHlo.unary main_arg7 main_v36 (broadcastInDim S1x256 ![1] bcast_S256_S1x256_1 : (⟨S256, .f32⟩ : BufTy).Contents (Elt F) → (⟨S1x256, .f32⟩ : BufTy).Contents (Elt F)),
    StableHlo.unary main_v36 main_v37 (broadcastInDim S50000x256 ![0, 1] bcast_S1x256_S50000x256_0_1 : (⟨S1x256, .f32⟩ : BufTy).Contents (Elt F) → (⟨S50000x256, .f32⟩ : BufTy).Contents (Elt F)),
    StableHlo.binary main_v35 main_v37 main_v38 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v38) main_call1.v0 main_call1.v1 maximumf ]

/-- The second dense layer's four; they end at `main_v43`. -/
abbrev seg3 : List (HloOp τ sig (Elt F)) :=
  [ StableHlo.binary main_v39 main_arg8 main_v40 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg9 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S50000x128 ![0, 1] bcast_S1x128_S50000x128_0_1 : (⟨S1x128, .f32⟩ : BufTy).Contents (Elt F) → (⟨S50000x128, .f32⟩ : BufTy).Contents (Elt F)),
    StableHlo.binary main_v40 main_v42 main_v43 (addf : (⟨S50000x128, .f32⟩ : BufTy).Contents (Elt F) → (⟨S50000x128, .f32⟩ : BufTy).Contents (Elt F) → (⟨S50000x128, .f32⟩ : BufTy).Contents (Elt F)) ]

/-- The last forty-seven: the second layer's mean, variance, normalisation and rectifier; they end at `main_v63`. -/
abbrev seg4 : List (HloOp τ sig (Elt F)) :=
  [ StableHlo.nullary main_cst_5 (constant S_ .f32 0x00000000#32),
    StableHlo.binary main_v43 main_cst_5 main_v44 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_6 (constant S_ .f32 0x47435000#32),
    StableHlo.unary main_cst_6 main_v45 (broadcastInDim S128 ![] bcast_S_S128 : (⟨S_, .f32⟩ : BufTy).Contents (Elt F) → (⟨S128, .f32⟩ : BufTy).Contents (Elt F)),
    StableHlo.binary main_v44 main_v45 main_v46 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call2.cst (constant S_ .f32 0x00000000#32),
    StableHlo.TRef.binary (.of main_v43) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v43) main_call2.v4 main_call2.v5 subf,
    StableHlo.TRef.binary main_call2.v5 main_call2.v5 main_call2.v6 mulf,
    StableHlo.TRef.unary (.of main_c_7) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v46 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v49 main_v50 (subf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3727C5AC#32),
    StableHlo.unary main_cst_8 main_v51 (broadcastInDim S128 ![] bcast_S_S128 : (⟨S_, .f32⟩ : BufTy).Contents (Elt F) → (⟨S128, .f32⟩ : BufTy).Contents (Elt F)),
    StableHlo.binary main_v47 main_v51 main_v52 (addf : (⟨S128, .f32⟩ : BufTy).Contents (Elt F) → (⟨S128, .f32⟩ : BufTy).Contents (Elt F) → (⟨S128, .f32⟩ : BufTy).Contents (Elt F)),
    StableHlo.unary main_v52 main_v53 (Host.rsqrt : (⟨S128, .f32⟩ : BufTy).Contents (Elt F) → (⟨S128, .f32⟩ : BufTy).Contents (Elt F)),
    StableHlo.unary main_v53 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S50000x128 ![0, 1] bcast_S1x128_S50000x128_0_1 : (⟨S1x128, .f32⟩ : BufTy).Contents (Elt F) → (⟨S50000x128, .f32⟩ : BufTy).Contents (Elt F)),
    StableHlo.binary main_v50 main_v55 main_v56 (mulf : (⟨S50000x128, .f32⟩ : BufTy).Contents (Elt F) → (⟨S50000x128, .f32⟩ : BufTy).Contents (Elt F) → (⟨S50000x128, .f32⟩ : BufTy).Contents (Elt F)),
    StableHlo.unary main_arg10 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S50000x128 ![0, 1] bcast_S1x128_S50000x128_0_1 : (⟨S1x128, .f32⟩ : BufTy).Contents (Elt F) → (⟨S50000x128, .f32⟩ : BufTy).Contents (Elt F)),
    StableHlo.binary main_v56 main_v58 main_v59 (mulf : (⟨S50000x128, .f32⟩ : BufTy).Contents (Elt F) → (⟨S50000x128, .f32⟩ : BufTy).Contents (Elt F) → (⟨S50000x128, .f32⟩ : BufTy).Contents (Elt F)),
    StableHlo.unary main_arg11 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S50000x128 ![0, 1] bcast_S1x128_S50000x128_0_1 : (⟨S1x128, .f32⟩ : BufTy).Contents (Elt F) → (⟨S50000x128, .f32⟩ : BufTy).Contents (Elt F)),
    StableHlo.binary main_v59 main_v61 main_v62 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v62) main_call3.v0 main_call3.v1 maximumf ]

/-- The line is its four parts in order. -/
theorem ops_eq : (ops : List (HloOp τ sig (Elt F))) = seg1 ++ seg2 ++ seg3 ++ seg4 := rfl

/-- The contents after the line, part by part. -/
theorem after_ops (V : Valuation τ sig (Elt F)) :
    after (ops (F := F)) V = after seg4 (after seg3 (after seg2 (after seg1 V))) := by
  rw [ops_eq, after_append, after_append, after_append]

end Cert.ReferenceIdeal.RefValue

end
-- ==== Proof.RefArgs.lean ====
/-
  No operation of the reference writes an argument: each argument buffer holds after the line what it held at launch.
-/
import proofs.«181591_j57105885168079_2_alg».proof.Proof.RefRun

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

theorem arg0_eq (V : Valuation τ sig (Elt F)) :
    after (ops (F := F)) V (main_arg0 : DevRef τ sig) = V (main_arg0 : DevRef τ sig) := by
  after_results_simp

theorem arg1_eq (V : Valuation τ sig (Elt F)) :
    after (ops (F := F)) V (main_arg1 : DevRef τ sig) = V (main_arg1 : DevRef τ sig) := by
  after_results_simp

theorem arg2_eq (V : Valuation τ sig (Elt F)) :
    after (ops (F := F)) V (main_arg2 : DevRef τ sig) = V (main_arg2 : DevRef τ sig) := by
  after_results_simp

theorem arg3_eq (V : Valuation τ sig (Elt F)) :
    after (ops (F := F)) V (main_arg3 : DevRef τ sig) = V (main_arg3 : DevRef τ sig) := by
  after_results_simp

theorem arg4_eq (V : Valuation τ sig (Elt F)) :
    after (ops (F := F)) V (main_arg4 : DevRef τ sig) = V (main_arg4 : DevRef τ sig) := by
  after_results_simp

theorem arg5_eq (V : Valuation τ sig (Elt F)) :
    after (ops (F := F)) V (main_arg5 : DevRef τ sig) = V (main_arg5 : DevRef τ sig) := by
  after_results_simp

theorem arg6_eq (V : Valuation τ sig (Elt F)) :
    after (ops (F := F)) V (main_arg6 : DevRef τ sig) = V (main_arg6 : DevRef τ sig) := by
  after_results_simp

theorem arg7_eq (V : Valuation τ sig (Elt F)) :
    after (ops (F := F)) V (main_arg7 : DevRef τ sig) = V (main_arg7 : DevRef τ sig) := by
  after_results_simp

theorem arg8_eq (V : Valuation τ sig (Elt F)) :
    after (ops (F := F)) V (main_arg8 : DevRef τ sig) = V (main_arg8 : DevRef τ sig) := by
  after_results_simp

theorem arg9_eq (V : Valuation τ sig (Elt F)) :
    after (ops (F := F)) V (main_arg9 : DevRef τ sig) = V (main_arg9 : DevRef τ sig) := by
  after_results_simp

theorem arg10_eq (V : Valuation τ sig (Elt F)) :
    after (ops (F := F)) V (main_arg10 : DevRef τ sig) = V (main_arg10 : DevRef τ sig) := by
  after_results_simp

theorem arg11_eq (V : Valuation τ sig (Elt F)) :
    after (ops (F := F)) V (main_arg11 : DevRef τ sig) = V (main_arg11 : DevRef τ sig) := by
  after_results_simp

theorem arg12_eq (V : Valuation τ sig (Elt F)) :
    after (ops (F := F)) V (main_arg12 : DevRef τ sig) = V (main_arg12 : DevRef τ sig) := by
  after_results_simp

end Cert.ReferenceIdeal.RefValue

end
-- ==== Proof.LibHostProduct.lean ====
/-
  The host's matrix product read at an index, and two small reads of host broadcasts.

  * `dotGeneral_ix2`: the host's plain product `[M, K] × [K, N]`, read at `(p, q)`, is the sum over the contracted
    coordinate `k : Fin K` of `lhs (p, k) * rhs (k, q)` on the extended reals (any extents, any float formats);
  * `bias_row_apply`: a length-`n` vector laid as a `1 × n` row and spread over `a` rows reads at `(r, k)` its entry `k`;
  * `splat_apply`: a rank-0 constant spread over any shape reads at every index the constant's value.
-/
import Idealize.ShloMosaic.Lib.Pipeline.Value
import Idealize.ShloMosaic.Lib.ValueIdx
import Idealize.ShloMosaic.PureOps.Ideal.Laws
import proofs.«181591_j57105885168079_2_alg».proof.Proof.LibBlock

noncomputable section

open scoped BigOperators

namespace Cert.LibHostProduct

open Idealize.ShloMosaic Idealize.ShloMosaic.ValueIdx

section Product
variable {M K N : Nat} (D : DotDims ⟨2, ![M, K]⟩ ⟨2, ![K, N]⟩ ⟨2, ![M, N]⟩)

/-- The host's plain product `[M, K] × [K, N]` read at `(p, q)`: `∑ₖ lhs (p, k) * rhs (k, q)`. -/
theorem dotGeneral_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral D prec lhs rhs (ix2 p q) = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.dotGeneral_apply D prec .single lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact LibBlock.lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact LibBlock.rhsIdx_val_col D hlb hln hrb hrn _ _)
  rw [el, er]

end Product

/-- A length-`n` vector laid as a `1 × n` row, then spread over `a` rows, read at `(r, k)`: entry `k`. -/
theorem bias_row_apply {α : Type} {a n : Nat} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2))
    (r : Fin a) (k : Fin n) :
    broadcastInDim ⟨2, ![a, n]⟩ ![0, 1] h2 (broadcastInDim ⟨2, ![1, n]⟩ ![1] h1 b) (ix2 r k) = b (ix1 k) := by
  refine (broadcastInDim_apply _ h2 _ (ix2 r k) (ix2 (0 : Fin 1) k) fun ax => ?_).trans ?_
  · match ax with
    | ⟨0, _⟩ => rfl
    | ⟨1, _⟩ =>
      show k.val = if n = 1 then 0 else k.val
      split
      · have := k.isLt; omega
      · rfl
  · refine broadcastInDim_apply _ h1 b (ix2 (0 : Fin 1) k) (ix1 k) fun ax => ?_
    match ax with
    | ⟨0, _⟩ =>
      show k.val = if n = 1 then 0 else k.val
      split
      · have := k.isLt; omega
      · rfl

/-- A rank-0 value spread over any shape reads at every index that value. -/
theorem splat_apply {α : Type} {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

end Cert.LibHostProduct

end
-- ==== Proof.RefStages.lean ====
/-
  The reference's stages as array terms, each read at an index.

  One dense layer followed by the centred batch normalisation and the rectifier, as the reference spells it on whole
  arrays — a column sum from the zero word, a quotient by the broadcast count, the centred squares summed and divided
  again (by the count minus the converted integer zero, under a select on that divisor being positive), the
  reciprocal root of the variance plus the regulariser, the scale and the offset spread over the rows, the maximum
  against the zero splat — is stated here once for any row count `P` and width `J`, over the shape facts of that
  layer, and read at an index: each stage is the specification's function of the coordinates of its operands.
-/
import Idealize.ShloMosaic.PureOps.Ideal
import Idealize.ShloMosaic.PureOps.Ideal.Laws
import Idealize.ShloMosaic.Lib.IdealHost
import Idealize.ShloMosaic.Lib.ValueIdx
import Idealize.ShloMosaic.Lib.Pipeline.Value
import proofs.«181591_j57105885168079_2_alg».proof.Proof.Spec
import proofs.«181591_j57105885168079_2_alg».proof.Proof.LibHostProduct

noncomputable section

open scoped BigOperators

namespace Cert.Gin.Stage

open Idealize.ShloMosaic Idealize.ShloMosaic.ValueIdx Cert.LibHostProduct Cert.Gin

/-- The rank-0 shape, a length-`J` vector, a `1 × J` row, a `P × J` matrix. -/
abbrev Ss : Shape := ⟨0, ![]⟩
abbrev Sv (J : Nat) : Shape := ⟨1, ![J]⟩
abbrev Sr (J : Nat) : Shape := ⟨2, ![1, J]⟩
abbrev Sm (P J : Nat) : Shape := ⟨2, ![P, J]⟩

abbrev A1 (J : Nat) : Type := FVec Ideal (Sv J) .f32
abbrev A2 (P J : Nat) : Type := FVec Ideal (Sm P J) .f32

/-- The shape facts one layer's operations take. -/
structure LF (P J : Nat) : Prop where
  row : (Sv J).BroadcastsInDim (Sr J) (![1] : Fin 1 → Fin (Sr J).rank)
  rows : (Sr J).BroadcastsInDim (Sm P J) (![0, 1] : Fin 2 → Fin (Sm P J).rank)
  red : (Sm P J).ReducesTo [0] (Sv J)
  red' : (Sm P J).Reduces [0] (Sv J)
  one : 0 < Ss.numel
  sv : Ss.BroadcastsInDim (Sv J) (![] : Fin 0 → Fin (Sv J).rank)
  sr : Ss.BroadcastsInDim (Sr J) (![] : Fin 0 → Fin (Sr J).rank)
  sm : Ss.BroadcastsInDim (Sm P J) (![] : Fin 0 → Fin (Sm P J).rank)

/-- The four constants, as rank-0 arrays: zero, the count, the regulariser, the not-a-number word. -/
def zeroS : FVec Ideal Ss .f32 := constant (F := Ideal) Ss .f32 0x00000000#32
def cntS : FVec Ideal Ss .f32 := constant (F := Ideal) Ss .f32 0x47435000#32
def regS : FVec Ideal Ss .f32 := constant (F := Ideal) Ss .f32 0x3727C5AC#32
def nanS : FVec Ideal Ss .f32 := constant (F := Ideal) Ss .f32 0x7FC00000#32

section Layer

variable {P J : Nat} (f : LF P J)

/-- A length-`J` vector laid as a row and spread over the `P` rows. -/
def spread (b : A1 J) : A2 P J :=
  broadcastInDim (Sm P J) ![0, 1] f.rows (broadcastInDim (Sr J) ![1] f.row b)

/-- The column sums, from the zero word. -/
def colSum (H : A2 P J) : A1 J := Host.reduceAdd (F := Ideal) H zeroS f.red f.one

/-- The column means. -/
def meanA (H : A2 P J) : A1 J :=
  Host.divf (F := Ideal) (colSum f H) (broadcastInDim (Sv J) ![] f.sv cntS)

/-- The variance's divisor as the reference computes it: the count minus the converted integer zero. -/
def divisor : FVec Ideal Ss .f32 :=
  subf (F := Ideal) cntS (sitofp (F := Ideal) .f32 (constantI Ss 32 0#32))

/-- The entries minus their column's mean, the mean taken on a row and spread. -/
def centred (H : A2 P J) : A2 P J :=
  subf (F := Ideal) H (broadcastInDim (Sm P J) ![0, 1] f.rows
    (Host.divf (F := Ideal) (broadcastInDim (Sr J) ![1] f.row (colSum f H)) (broadcastInDim (Sr J) ![] f.sr cntS)))

/-- The column variances: the centred squares summed, over the divisor, selected against the not-a-number word on the
    divisor being positive. -/
def varA (H : A2 P J) : A1 J :=
  select (broadcastInDim (Sv J) ![] f.sv (cmpf (F := Ideal) .ogt divisor zeroS))
    (Host.divf (F := Ideal) (colSum f (mulf (F := Ideal) (centred f H) (centred f H)))
      (broadcastInDim (Sv J) ![] f.sv divisor))
    (broadcastInDim (Sv J) ![] f.sv (id nanS))

/-- Normalise by centring, scale, offset, rectify. -/
def bnA (H : A2 P J) (g be : A1 J) : A2 P J :=
  maximumf (F := Ideal)
    (addf (F := Ideal)
      (mulf (F := Ideal)
        (mulf (F := Ideal) (subf (F := Ideal) H (spread f (meanA f H)))
          (spread f (Host.rsqrt (F := Ideal) (addf (F := Ideal) (varA f H) (broadcastInDim (Sv J) ![] f.sv regS)))))
        (spread f g))
      (spread f be))
    (broadcastInDim (Sm P J) ![] f.sm zeroS)

/-- A dense layer: the host's product plus the spread bias. -/
def linA {K : Nat} (D : DotDims (Sm P K) (Sm K J) (Sm P J)) (X : A2 P K) (W : A2 K J) (b : A1 J) : A2 P J :=
  addf (F := Ideal) (Host.dotGeneral (F := Ideal) D none X W) (spread f b)

/-! ### Broadcasts at an index -/

theorem rows_apply {α : Type} (x : (Sr J).Idx → α) (p : Fin P) (j : Fin J) :
    broadcastInDim (Sm P J) ![0, 1] f.rows x (ix2 p j) = x (ix2 (0 : Fin 1) j) := by
  refine broadcastInDim_apply _ f.rows x (ix2 p j) (ix2 (0 : Fin 1) j) fun ax => ?_
  match ax with
  | ⟨0, _⟩ => rfl
  | ⟨1, _⟩ =>
    show j.val = if J = 1 then 0 else j.val
    split
    · have := j.isLt; omega
    · rfl

theorem row_apply {α : Type} (b : (Sv J).Idx → α) (j : Fin J) :
    broadcastInDim (Sr J) ![1] f.row b (ix2 (0 : Fin 1) j) = b (ix1 j) := by
  refine broadcastInDim_apply _ f.row b (ix2 (0 : Fin 1) j) (ix1 j) fun ax => ?_
  match ax with
  | ⟨0, _⟩ =>
    show j.val = if J = 1 then 0 else j.val
    split
    · have := j.isLt; omega
    · rfl

theorem spread_apply (b : A1 J) (p : Fin P) (j : Fin J) : spread f b (ix2 p j) = b (ix1 j) :=
  (rows_apply f _ p j).trans (row_apply f b j)

/-! ### The sums and the moments at an index -/

theorem colSum_apply (H : A2 P J) (j : Fin J) : colSum f H (ix1 j) = zer + ∑ p : Fin P, H (ix2 p j) := by
  refine (hostReduceAdd_apply H zeroS f.red f.one (ix1 j)).trans ?_
  refine (Ideal.hostReduceAdd_single f.red f.red' H _ (ix1 j)).trans ?_
  refine congrArg (fun s => zer + s) ?_
  exact Finset.sum_congr rfl fun k _ => congrArg H (funext fun c => Fin.ext (by
    match c with
    | ⟨0, _⟩ => rfl
    | ⟨1, _⟩ => rfl))

theorem meanA_apply (H : A2 P J) (j : Fin J) : meanA f H (ix1 j) = meanR (fun p j => H (ix2 p j)) j := by
  show Ideal.div (colSum f H (ix1 j)) (broadcastInDim (Sv J) ![] f.sv cntS (ix1 j)) = _
  rw [colSum_apply f, splat_apply]
  rfl

/-- The count is the real 50000. -/
theorem cnt_eq : cnt = ((50000 : ℝ) : EReal) := by
  unfold cnt
  simp [Ideal.ofBits, Ideal.ieee, -EReal.coe_mul]; norm_num

theorem zer_eq : zer = 0 := Ideal.ofBits_zero_f32

theorem zer_lt_cnt : zer < cnt := by
  rw [cnt_eq, zer_eq]
  exact EReal.coe_pos.mpr (by norm_num)

/-- The divisor is the count: the integer zero converts to the real zero. -/
theorem divisor_apply : divisor ix0 = cnt := by
  show cnt - (((0#32 : BitVec 32).toInt : ℝ) : EReal) = cnt
  have h0 : (0#32 : BitVec 32).toInt = 0 := by decide
  rw [h0, Int.cast_zero, EReal.coe_zero, sub_zero]

/-- The divisor is positive, so the select keeps the quotient. -/
theorem divisor_pos : cmpf (F := Ideal) .ogt divisor zeroS ix0 = 1#1 := by
  show Ideal.cmp .ogt (divisor ix0) zer = 1#1
  rw [divisor_apply]
  show BitVec.ofBool (decide (zer < cnt)) = 1#1
  rw [decide_eq_true zer_lt_cnt]
  rfl

theorem centred_apply (H : A2 P J) (p : Fin P) (j : Fin J) :
    centred f H (ix2 p j) = H (ix2 p j) - meanR (fun p j => H (ix2 p j)) j := by
  show H (ix2 p j) - broadcastInDim (Sm P J) ![0, 1] f.rows
      (Host.divf (F := Ideal) (broadcastInDim (Sr J) ![1] f.row (colSum f H)) (broadcastInDim (Sr J) ![] f.sr cntS)) (ix2 p j) = _
  rw [rows_apply f]
  show H (ix2 p j) - Ideal.div (broadcastInDim (Sr J) ![1] f.row (colSum f H) (ix2 (0 : Fin 1) j))
      (broadcastInDim (Sr J) ![] f.sr cntS (ix2 (0 : Fin 1) j)) = _
  rw [row_apply f, colSum_apply f, splat_apply]
  rfl

theorem varA_apply (H : A2 P J) (j : Fin J) : varA f H (ix1 j) = varR (fun p j => H (ix2 p j)) j := by
  show Scalar.select (broadcastInDim (Sv J) ![] f.sv (cmpf (F := Ideal) .ogt divisor zeroS) (ix1 j))
      (Ideal.div (colSum f (mulf (F := Ideal) (centred f H) (centred f H)) (ix1 j))
        (broadcastInDim (Sv J) ![] f.sv divisor (ix1 j)))
      (broadcastInDim (Sv J) ![] f.sv (id nanS) (ix1 j)) = _
  rw [splat_apply, splat_apply, divisor_pos, select_one, colSum_apply f, divisor_apply]
  unfold varR
  refine congrArg (fun s => Ideal.div (zer + s) cnt) (Finset.sum_congr rfl fun p _ => ?_)
  show centred f H (ix2 p j) * centred f H (ix2 p j) = _
  rw [centred_apply f]

/-! ### The stages at an index -/

theorem bnA_apply (H : A2 P J) (g be : A1 J) (p : Fin P) (j : Fin J) :
    bnA f H g be (ix2 p j) = bnR (fun p j => H (ix2 p j)) (fun j => g (ix1 j)) (fun j => be (ix1 j)) p j := by
  show max ((H (ix2 p j) - spread f (meanA f H) (ix2 p j))
        * spread f (Host.rsqrt (F := Ideal) (addf (F := Ideal) (varA f H) (broadcastInDim (Sv J) ![] f.sv regS))) (ix2 p j)
        * spread f g (ix2 p j) + spread f be (ix2 p j))
      (broadcastInDim (Sm P J) ![] f.sm zeroS (ix2 p j)) = _
  rw [spread_apply f, spread_apply f, spread_apply f, spread_apply f, splat_apply, meanA_apply f]
  show max ((_ - _) * Ideal.rsqrt (varA f H (ix1 j) + broadcastInDim (Sv J) ![] f.sv regS (ix1 j)) * _ + _) _ = _
  rw [varA_apply f, splat_apply]
  rfl

theorem linA_apply {K : Nat} (D : DotDims (Sm P K) (Sm K J) (Sm P J))
    (hlc : D.lhsContracting = [1]) (hrc : D.rhsContracting = [0]) (hlb : D.lhsBatch = [])
    (hln : D.lhsNonContracting = [0]) (hrb : D.rhsBatch = []) (hrn : D.rhsNonContracting = [1])
    (X : A2 P K) (W : A2 K J) (b : A1 J) (p : Fin P) (j : Fin J) :
    linA f D X W b (ix2 p j) = lin (fun p k => X (ix2 p k)) (fun k j => W (ix2 k j)) (fun j => b (ix1 j)) p j := by
  show Host.dotGeneral (F := Ideal) D none X W (ix2 p j) + spread f b (ix2 p j) = _
  rw [dotGeneral_ix2 D hlc hrc hlb hln hrb hrn, spread_apply f]
  rfl

end Layer

/-- The perceptron's input: the aggregate plus the broadcast scalar times the features. -/
def residA {P K : Nat} (h : (Sm 1 1).BroadcastsInDim (Sm P K) (![0, 1] : Fin 2 → Fin (Sm P K).rank))
    (A v : A2 P K) (e : FVec Ideal (Sm 1 1) .f32) : A2 P K :=
  addf (F := Ideal) A (mulf (F := Ideal) (broadcastInDim (Sm P K) ![0, 1] h e) v)

theorem residA_apply {P K : Nat} (h : (Sm 1 1).BroadcastsInDim (Sm P K) (![0, 1] : Fin 2 → Fin (Sm P K).rank))
    (A v : A2 P K) (e : FVec Ideal (Sm 1 1) .f32) (p : Fin P) (k : Fin K) :
    residA h A v e (ix2 p k)
      = resid (fun p k => A (ix2 p k)) (fun p k => v (ix2 p k)) (e (ix2 (0 : Fin 1) (0 : Fin 1))) p k := by
  show A (ix2 p k) + broadcastInDim (Sm P K) ![0, 1] h e (ix2 p k) * v (ix2 p k) = _
  rw [broadcastInDim_apply _ h e (ix2 p k) (ix2 (0 : Fin 1) (0 : Fin 1)) fun ax => by
    match ax with
    | ⟨0, _⟩ => rfl
    | ⟨1, _⟩ => rfl]
  rfl

end Cert.Gin.Stage

end
-- ==== Proof.RefRead.lean ====
/-
  The reference's result as a term of its thirteen arguments, its run, and the result read at an index.

  The run's fold over the launch contents, read at the result buffer, is the composition of the stages — the shared
  aggregation, the residual input, and twice a dense layer under the centred batch normalisation and the rectifier —
  of the argument arrays; no operation writes an argument. Read at an index the composition is the specification's
  `outR` of the arguments' coordinates.
-/
import proofs.«181591_j57105885168079_2_alg».proof.Proof.RefSeg
import proofs.«181591_j57105885168079_2_alg».proof.Proof.RefArgs
import proofs.«181591_j57105885168079_2_alg».proof.Proof.RefStages
import proofs.«181591_j57105885168079_2_alg».proof.Proof.Agg

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Gin Cert.Gin.Stage

/-- The shape facts of the first layer (50000 rows of 256) and of the second (50000 rows of 128). -/
theorem lf1 : LF 50000 256 :=
  ⟨bcast_S256_S1x256_1, bcast_S1x256_S50000x256_0_1, reducesTo_S50000x256_S256_d0, by decide, h_S_, bcast_S_S256,
    bcast_S_S1x256, bcast_S_S50000x256⟩
theorem lf2 : LF 50000 128 :=
  ⟨bcast_S128_S1x128_1, bcast_S1x128_S50000x128_0_1, reducesTo_S50000x128_S128_d0, by decide, h_S_, bcast_S_S128,
    bcast_S_S1x128, bcast_S_S50000x128⟩

/-- What the reference computes from its thirteen arguments' contents. -/
def result (a0 : (⟨S50000x128, .f32⟩ : BufTy).Contents (Elt Ideal)) (a1 a2 : (⟨S800000, .i32⟩ : BufTy).Contents (Elt Ideal))
    (a3 : (⟨S800000, .f32⟩ : BufTy).Contents (Elt Ideal)) (a4 : (⟨S128x256, .f32⟩ : BufTy).Contents (Elt Ideal))
    (a5 a6 a7 : (⟨S256, .f32⟩ : BufTy).Contents (Elt Ideal)) (a8 : (⟨S256x128, .f32⟩ : BufTy).Contents (Elt Ideal))
    (a9 a10 a11 : (⟨S128, .f32⟩ : BufTy).Contents (Elt Ideal)) (a12 : (⟨S1x1, .f32⟩ : BufTy).Contents (Elt Ideal)) :
    (⟨S50000x128, .f32⟩ : BufTy).Contents (Elt Ideal) :=
  bnA lf2
    (linA lf2 dot_S50000x256_S256x128_S50000x128_1_0_0_1_n_n
      (bnA lf1
        (linA lf1 dot_S50000x128_S128x256_S50000x256_1_0_0_1_n_n
          (residA Facts₀.bcast_S1x1_S50000x128_0_1
            (Cert.Gin.agg gather_S50000x128_S800000x1_S800000x128_1_0_n_n_0_1_1128 scatter_S50000x128_S800000x1_S800000x128_1_0_0_1
              Facts₀.bcast_S800000_S800000x1_0 Facts₀.bcast_S_S800000 Facts₀.bcast_S800000x1_S800000x128_0_1
              Facts₀.bcast_S_S50000x128 a0 a1 a2 a3)
            a0 a12)
          a4 a5)
        a6 a7)
      a8 a9)
    a10 a11

/-! ### The four parts of the line, each read at the array it ends at -/

section Parts

-- the sums, the gather and the scatter are compared as whole operations, never opened
attribute [local irreducible] Host.reduceAdd Host.gather Host.scatterAdd

/-- After the first part the first dense layer's array is the layer of the residual input of the aggregate. -/
theorem seg1_out (W : Valuation τ sig (Elt Ideal)) :
    after (seg1 (F := Ideal)) W (main_v19 : DevRef τ sig)
      = linA lf1 dot_S50000x128_S128x256_S50000x256_1_0_0_1_n_n
          (residA Facts₀.bcast_S1x1_S50000x128_0_1
            (Cert.Gin.agg gather_S50000x128_S800000x1_S800000x128_1_0_n_n_0_1_1128 scatter_S50000x128_S800000x1_S800000x128_1_0_0_1
            Facts₀.bcast_S800000_S800000x1_0 Facts₀.bcast_S_S800000 Facts₀.bcast_S800000x1_S800000x128_0_1
            Facts₀.bcast_S_S50000x128 (W (main_arg0 : DevRef τ sig)) (W (main_arg1 : DevRef τ sig)) (W (main_arg2 : DevRef τ sig)) (W (main_arg3 : DevRef τ sig)))
            (W (main_arg0 : DevRef τ sig)) (W (main_arg12 : DevRef τ sig)))
          (W (main_arg4 : DevRef τ sig)) (W (main_arg5 : DevRef τ sig)) := by
  after_results_simp
  rfl

/-- After the second part the rectified array is the normalisation of the first layer's array. -/
theorem seg2_out (W : Valuation τ sig (Elt Ideal)) :
    after (seg2 (F := Ideal)) W (main_v39 : DevRef τ sig)
      = bnA lf1 (W (main_v19 : DevRef τ sig)) (W (main_arg6 : DevRef τ sig)) (W (main_arg7 : DevRef τ sig)) := by
  after_results_simp
  rfl

/-- After the third part: the second dense layer. -/
theorem seg3_out (W : Valuation τ sig (Elt Ideal)) :
    after (seg3 (F := Ideal)) W (main_v43 : DevRef τ sig)
      = linA lf2 dot_S50000x256_S256x128_S50000x128_1_0_0_1_n_n (W (main_v39 : DevRef τ sig)) (W (main_arg8 : DevRef τ sig)) (W (main_arg9 : DevRef τ sig)) := by
  after_results_simp
  rfl

/-- After the fourth part: the normalisation of the second layer's array. -/
theorem seg4_out (W : Valuation τ sig (Elt Ideal)) :
    after (seg4 (F := Ideal)) W (main_v63 : DevRef τ sig)
      = bnA lf2 (W (main_v43 : DevRef τ sig)) (W (main_arg10 : DevRef τ sig)) (W (main_arg11 : DevRef τ sig)) := by
  after_results_simp
  rfl

end Parts

/-! ### A part writes no argument a later part reads -/

theorem seg1_arg6 (W : Valuation τ sig (Elt Ideal)) :
    after (seg1 (F := Ideal)) W (main_arg6 : DevRef τ sig) = W (main_arg6 : DevRef τ sig) := by
  after_results_simp

theorem seg1_arg7 (W : Valuation τ sig (Elt Ideal)) :
    after (seg1 (F := Ideal)) W (main_arg7 : DevRef τ sig) = W (main_arg7 : DevRef τ sig) := by
  after_results_simp

theorem seg1_arg8 (W : Valuation τ sig (Elt Ideal)) :
    after (seg1 (F := Ideal)) W (main_arg8 : DevRef τ sig) = W (main_arg8 : DevRef τ sig) := by
  after_results_simp

theorem seg1_arg9 (W : Valuation τ sig (Elt Ideal)) :
    after (seg1 (F := Ideal)) W (main_arg9 : DevRef τ sig) = W (main_arg9 : DevRef τ sig) := by
  after_results_simp

theorem seg1_arg10 (W : Valuation τ sig (Elt Ideal)) :
    after (seg1 (F := Ideal)) W (main_arg10 : DevRef τ sig) = W (main_arg10 : DevRef τ sig) := by
  after_results_simp

theorem seg1_arg11 (W : Valuation τ sig (Elt Ideal)) :
    after (seg1 (F := Ideal)) W (main_arg11 : DevRef τ sig) = W (main_arg11 : DevRef τ sig) := by
  after_results_simp

theorem seg2_arg8 (W : Valuation τ sig (Elt Ideal)) :
    after (seg2 (F := Ideal)) W (main_arg8 : DevRef τ sig) = W (main_arg8 : DevRef τ sig) := by
  after_results_simp

theorem seg2_arg9 (W : Valuation τ sig (Elt Ideal)) :
    after (seg2 (F := Ideal)) W (main_arg9 : DevRef τ sig) = W (main_arg9 : DevRef τ sig) := by
  after_results_simp

theorem seg2_arg10 (W : Valuation τ sig (Elt Ideal)) :
    after (seg2 (F := Ideal)) W (main_arg10 : DevRef τ sig) = W (main_arg10 : DevRef τ sig) := by
  after_results_simp

theorem seg2_arg11 (W : Valuation τ sig (Elt Ideal)) :
    after (seg2 (F := Ideal)) W (main_arg11 : DevRef τ sig) = W (main_arg11 : DevRef τ sig) := by
  after_results_simp

theorem seg3_arg10 (W : Valuation τ sig (Elt Ideal)) :
    after (seg3 (F := Ideal)) W (main_arg10 : DevRef τ sig) = W (main_arg10 : DevRef τ sig) := by
  after_results_simp

theorem seg3_arg11 (W : Valuation τ sig (Elt Ideal)) :
    after (seg3 (F := Ideal)) W (main_arg11 : DevRef τ sig) = W (main_arg11 : DevRef τ sig) := by
  after_results_simp

/-- The fold at the result buffer is `result` of the arguments: part by part from the last. -/
theorem out_eq (V : Valuation τ sig (Elt Ideal)) :
    after (ops (F := Ideal)) V (main_v63 : DevRef τ sig) = result
        (V (main_arg0 : DevRef τ sig))
        (V (main_arg1 : DevRef τ sig))
        (V (main_arg2 : DevRef τ sig))
        (V (main_arg3 : DevRef τ sig))
        (V (main_arg4 : DevRef τ sig))
        (V (main_arg5 : DevRef τ sig))
        (V (main_arg6 : DevRef τ sig))
        (V (main_arg7 : DevRef τ sig))
        (V (main_arg8 : DevRef τ sig))
        (V (main_arg9 : DevRef τ sig))
        (V (main_arg10 : DevRef τ sig))
        (V (main_arg11 : DevRef τ sig))
        (V (main_arg12 : DevRef τ sig)) := by
  rw [after_ops, seg4_out, seg3_out, seg3_arg10, seg3_arg11, seg2_out, seg2_arg8, seg2_arg9, seg2_arg10, seg2_arg11,
    seg1_out, seg1_arg6, seg1_arg7, seg1_arg8, seg1_arg9, seg1_arg10, seg1_arg11]
  rfl

/-- On every device, from any memory with zero counters: every weakly fair execution of @main terminates with the
    result buffer at `result` of the arguments' launch contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v63) = result
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v63).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _)⟩)
    (run_all m ρ)

/-- The result at row `p`, column `q`: the specification's function of the arguments' coordinates. -/
theorem result_apply (a0 : (⟨S50000x128, .f32⟩ : BufTy).Contents (Elt Ideal)) (a1 a2 : (⟨S800000, .i32⟩ : BufTy).Contents (Elt Ideal))
    (a3 : (⟨S800000, .f32⟩ : BufTy).Contents (Elt Ideal)) (a4 : (⟨S128x256, .f32⟩ : BufTy).Contents (Elt Ideal))
    (a5 a6 a7 : (⟨S256, .f32⟩ : BufTy).Contents (Elt Ideal)) (a8 : (⟨S256x128, .f32⟩ : BufTy).Contents (Elt Ideal))
    (a9 a10 a11 : (⟨S128, .f32⟩ : BufTy).Contents (Elt Ideal)) (a12 : (⟨S1x1, .f32⟩ : BufTy).Contents (Elt Ideal)) (p : Fin 50000) (q : Fin 128) :
    result a0 a1 a2 a3 a4 a5 a6 a7 a8 a9 a10 a11 a12 (ix2 p q)
      = Cert.Gin.outR
          (fun p k => Cert.Gin.agg gather_S50000x128_S800000x1_S800000x128_1_0_n_n_0_1_1128 scatter_S50000x128_S800000x1_S800000x128_1_0_0_1 Facts₀.bcast_S800000_S800000x1_0 Facts₀.bcast_S_S800000 Facts₀.bcast_S800000x1_S800000x128_0_1 Facts₀.bcast_S_S50000x128 a0 a1 a2 a3 (ix2 p k))
          (fun p k => a0 (ix2 p k)) (a12 (ix2 (0 : Fin 1) (0 : Fin 1))) (fun k j => a4 (ix2 k j)) (fun j => a5 (ix1 j))
          (fun j => a6 (ix1 j)) (fun j => a7 (ix1 j)) (fun k j => a8 (ix2 k j)) (fun j => a9 (ix1 j))
          (fun j => a10 (ix1 j)) (fun j => a11 (ix1 j)) p q := by
  unfold result Cert.Gin.outR
  simp only [bnA_apply, residA_apply,
    linA_apply lf1 dot_S50000x128_S128x256_S50000x256_1_0_0_1_n_n rfl rfl rfl rfl rfl rfl,
    linA_apply lf2 dot_S50000x256_S256x128_S50000x128_1_0_0_1_n_n rfl rfl rfl rfl rfl rfl]

end Cert.ReferenceIdeal.RefValue

end
-- ==== Proof.FiniteAgg.lean ====
/-
  The aggregate is real. At the extended reals the host's accumulating scatter is, at each element, the operand's
  entry plus the sum of the update entries that land on it; the operand is the zero word, and an update entry is an
  edge weight times an entry of the feature array (a gather only reads its operand at some index, and so does a
  broadcast). A finite sum of products of reals is real, so every entry of the aggregate is real whenever the features
  and the weights are — whatever the dimension numbers and whatever the index arrays hold.
-/
import Mathlib.Data.EReal.Operations
import proofs.«181591_j57105885168079_2_alg».proof.Proof.Spec
import proofs.«181591_j57105885168079_2_alg».proof.Proof.Agg

noncomputable section

open scoped BigOperators

namespace Cert.Gin

open Idealize.ShloMosaic

/-! ### Reals among the extended reals are closed under sums and products -/

private theorem real_zero : IsReal (0 : EReal) := ⟨0, rfl⟩

private theorem real_add {x y : EReal} (hx : IsReal x) (hy : IsReal y) : IsReal (x + y) := by
  obtain ⟨a, rfl⟩ := hx; obtain ⟨b, rfl⟩ := hy
  exact ⟨a + b, (EReal.coe_add a b).symm⟩

private theorem real_mul {x y : EReal} (hx : IsReal x) (hy : IsReal y) : IsReal (x * y) := by
  obtain ⟨a, rfl⟩ := hx; obtain ⟨b, rfl⟩ := hy
  exact ⟨a * b, (EReal.coe_mul a b).symm⟩

private theorem real_sum {ι : Type*} (s : Finset ι) (f : ι → EReal) (hf : ∀ i ∈ s, IsReal (f i)) :
    IsReal (∑ i ∈ s, f i) := by
  classical
  induction s using Finset.induction_on with
  | empty => rw [Finset.sum_empty]; exact real_zero
  | insert a s ha ih =>
    rw [Finset.sum_insert ha]
    exact real_add (hf a (Finset.mem_insert_self a s)) (ih fun i hi => hf i (Finset.mem_insert_of_mem hi))

/-! ### Each operation of the aggregation keeps entries real (any shapes) -/

section Ops
variable {s t si su : Shape} {w : Nat}

/-- The word 0x00000000 is the real number zero. -/
private theorem zero_word : Ideal.ofBits .f32 0x00000000#32 = (0 : EReal) := by simp [Ideal.ofBits, Ideal.ieee]

/-- The broadcast zero word is the real number zero at every index. -/
private theorem constant_zero_real (i : s.Idx) : IsReal (constant (F := Ideal) s .f32 0x00000000#32 i) := by
  show IsReal (Ideal.ofBits .f32 0x00000000#32)
  rw [zero_word]; exact real_zero

/-- A broadcast reads its operand at some index. -/
private theorem broadcastInDim_real (dims : Fin s.rank → Fin t.rank) (h : s.BroadcastsInDim t dims) (x : s.Idx → EReal)
    (hx : ∀ i, IsReal (x i)) (j : t.Idx) : IsReal (broadcastInDim t dims h x j) := hx _

/-- A gather reads its operand at some index. -/
private theorem gather_real (d : GatherDims s si t) (x : s.Idx → EReal) (idx : IVec si w)
    (hx : ∀ i, IsReal (x i)) (j : t.Idx) : IsReal (Host.gather d x idx j) := hx _

/-- An elementwise product of real entries. -/
private theorem mulf_real (x y : FVec Ideal s .f32) (hx : ∀ i, IsReal (x i)) (hy : ∀ i, IsReal (y i)) (i : s.Idx) :
    IsReal (mulf (F := Ideal) x y i) := by
  show IsReal (x i * y i)
  exact real_mul (hx i) (hy i)

/-- The accumulating scatter: the operand's entry plus a finite sum of update entries. -/
private theorem scatterAdd_real (d : ScatterDims s si su) (x : FVec Ideal s .f32) (idx : IVec si w) (upd : FVec Ideal su .f32)
    (hx : ∀ i, IsReal (x i)) (hu : ∀ j, IsReal (upd j)) (i : s.Idx) :
    IsReal (Host.scatterAdd (F := Ideal) d x idx upd i) := by
  unfold Host.scatterAdd
  rw [Ideal.hostScatterAdd_def]
  unfold Ideal.hostScatterAdd
  exact real_add (hx i) (real_sum _ _ fun j _ => hu j)

end Ops

/-! ### The aggregate -/

/-- Every entry of the aggregate is real when every feature entry and every edge weight is. -/
theorem agg_real (dg : GatherDims SN SE1 SEC) (ds : ScatterDims SN SE1 SEC)
    (h1 : SE.BroadcastsInDim SE1 (![0] : Fin 1 → Fin SE1.rank)) (h2 : S0.BroadcastsInDim SE (![] : Fin 0 → Fin SE.rank))
    (h3 : SE1.BroadcastsInDim SEC (![0, 1] : Fin 2 → Fin SEC.rank)) (h4 : S0.BroadcastsInDim SN (![] : Fin 0 → Fin SN.rank))
    (v : (⟨SN, .f32⟩ : BufTy).Contents (Elt Ideal)) (rows cols : (⟨SE, .i32⟩ : BufTy).Contents (Elt Ideal))
    (vals : (⟨SE, .f32⟩ : BufTy).Contents (Elt Ideal))
    (hv : ∀ i, IsReal (v i)) (hvals : ∀ i, IsReal (vals i)) :
    ∀ i, IsReal (agg dg ds h1 h2 h3 h4 v rows cols vals i) := by
  intro i
  unfold agg
  refine scatterAdd_real ds _ _ _ ?_ ?_ i
  · exact broadcastInDim_real _ h4 _ constant_zero_real
  · refine mulf_real _ _ ?_ ?_
    · exact broadcastInDim_real _ h3 _ (broadcastInDim_real _ h1 _ hvals)
    · exact gather_real dg _ _ hv

end Cert.Gin

end
-- ==== Proof.FinitePre.lean ====
/-
  The precondition makes every float argument real. The precondition is the conjunction, over the eleven float
  arguments x, of "every entry of |x| is below +∞"; each conjunct is a reduction by "and" over the whole array
  into one word, so that word being 1 says every entry's comparison is 1. On the extended reals |x| = max x (-x),
  and max x (-x) < ⊤ excludes both infinities: what is left is a real number.
-/
import Mathlib.Data.EReal.Operations
import Idealize.ShloMosaic.Lib.ReduceAll
import Idealize.ShloMosaic.Lib.ValueIdx
import proofs.«181591_j57105885168079_2_alg».proof.Defs
import proofs.«181591_j57105885168079_2_alg».proof.Proof.Gen.KernelIdeal
import proofs.«181591_j57105885168079_2_alg».proof.Proof.Gen.Pre_finite_inputs
import proofs.«181591_j57105885168079_2_alg».proof.Proof.Spec

noncomputable section

namespace Cert.Gin

open Idealize.ShloMosaic Idealize.SL.Sem

/-- The word 0x7F800000 is +∞. -/
private theorem inf_word : Ideal.ofBits .f32 0x7F800000#32 = (⊤ : EReal) := by simp [Ideal.ofBits, Ideal.ieee]

/-- An extended real whose absolute value compares below +∞ is a real number. -/
private theorem real_of_abs_lt_inf (x : Ideal .f32)
    (h : FloatOps.cmpf (F := Ideal) .olt (FloatOps.hostAbsf x) (FloatOps.ofBits (F := Ideal) .f32 0x7F800000#32) = 1#1) :
    IsReal x := by
  change Ideal.cmp .olt (max x (-x)) (Ideal.ofBits .f32 0x7F800000#32) = 1#1 at h
  rw [inf_word] at h
  unfold Ideal.cmp at h
  induction x using EReal.rec with
  | bot => simp at h
  | coe r => exact ⟨r, rfl⟩
  | top => simp at h

/-- One array, any shape: if "all (|x| < +∞)" is 1 then every entry of x is real. -/
private theorem real_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1) (j : (⟨0, ![]⟩ : Shape).Idx)
    (e : Host.reduce IntOp.andi
        (cmpf .olt (Host.absf x) (broadcastInDim s ![] hb (constant (F := Ideal) ⟨0, ![]⟩ .f32 0x7F800000#32)))
        init hr hu j = 1#1) :
    ∀ i, IsReal (x i) := fun i =>
  haveI : Subsingleton (⟨0, ![]⟩ : Shape).Idx := ⟨fun a b => funext fun d => d.elim0⟩
  real_of_abs_lt_inf (x i) (Host.reduce_andi_all _ init hr hu j e i)

/-- Under the precondition every entry of each of the eleven float arguments is real. -/
theorem pre_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i)) ∧
    (∀ i, IsReal (m ((c.tc : Thread Cert.KernelIdeal.nD Cert.KernelIdeal.τ).loc Cert.KernelIdeal.main_arg3) i)) ∧
    (∀ i, IsReal (m ((c.tc : Thread Cert.KernelIdeal.nD Cert.KernelIdeal.τ).loc Cert.KernelIdeal.main_arg4) i)) ∧
    (∀ i, IsReal (m ((c.tc : Thread Cert.KernelIdeal.nD Cert.KernelIdeal.τ).loc Cert.KernelIdeal.main_arg5) i)) ∧
    (∀ i, IsReal (m ((c.tc : Thread Cert.KernelIdeal.nD Cert.KernelIdeal.τ).loc Cert.KernelIdeal.main_arg6) i)) ∧
    (∀ i, IsReal (m ((c.tc : Thread Cert.KernelIdeal.nD Cert.KernelIdeal.τ).loc Cert.KernelIdeal.main_arg7) i)) ∧
    (∀ i, IsReal (m ((c.tc : Thread Cert.KernelIdeal.nD Cert.KernelIdeal.τ).loc Cert.KernelIdeal.main_arg8) i)) ∧
    (∀ i, IsReal (m ((c.tc : Thread Cert.KernelIdeal.nD Cert.KernelIdeal.τ).loc Cert.KernelIdeal.main_arg9) i)) ∧
    (∀ i, IsReal (m ((c.tc : Thread Cert.KernelIdeal.nD Cert.KernelIdeal.τ).loc Cert.KernelIdeal.main_arg10) i)) ∧
    (∀ i, IsReal (m ((c.tc : Thread Cert.KernelIdeal.nD Cert.KernelIdeal.τ).loc Cert.KernelIdeal.main_arg11) i)) ∧
    (∀ i, IsReal (m ((c.tc : Thread Cert.KernelIdeal.nD Cert.KernelIdeal.τ).loc Cert.KernelIdeal.main_arg12) i)) := by
  have e := congrFun (h c) ValueIdx.ix0
  simp only [Cert.Pre_finite_inputs.fn, Cert.Pre_finite_inputs.fn_part1, Cert.Pre_finite_inputs.fn_part2,
    Cert.Pre_finite_inputs.fn_part3, andi, IntOp.andi_eq_one] at e
  obtain ⟨⟨⟨⟨⟨⟨⟨⟨⟨⟨e0, e3⟩, e4⟩, e5⟩, e6⟩, e7⟩, e8⟩, e9⟩, e10⟩, e11⟩, e12⟩ := e
  exact ⟨real_of_all _ _ _ _ _ _ e0, real_of_all _ _ _ _ _ _ e3, real_of_all _ _ _ _ _ _ e4,
    real_of_all _ _ _ _ _ _ e5, real_of_all _ _ _ _ _ _ e6, real_of_all _ _ _ _ _ _ e7,
    real_of_all _ _ _ _ _ _ e8, real_of_all _ _ _ _ _ _ e9, real_of_all _ _ _ _ _ _ e10,
    real_of_all _ _ _ _ _ _ e11, real_of_all _ _ _ _ _ _ e12⟩

end Cert.Gin

end
-- ==== Proof.lean ====
/-
  A graph-isomorphism layer: a Pallas kernel program against its jnp reference, over the extended reals.

  Both programs aggregate the feature rows along the edges (a gather of the source rows, scaled by the edge weights,
  scatter-added at the destination rows), add a scalar times the features, and apply a two-layer perceptron each of
  whose layers is followed by a batch normalisation over the 50000 rows and a rectifier. The aggregation is the same
  host computation in both and is never opened. The kernel program runs the perceptron in three regions: the first
  writes the first dense layer and, per core, the partial column sums of its entries and of their squares; the host
  turns the sums into the normalisation's multiplier and offset; the second region normalises, rectifies and writes
  the second dense layer with its own partial sums; the third normalises and rectifies that. The reference centres
  each layer before squaring. The two normalisations agree on real numbers (the variance identity, then
  distributivity), and every number here is real because every float input is finite: the one place the precondition
  is used.

  The three frames: the two kernel programs' are the generated frame certificates; the reference's is its run with the
  result forgotten. The idealization rewrote nothing. The algebraic claim: the kernel's run names its result as the
  contents of the last segment boundary, read entry by entry as the raw-moment specification of the arguments; the
  reference's run names its result as the centring specification of the same arguments; the bridge equates the two.
-/
import proofs.«181591_j57105885168079_2_alg».proof.Defs
import proofs.«181591_j57105885168079_2_alg».proof.Proof.Gen.Kernel
import proofs.«181591_j57105885168079_2_alg».proof.Proof.Gen.Kernel.Frame
import proofs.«181591_j57105885168079_2_alg».proof.Proof.Gen.KernelIdeal
import proofs.«181591_j57105885168079_2_alg».proof.Proof.Gen.KernelIdeal.Frame
import proofs.«181591_j57105885168079_2_alg».proof.Proof.Gen.ReferenceIdeal
import proofs.«181591_j57105885168079_2_alg».proof.Proof.Gen.Pre_finite_inputs
import proofs.«181591_j57105885168079_2_alg».proof.Proof.KRun
import proofs.«181591_j57105885168079_2_alg».proof.Proof.KV1
import proofs.«181591_j57105885168079_2_alg».proof.Proof.RefRead
import proofs.«181591_j57105885168079_2_alg».proof.Proof.Bridge
import proofs.«181591_j57105885168079_2_alg».proof.Proof.FiniteAgg
import proofs.«181591_j57105885168079_2_alg».proof.Proof.FinitePre

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- The two programs' dimension records of the gather and of the scatter are the same records. -/
theorem gather_eq : Cert.ReferenceIdeal.gather_S50000x128_S800000x1_S800000x128_1_0_n_n_0_1_1128
    = Cert.KernelIdeal.gather_S50000x128_S800000x1_S800000x128_1_0_n_n_0_1_1128 := rfl
theorem scatter_eq : Cert.ReferenceIdeal.scatter_S50000x128_S800000x1_S800000x128_1_0_0_1
    = Cert.KernelIdeal.scatter_S50000x128_S800000x1_S800000x128_1_0_0_1 := rfl

/-- From finite inputs the kernel's raw-moment result is the reference's centred result, entry by entry. -/
theorem bridge (m : (ℓ : Loc Cert.KernelIdeal.nD Cert.KernelIdeal.τ Cert.KernelIdeal.sig) → Buf (Elt Ideal) ℓ) (hpre : Cert.Pre_KernelIdeal m)
    (c : Dev Cert.KernelIdeal.nD) (p : Fin 50000) (q : Fin 128) :
    Cert.Gin.outK (Cert.KernelIdeal.KValue.aA m c) (Cert.KernelIdeal.KValue.aV m c) (Cert.KernelIdeal.KValue.aE m c) (Cert.KernelIdeal.KValue.aW1 m c) (Cert.KernelIdeal.KValue.aB1 m c)
        (Cert.KernelIdeal.KValue.aG1 m c) (Cert.KernelIdeal.KValue.aBe1 m c) (Cert.KernelIdeal.KValue.aW2 m c) (Cert.KernelIdeal.KValue.aB2 m c) (Cert.KernelIdeal.KValue.aG2 m c)
        (Cert.KernelIdeal.KValue.aBe2 m c) p q
      = Cert.Gin.outR (Cert.KernelIdeal.KValue.aA m c) (Cert.KernelIdeal.KValue.aV m c) (Cert.KernelIdeal.KValue.aE m c) (Cert.KernelIdeal.KValue.aW1 m c) (Cert.KernelIdeal.KValue.aB1 m c)
        (Cert.KernelIdeal.KValue.aG1 m c) (Cert.KernelIdeal.KValue.aBe1 m c) (Cert.KernelIdeal.KValue.aW2 m c) (Cert.KernelIdeal.KValue.aB2 m c) (Cert.KernelIdeal.KValue.aG2 m c)
        (Cert.KernelIdeal.KValue.aBe2 m c) p q := by
  obtain ⟨r0, r3, r4, r5, r6, r7, r8, r9, r10, r11, r12⟩ := Cert.Gin.pre_real m hpre c
  refine congrFun (congrFun (Cert.Gin.outK_eq_outR _ _ _ _ _ _ _ _ _ _ _ ?_ ?_ ?_ ?_ ?_ ?_ ?_ ?_ ?_ ?_ ?_) p) q
  · exact fun p k => Cert.Gin.agg_real _ _ _ _ _ _ _ _ _ _ r0 r3 (ix2 p k)
  · exact fun p k => r0 (ix2 p k)
  · exact r12 (ix2 (0 : Fin 1) (0 : Fin 1))
  · exact fun k j => r4 (ix2 k j)
  · exact fun j => r5 (ix1 j)
  · exact fun j => r6 (ix1 j)
  · exact fun j => r7 (ix1 j)
  · exact fun k j => r8 (ix2 k j)
  · exact fun j => r9 (ix1 j)
  · exact fun j => r10 (ix1 j)
  · exact fun j => r11 (ix1 j)

theorem algebraic : Cert.algebraic_KernelIdeal_ReferenceIdeal := by
  intro m ρ m' ρ' hpre hagree
  refine ⟨fun c => Cert.KernelIdeal.Gen.W6 m ρ c (Proc.devRef .tc Cert.KernelIdeal.main_v67), Cert.KernelIdeal.RunValue.run m ρ, ?_⟩
  refine (θ_run Cert.ReferenceIdeal.defs _ _).mono (fun r h c => ⟨(h c).1.trans ?_, (h c).2⟩) (Cert.ReferenceIdeal.RefValue.run m' ρ')
  obtain ⟨a0, a1, a2, a3, a4, a5, a6, a7, a8, a9, a10, a11, a12⟩ := hagree c
  rw [a0, a1, a2, a3, a4, a5, a6, a7, a8, a9, a10, a11, a12]
  funext i
  obtain ⟨p, q, rfl⟩ : ∃ (p : Fin 50000) (q : Fin 128), i = ix2 p q := ⟨i 0, i 1, eq_ix2 i⟩
  refine (Cert.ReferenceIdeal.RefValue.result_apply _ _ _ _ _ _ _ _ _ _ _ _ _ p q).trans ?_
  refine Eq.trans ?_ (Cert.KernelIdeal.KValue.result_apply m ρ c p q).symm
  rw [gather_eq, scatter_eq]
  exact (bridge m hpre c p q).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
